-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v126)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v126) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x64 : Shape := ⟨2, ![128, 64]⟩
abbrev S64 : Shape := ⟨1, ![64]⟩
abbrev S64x64 : Shape := ⟨2, ![64, 64]⟩
abbrev S4x16 : Shape := ⟨2, ![4, 16]⟩
abbrev S2x1600000 : Shape := ⟨2, ![2, 1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S4x16 : S_.BroadcastsInDim S4x16 (![] : Fin 0 → Fin S4x16.rank)
  reducesTo_S4x16_S_d0_1 : S4x16.ReducesTo [0, 1] S_

variable [Facts]

def fn_part2 {F : FTy → Type} [FloatOps F] (main_arg7 : FVec F S4x16 .f32) (main_arg8 : FVec F S4x16 .f32) (main_v33 : IVec S_ 1) : IVec S_ 1 :=
  let main_v34 : FVec F S4x16 .f32 := Host.absf main_arg7
  let main_cst_12 : FVec F S_ .f32 := constant S_ .f32 0x7F800000#32
  let main_v35 : FVec F S4x16 .f32 := broadcastInDim S4x16 ![] bcast_S_S4x16 main_cst_12
  let main_v36 : IVec S4x16 1 := cmpf .olt main_v34 main_v35
  let main_c_13 : IVec S_ 1 := constantI S_ 1 1#1
  let main_v37 : IVec S_ 1 := (fun x v => Host.reduce IntOp.andi x v reducesTo_S4x16_S_d0_1 h_S_) main_v36 main_c_13
  let main_v38 : IVec S_ 1 := andi main_v33 main_v37
  let main_v39 : FVec F S4x16 .f32 := Host.absf main_arg8
  let main_cst_14 : FVec F S_ .f32 := constant S_ .f32 0x7F800000#32
  let main_v40 : FVec F S4x16 .f32 := broadcastInDim S4x16 ![] bcast_S_S4x16 main_cst_14
  let main_v41 : IVec S4x16 1 := cmpf .olt main_v39 main_v40
  let main_c_15 : IVec S_ 1 := constantI S_ 1 1#1
  let main_v42 : IVec S_ 1 := (fun x v => Host.reduce IntOp.andi x v reducesTo_S4x16_S_d0_1 h_S_) main_v41 main_c_15
  let main_v43 : IVec S_ 1 := andi main_v38 main_v42
  main_v43

def fn_part1 {F : FTy → Type} [FloatOps F] (main_arg4 : FVec F S4x16 .f32) (main_arg5 : FVec F S4x16 .f32) (main_arg6 : FVec F S64x64 .f32) (main_arg7 : FVec F S4x16 .f32) (main_arg8 : FVec F S4x16 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S4x16 .f32 := Host.absf main_arg4
  let main_cst_6 : FVec F S_ .f32 := constant S_ .f32 0x7F800000#32
  let main_v20 : FVec F S4x16 .f32 := broadcastInDim S4x16 ![] bcast_S_S4x16 main_cst_6
  let main_v21 : IVec S4x16 1 := cmpf .olt main_v19 main_v20
  let main_c_7 : IVec S_ 1 := constantI S_ 1 1#1
  let main_v22 : IVec S_ 1 := (fun x v => Host.reduce IntOp.andi x v reducesTo_S4x16_S_d0_1 h_S_) main_v21 main_c_7
  let main_v23 : IVec S_ 1 := andi main_v18 main_v22
  let main_v24 : FVec F S4x16 .f32 := Host.absf main_arg5
  let main_cst_8 : FVec F S_ .f32 := constant S_ .f32 0x7F800000#32
  let main_v25 : FVec F S4x16 .f32 := broadcastInDim S4x16 ![] bcast_S_S4x16 main_cst_8
  let main_v26 : IVec S4x16 1 := cmpf .olt main_v24 main_v25
  let main_c_9 : IVec S_ 1 := constantI S_ 1 1#1
  let main_v27 : IVec S_ 1 := (fun x v => Host.reduce IntOp.andi x v reducesTo_S4x16_S_d0_1 h_S_) main_v26 main_c_9
  let main_v28 : IVec S_ 1 := andi main_v23 main_v27
  let main_v29 : FVec F S64x64 .f32 := Host.absf main_arg6
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg7 main_arg8 main_v33

def fn {F : FTy → Type} [FloatOps F] (main_arg0 : FVec F S100000x128 .f32) (main_arg1 : FVec F S128x64 .f32) (main_arg2 : FVec F S64 .f32) (main_arg3 : FVec F S64x64 .f32) (main_arg4 : FVec F S4x16 .f32) (main_arg5 : FVec F S4x16 .f32) (main_arg6 : FVec F S64x64 .f32) (main_arg7 : FVec F S4x16 .f32) (main_arg8 : FVec F S4x16 .f32) (main_arg9 : IVec S2x1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_arg7 main_arg8 main_v13 main_v16
-- ==== Kernel.lean ====
abbrev S100000x128 : Shape := ⟨2, ![100000, 128]⟩
abbrev S128x64 : Shape := ⟨2, ![128, 64]⟩
abbrev S64 : Shape := ⟨1, ![64]⟩
abbrev S64x64 : Shape := ⟨2, ![64, 64]⟩
abbrev S4x16 : Shape := ⟨2, ![4, 16]⟩
abbrev S2x1600000 : Shape := ⟨2, ![2, 1600000]⟩
abbrev S1x1600000 : Shape := ⟨2, ![1, 1600000]⟩
abbrev S1600000 : Shape := ⟨1, ![1600000]⟩
abbrev S1x64 : Shape := ⟨2, ![1, 64]⟩
abbrev S100000x64 : Shape := ⟨2, ![100000, 64]⟩
abbrev S5000x128 : Shape := ⟨2, ![5000, 128]⟩
abbrev S5000x64 : Shape := ⟨2, ![5000, 64]⟩
abbrev S4 : Shape := ⟨1, ![4]⟩
abbrev S64x1 : Shape := ⟨2, ![64, 1]⟩
abbrev S1x4 : Shape := ⟨2, ![1, 4]⟩
abbrev S64x4 : Shape := ⟨2, ![64, 4]⟩
abbrev S100000x4 : Shape := ⟨2, ![100000, 4]⟩
abbrev S5000x4 : Shape := ⟨2, ![5000, 4]⟩
abbrev S_ : Shape := ⟨0, ![]⟩
abbrev S1600000x1 : Shape := ⟨2, ![1600000, 1]⟩
abbrev S1600000x4 : Shape := ⟨2, ![1600000, 4]⟩
abbrev S1600000x64 : Shape := ⟨2, ![1600000, 64]⟩
abbrev S1600000x4x16 : Shape := ⟨3, ![1600000, 4, 16]⟩

abbrev nBuf : Space → Nat
  | .hbm => 179
  | .vmem => 28
  | .smem => 0
  | _ => 0

abbrev hbmTy0_0 (i : Nat) : BufTy := match i % 128 with
  | 0 => ⟨S100000x128, .f32⟩
  | 1 => ⟨S128x64, .f32⟩
  | 2 => ⟨S64, .f32⟩
  | 3 => ⟨S64x64, .f32⟩
  | 4 => ⟨S4x16, .f32⟩
  | 5 => ⟨S4x16, .f32⟩
  | 6 => ⟨S64x64, .f32⟩
  | 7 => ⟨S4x16, .f32⟩
  | 8 => ⟨S4x16, .f32⟩
  | 9 => ⟨S2x1600000, .i32⟩
  | 10 => ⟨S1x1600000, .i32⟩
  | 11 => ⟨S1600000, .i32⟩
  | 12 => ⟨S1x1600000, .i32⟩
  | 13 => ⟨S1600000, .i32⟩
  | 14 => ⟨S1x64, .f32⟩
  | 15 => ⟨S100000x64, .f32⟩
  | 16 => ⟨S4, .i32⟩
  | 17 => ⟨S4x16, .i32⟩
  | 18 => ⟨S64, .i32⟩
  | 19 => ⟨S64x1, .i32⟩
  | 20 => ⟨S1x4, .i32⟩
  | 21 => ⟨S64x4, .i32⟩
  | 22 => ⟨S64x4, .i32⟩
  | 23 => ⟨S64x4, .i1⟩
  | 24 => ⟨S64x4, .f32⟩
  | 25 => ⟨S64, .f32⟩
  | 26 => ⟨S64, .f32⟩
  | 27 => ⟨S64x1, .f32⟩
  | 28 => ⟨S64x4, .f32⟩
  | 29 => ⟨S64x4, .f32⟩
  | 30 => ⟨S64x1, .f32⟩
  | 31 => ⟨S64x4, .f32⟩
  | 32 => ⟨S64x4, .f32⟩
  | 33 => ⟨S100000x64, .f32⟩
  | 34 => ⟨S100000x4, .f32⟩
  | 35 => ⟨S100000x4, .f32⟩
  | 36 => ⟨S_, .i32⟩
  | 37 => ⟨S1600000, .i32⟩
  | 38 => ⟨S1600000, .i1⟩
  | 39 => ⟨S_, .i32⟩
  | 40 => ⟨S1600000, .i32⟩
  | 41 => ⟨S1600000, .i32⟩
  | 42 => ⟨S1600000, .i32⟩
  | 43 => ⟨S1600000x1, .i32⟩
  | 44 => ⟨S1600000x4, .f32⟩
  | 45 => ⟨S_, .i32⟩
  | 46 => ⟨S1600000, .i32⟩
  | 47 => ⟨S1600000, .i1⟩
  | 48 => ⟨S_, .i32⟩
  | 49 => ⟨S1600000, .i32⟩
  | 50 => ⟨S1600000, .i32⟩
  | 51 => ⟨S1600000, .i32⟩
  | 52 => ⟨S1600000x1, .i32⟩
  | 53 => ⟨S1600000x4, .f32⟩
  | 54 => ⟨S1600000x4, .f32⟩
  | 55 => ⟨S_, .f32⟩
  | 56 => ⟨S1600000x4, .f32⟩
  | 57 => ⟨S1600000x4, .i1⟩
  | 58 => ⟨S_, .f32⟩
  | 59 => ⟨S1600000x4, .f32⟩
  | 60 => ⟨S1600000x4, .f32⟩
  | 61 => ⟨S1600000x4, .f32⟩
  | 62 => ⟨S1600000x4, .f32⟩
  | 63 => ⟨S_, .f32⟩
  | 64 => ⟨S100000x4, .f32⟩
  | 65 => ⟨S1600000x1, .i32⟩
  | 66 => ⟨S100000x4, .f32⟩
  | 67 => ⟨S_, .i32⟩
  | 68 => ⟨S1600000, .i32⟩
  | 69 => ⟨S1600000, .i1⟩
  | 70 => ⟨S_, .i32⟩
  | 71 => ⟨S1600000, .i32⟩
  | 72 => ⟨S1600000, .i32⟩
  | 73 => ⟨S1600000, .i32⟩
  | 74 => ⟨S1600000x1, .i32⟩
  | 75 => ⟨S1600000x4, .f32⟩
  | 76 => ⟨S_, .f32⟩
  | 77 => ⟨S1600000x4, .f32⟩
  | 78 => ⟨S1600000x4, .f32⟩
  | 79 => ⟨S1600000x4, .f32⟩
  | 80 => ⟨S_, .i32⟩
  | 81 => ⟨S1600000, .i32⟩
  | 82 => ⟨S1600000, .i1⟩
  | 83 => ⟨S_, .i32⟩
  | 84 => ⟨S1600000, .i32⟩
  | 85 => ⟨S1600000, .i32⟩
  | 86 => ⟨S1600000, .i32⟩
  | 87 => ⟨S1600000x1, .i32⟩
  | 88 => ⟨S1600000x64, .f32⟩
  | 89 => ⟨S1600000x4x16, .f32⟩
  | 90 => ⟨S1600000x64, .f32⟩
  | 91 => ⟨S1600000x64, .f32⟩
  | 92 => ⟨S_, .f32⟩
  | 93 => ⟨S100000x64, .f32⟩
  | 94 => ⟨S1600000x1, .i32⟩
  | 95 => ⟨S100000x64, .f32⟩
  | 96 => ⟨S4, .i32⟩
  | 97 => ⟨S4x16, .i32⟩
  | 98 => ⟨S64, .i32⟩
  | 99 => ⟨S64x1, .i32⟩
  | 100 => ⟨S1x4, .i32⟩
  | 101 => ⟨S64x4, .i32⟩
  | 102 => ⟨S64x4, .i32⟩
  | 103 => ⟨S64x4, .i1⟩
  | 104 => ⟨S64x4, .f32⟩
  | 105 => ⟨S64, .f32⟩
  | 106 => ⟨S64, .f32⟩
  | 107 => ⟨S64x1, .f32⟩
  | 108 => ⟨S64x4, .f32⟩
  | 109 => ⟨S64x4, .f32⟩
  | 110 => ⟨S64x1, .f32⟩
  | 111 => ⟨S64x4, .f32⟩
  | 112 => ⟨S64x4, .f32⟩
  | 113 => ⟨S100000x64, .f32⟩
  | 114 => ⟨S100000x4, .f32⟩
  | 115 => ⟨S100000x4, .f32⟩
  | 116 => ⟨S_, .i32⟩
  | 117 => ⟨S1600000, .i32⟩
  | 118 => ⟨S1600000, .i1⟩
  | 119 => ⟨S_, .i32⟩
  | 120 => ⟨S1600000, .i32⟩
  | 121 => ⟨S1600000, .i32⟩
  | 122 => ⟨S1600000, .i32⟩
  | 123 => ⟨S1600000x1, .i32⟩
  | 124 => ⟨S1600000x4, .f32⟩
  | 125 => ⟨S_, .i32⟩
  | 126 => ⟨S1600000, .i32⟩
  | 127 => ⟨S1600000, .i1⟩
  | _ => ⟨S100000x128, .f32⟩

abbrev hbmTy0_1 (i : Nat) : BufTy := match i % 128 with
  | 0 => ⟨S_, .i32⟩
  | 1 => ⟨S1600000, .i32⟩
  | 2 => ⟨S1600000, .i32⟩
  | 3 => ⟨S1600000, .i32⟩
  | 4 => ⟨S1600000x1, .i32⟩
  | 5 => ⟨S1600000x4, .f32⟩
  | 6 => ⟨S1600000x4, .f32⟩
  | 7 => ⟨S_, .f32⟩
  | 8 => ⟨S1600000x4, .f32⟩
  | 9 => ⟨S1600000x4, .i1⟩
  | 10 => ⟨S_, .f32⟩
  | 11 => ⟨S1600000x4, .f32⟩
  | 12 => ⟨S1600000x4, .f32⟩
  | 13 => ⟨S1600000x4, .f32⟩
  | 14 => ⟨S1600000x4, .f32⟩
  | 15 => ⟨S_, .f32⟩
  | 16 => ⟨S100000x4, .f32⟩
  | 17 => ⟨S1600000x1, .i32⟩
  | 18 => ⟨S100000x4, .f32⟩
  | 19 => ⟨S_, .i32⟩
  | 20 => ⟨S1600000, .i32⟩
  | 21 => ⟨S1600000, .i1⟩
  | 22 => ⟨S_, .i32⟩
  | 23 => ⟨S1600000, .i32⟩
  | 24 => ⟨S1600000, .i32⟩
  | 25 => ⟨S1600000, .i32⟩
  | 26 => ⟨S1600000x1, .i32⟩
  | 27 => ⟨S1600000x4, .f32⟩
  | 28 => ⟨S_, .f32⟩
  | 29 => ⟨S1600000x4, .f32⟩
  | 30 => ⟨S1600000x4, .f32⟩
  | 31 => ⟨S1600000x4, .f32⟩
  | 32 => ⟨S_, .i32⟩
  | 33 => ⟨S1600000, .i32⟩
  | 34 => ⟨S1600000, .i1⟩
  | 35 => ⟨S_, .i32⟩
  | 36 => ⟨S1600000, .i32⟩
  | 37 => ⟨S1600000, .i32⟩
  | 38 => ⟨S1600000, .i32⟩
  | 39 => ⟨S1600000x1, .i32⟩
  | 40 => ⟨S1600000x64, .f32⟩
  | 41 => ⟨S1600000x4x16, .f32⟩
  | 42 => ⟨S1600000x64, .f32⟩
  | 43 => ⟨S1600000x64, .f32⟩
  | 44 => ⟨S_, .f32⟩
  | 45 => ⟨S100000x64, .f32⟩
  | 46 => ⟨S1600000x1, .i32⟩
  | 47 => ⟨S100000x64, .f32⟩
  | 48 => ⟨S_, .f32⟩
  | 49 => ⟨S100000x64, .f32⟩
  | 50 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S64x64, .f32⟩
  | .local _ .vmem, ⟨9, _⟩ => ⟨S64x4, .f32⟩
  | .local _ .vmem, ⟨10, _⟩ => ⟨S64x4, .f32⟩
  | .local _ .vmem, ⟨11, _⟩ => ⟨S5000x64, .f32⟩
  | .local _ .vmem, ⟨12, _⟩ => ⟨S5000x64, .f32⟩
  | .local _ .vmem, ⟨13, _⟩ => ⟨S5000x4, .f32⟩
  | .local _ .vmem, ⟨14, _⟩ => ⟨S5000x4, .f32⟩
  | .local _ .vmem, ⟨15, _⟩ => ⟨S5000x4, .f32⟩
  | .local _ .vmem, ⟨16, _⟩ => ⟨S5000x4, .f32⟩
  | .local _ .vmem, ⟨17, _⟩ => ⟨S5000x64, .f32⟩
  | .local _ .vmem, ⟨18, _⟩ => ⟨S5000x64, .f32⟩
  | .local _ .vmem, ⟨19, _⟩ => ⟨S64x64, .f32⟩
  | .local _ .vmem, ⟨20, _⟩ => ⟨S64x4, .f32⟩
  | .local _ .vmem, ⟨21, _⟩ => ⟨S64x4, .f32⟩
  | .local _ .vmem, ⟨22, _⟩ => ⟨S5000x64, .f32⟩
  | .local _ .vmem, ⟨23, _⟩ => ⟨S5000x64, .f32⟩
  | .local _ .vmem, ⟨24, _⟩ => ⟨S5000x4, .f32⟩
  | .local _ .vmem, ⟨25, _⟩ => ⟨S5000x4, .f32⟩
  | .local _ .vmem, ⟨26, _⟩ => ⟨S5000x4, .f32⟩
  | .local _ .vmem, ⟨27, _⟩ => ⟨S5000x4, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18_0 : Ref sig .tc := ⟨.hbm, 33, rfl⟩
abbrev main_v18_1 : Ref sig .tc := ⟨.hbm, 34, rfl⟩
abbrev main_v18_2 : Ref sig .tc := ⟨.hbm, 35, rfl⟩
abbrev main_c : Ref sig .tc := ⟨.hbm, 36, rfl⟩
abbrev main_v19 : Ref sig .tc := ⟨.hbm, 37, rfl⟩
abbrev main_v20 : Ref sig .tc := ⟨.hbm, 38, rfl⟩
abbrev main_c_0 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_c_1 : Ref sig .tc := ⟨.hbm, 45, rfl⟩
abbrev main_v26 : Ref sig .tc := ⟨.hbm, 46, rfl⟩
abbrev main_v27 : Ref sig .tc := ⟨.hbm, 47, rfl⟩
abbrev main_c_2 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst : Ref sig .tc := ⟨.hbm, 55, rfl⟩
abbrev main_v34 : Ref sig .tc := ⟨.hbm, 56, rfl⟩
abbrev main_v35 : Ref sig .tc := ⟨.hbm, 57, rfl⟩
abbrev main_cst_3 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_4 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_c_5 : Ref sig .tc := ⟨.hbm, 67, rfl⟩
abbrev main_v43 : Ref sig .tc := ⟨.hbm, 68, rfl⟩
abbrev main_v44 : Ref sig .tc := ⟨.hbm, 69, rfl⟩
abbrev main_c_6 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_7 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_c_8 : Ref sig .tc := ⟨.hbm, 80, rfl⟩
abbrev main_v53 : Ref sig .tc := ⟨.hbm, 81, rfl⟩
abbrev main_v54 : Ref sig .tc := ⟨.hbm, 82, rfl⟩
abbrev main_c_9 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_10 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_call2_v0 : Ref sig .tc := ⟨.hbm, 99, rfl⟩
abbrev main_call2_v1 : Ref sig .tc := ⟨.hbm, 100, rfl⟩
abbrev main_call2_v2 : Ref sig .tc := ⟨.hbm, 101, rfl⟩
abbrev main_call2_v3 : Ref sig .tc := ⟨.hbm, 102, rfl⟩
abbrev main_call2_v4 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78_0 : Ref sig .tc := ⟨.hbm, 113, rfl⟩
abbrev main_v78_1 : Ref sig .tc := ⟨.hbm, 114, rfl⟩
abbrev main_v78_2 : Ref sig .tc := ⟨.hbm, 115, rfl⟩
abbrev main_c_11 : Ref sig .tc := ⟨.hbm, 116, rfl⟩
abbrev main_v79 : Ref sig .tc := ⟨.hbm, 117, rfl⟩
abbrev main_v80 : Ref sig .tc := ⟨.hbm, 118, rfl⟩
abbrev main_c_12 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_c_13 : Ref sig .tc := ⟨.hbm, 125, rfl⟩
abbrev main_v86 : Ref sig .tc := ⟨.hbm, 126, rfl⟩
abbrev main_v87 : Ref sig .tc := ⟨.hbm, 127, rfl⟩
abbrev main_c_14 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_cst_15 : Ref sig .tc := ⟨.hbm, 135, rfl⟩
abbrev main_v94 : Ref sig .tc := ⟨.hbm, 136, rfl⟩
abbrev main_v95 : Ref sig .tc := ⟨.hbm, 137, rfl⟩
abbrev main_cst_16 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_cst_17 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_c_18 : Ref sig .tc := ⟨.hbm, 147, rfl⟩
abbrev main_v103 : Ref sig .tc := ⟨.hbm, 148, rfl⟩
abbrev main_v104 : Ref sig .tc := ⟨.hbm, 149, rfl⟩
abbrev main_c_19 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_cst_20 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_c_21 : Ref sig .tc := ⟨.hbm, 160, rfl⟩
abbrev main_v113 : Ref sig .tc := ⟨.hbm, 161, rfl⟩
abbrev main_v114 : Ref sig .tc := ⟨.hbm, 162, rfl⟩
abbrev main_c_22 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_cst_23 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_call4_cst : Ref sig .tc := ⟨.hbm, 176, rfl⟩
abbrev main_call4_v0 : Ref sig .tc := ⟨.hbm, 177, rfl⟩
abbrev main_v126 : Ref sig .tc := ⟨.hbm, 178, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc1_stg5_0 : Ref sig .tc := ⟨.vmem, 13, rfl⟩
abbrev cc1_stg5_1 : Ref sig .tc := ⟨.vmem, 14, rfl⟩
abbrev cc1_stg6_0 : Ref sig .tc := ⟨.vmem, 15, rfl⟩
abbrev cc1_stg6_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc2_stg5_0 : Ref sig .tc := ⟨.vmem, 24, rfl⟩
abbrev cc2_stg5_1 : Ref sig .tc := ⟨.vmem, 25, rfl⟩
abbrev cc2_stg6_0 : Ref sig .tc := ⟨.vmem, 26, rfl⟩
abbrev cc2_stg6_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem4_1 : DmaSem sig := 12
abbrev cc1_sem5_0 : DmaSem sig := 13
abbrev cc1_sem5_1 : DmaSem sig := 14
abbrev cc1_sem6_0 : DmaSem sig := 15
abbrev cc1_sem6_1 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem3_0 : DmaSem sig := 21
abbrev cc2_sem4_0 : DmaSem sig := 22
abbrev cc2_sem4_1 : DmaSem sig := 23
abbrev cc2_sem5_0 : DmaSem sig := 24
abbrev cc2_sem5_1 : DmaSem sig := 25
abbrev cc2_sem6_0 : DmaSem sig := 26
abbrev cc2_sem6_1 : DmaSem sig := 27

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x4 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x4 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S5000x4 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S5000x4 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x4 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x4 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S5000x4 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S5000x4 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S4_S4x16_0 : S4.BroadcastsInDim S4x16 (![0] : Fin 1 → Fin S4x16.rank)
  shapeCasts_S4x16_S64 : S4x16.ShapeCasts S64
  bcast_S64_S64x1_0 : S64.BroadcastsInDim S64x1 (![0] : Fin 1 → Fin S64x1.rank)
  bcast_S64x1_S64x4_0_1 : S64x1.BroadcastsInDim S64x4 (![0, 1] : Fin 2 → Fin S64x4.rank)
  bcast_S1x4_S64x4_0_1 : S1x4.BroadcastsInDim S64x4 (![0, 1] : Fin 2 → Fin S64x4.rank)
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  inb_S64x4_S64x4_0_0 : ∀ a, (![0, 0] : Fin 2 → Nat) a + S64x4.size a ≤ S64x4.size a
  h_S64x4 : 0 < S64x4.numel
  shapeCasts_S64x4_S64x4 : S64x4.ShapeCasts S64x4
  inb_S5000x4_S5000x4_0_0 : ∀ a, (![0, 0] : Fin 2 → Nat) a + S5000x4.size a ≤ S5000x4.size a
  h_S5000x4 : 0 < S5000x4.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x4 : S_.BroadcastsInDim S1600000x4 (![] : Fin 0 → Fin S1600000x4.rank)
  bcast_S_S100000x4 : S_.BroadcastsInDim S100000x4 (![] : Fin 0 → Fin S100000x4.rank)
  bcast_S1600000x4_S1600000x4x16_0_1 : S1600000x4.BroadcastsInDim S1600000x4x16 (![0, 1] : Fin 2 → Fin S1600000x4x16.rank)
  shapeCasts_S1600000x4x16_S1600000x64 : S1600000x4x16.ShapeCasts S1600000x64
  bcast_S_S100000x64 : S_.BroadcastsInDim S100000x64 (![] : Fin 0 → Fin S100000x64.rank)
  dot_S5000x128_S128x64_S5000x64_1_0_0_1_n_n_wf : DotDims.WF S5000x128 S128x64 S5000x64 [1] [0] [0] [1] [] []
  dot_S5000x64_S64x64_S5000x64_1_0_0_1_n_n_wf : DotDims.WF S5000x64 S64x64 S5000x64 [1] [0] [0] [1] [] []
  dot_S5000x64_S64x4_S5000x4_1_0_0_1_n_n_wf : DotDims.WF S5000x64 S64x4 S5000x4 [1] [0] [0] [1] [] []
  gather_S100000x4_S1600000x1_S1600000x4_1_0_n_n_0_1_14_wf : GatherDims.WF S100000x4 S1600000x1 S1600000x4 [1] [0] [] [0] [] 1 ![1, 4]
  scatter_S100000x4_S1600000x1_S1600000x4_1_0_0_1_wf : ScatterDims.WF S100000x4 S1600000x1 S1600000x4 [1] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x4.size a ≤ S64x4.size a
  hwx1_2 : ∀ i : grid1.Coords, EltTy.bits .f32 = 32 ∨ (Rect.block (s := S64x4) S64x4.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x4.size a ≤ S64x4.size a
  hwx1_3 : ∀ i : grid1.Coords, EltTy.bits .f32 = 32 ∨ (Rect.block (s := S64x4) S64x4.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .f32 = 32 ∨ (Rect.block (s := S100000x64) S5000x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x4.size a ≤ S100000x4.size a
  hwx1_5 : ∀ i : grid1.Coords, EltTy.bits .f32 = 32 ∨ (Rect.block (s := S100000x4) S5000x4.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x4.size a ≤ S100000x4.size a
  hwx1_6 : ∀ i : grid1.Coords, EltTy.bits .f32 = 32 ∨ (Rect.block (s := S100000x4) S5000x4.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x4.size a ≤ S64x4.size a
  hwx2_2 : ∀ i : grid2.Coords, EltTy.bits .f32 = 32 ∨ (Rect.block (s := S64x4) S64x4.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x4.size a ≤ S64x4.size a
  hwx2_3 : ∀ i : grid2.Coords, EltTy.bits .f32 = 32 ∨ (Rect.block (s := S64x4) S64x4.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S100000x64.size a
  hwx2_4 : ∀ i : grid2.Coords, EltTy.bits .f32 = 32 ∨ (Rect.block (s := S100000x64) S5000x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x4.size a ≤ S100000x4.size a
  hwx2_5 : ∀ i : grid2.Coords, EltTy.bits .f32 = 32 ∨ (Rect.block (s := S100000x4) S5000x4.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x4.size a ≤ S100000x4.size a
  hwx2_6 : ∀ i : grid2.Coords, EltTy.bits .f32 = 32 ∨ (Rect.block (s := S100000x4) S5000x4.size (cc2_transform_6 i) (hinb2_6 i)).WholeWords (EltTy.packing .f32)

variable [Facts₀]

def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x4_S5000x4_1_0_0_1_n_n : DotDims S5000x64 S64x4 S5000x4 where
  lhsContracting := [1]
  rhsContracting := [0]
  lhsNonContracting := [0]
  rhsNonContracting := [1]
  lhsBatch := []
  rhsBatch := []
  wf := dot_S5000x64_S64x4_S5000x4_1_0_0_1_n_n_wf
def gather_S100000x4_S1600000x1_S1600000x4_1_0_n_n_0_1_14 : GatherDims S100000x4 S1600000x1 S1600000x4 where
  offsetDims := [1]
  collapsedSliceDims := [0]
  operandBatchingDims := []
  startIndicesBatchingDims := []
  startIndexMap := [0]
  indexVectorDim := 1
  sliceSizes := ![1, 4]
  wf := gather_S100000x4_S1600000x1_S1600000x4_1_0_n_n_0_1_14_wf
def scatter_S100000x4_S1600000x1_S1600000x4_1_0_0_1 : ScatterDims S100000x4 S1600000x1 S1600000x4 where
  updateWindowDims := [1]
  insertedWindowDims := [0]
  scatterDimsToOperandDims := [0]
  indexVectorDim := 1
  wf := scatter_S100000x4_S1600000x1_S1600000x4_1_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v5) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v14) S64x4.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v17) S64x4.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v18_0) S5000x64.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v18_1) S5000x4.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v18_2) S5000x4.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v65) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v74) S64x4.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v77) S64x4.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v78_0) S5000x64.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v78_1) S5000x4.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v78_2) S5000x4.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S100000x128 : Shape := ⟨2, ![100000, 128]⟩
abbrev S128x64 : Shape := ⟨2, ![128, 64]⟩
abbrev S64 : Shape := ⟨1, ![64]⟩
abbrev S64x64 : Shape := ⟨2, ![64, 64]⟩
abbrev S4x16 : Shape := ⟨2, ![4, 16]⟩
abbrev S2x1600000 : Shape := ⟨2, ![2, 1600000]⟩
abbrev S1x1600000 : Shape := ⟨2, ![1, 1600000]⟩
abbrev S1600000 : Shape := ⟨1, ![1600000]⟩
abbrev S100000x64 : Shape := ⟨2, ![100000, 64]⟩
abbrev S1x64 : Shape := ⟨2, ![1, 64]⟩
abbrev S_ : Shape := ⟨0, ![]⟩
abbrev S100000x4x16 : Shape := ⟨3, ![100000, 4, 16]⟩
abbrev S1600000x1 : Shape := ⟨2, ![1600000, 1]⟩
abbrev S1600000x4x16 : Shape := ⟨3, ![1600000, 4, 16]⟩
abbrev S1x4x16 : Shape := ⟨3, ![1, 4, 16]⟩
abbrev S1600000x4 : Shape := ⟨2, ![1600000, 4]⟩
abbrev S100000x4 : Shape := ⟨2, ![100000, 4]⟩
abbrev S1600000x4x1 : Shape := ⟨3, ![1600000, 4, 1]⟩

abbrev nBuf : Space → Nat
  | .hbm => 152
  | .vmem => 0
  | .smem => 0
  | _ => 0

abbrev hbmTy0_0 (i : Nat) : BufTy := match i % 128 with
  | 0 => ⟨S100000x128, .f32⟩
  | 1 => ⟨S128x64, .f32⟩
  | 2 => ⟨S64, .f32⟩
  | 3 => ⟨S64x64, .f32⟩
  | 4 => ⟨S4x16, .f32⟩
  | 5 => ⟨S4x16, .f32⟩
  | 6 => ⟨S64x64, .f32⟩
  | 7 => ⟨S4x16, .f32⟩
  | 8 => ⟨S4x16, .f32⟩
  | 9 => ⟨S2x1600000, .i32⟩
  | 10 => ⟨S1x1600000, .i32⟩
  | 11 => ⟨S1600000, .i32⟩
  | 12 => ⟨S1x1600000, .i32⟩
  | 13 => ⟨S1600000, .i32⟩
  | 14 => ⟨S100000x64, .f32⟩
  | 15 => ⟨S1x64, .f32⟩
  | 16 => ⟨S100000x64, .f32⟩
  | 17 => ⟨S100000x64, .f32⟩
  | 18 => ⟨S_, .f32⟩
  | 19 => ⟨S100000x64, .f32⟩
  | 20 => ⟨S100000x64, .f32⟩
  | 21 => ⟨S100000x64, .f32⟩
  | 22 => ⟨S100000x4x16, .f32⟩
  | 23 => ⟨S_, .i32⟩
  | 24 => ⟨S1600000, .i32⟩
  | 25 => ⟨S1600000, .i1⟩
  | 26 => ⟨S_, .i32⟩
  | 27 => ⟨S1600000, .i32⟩
  | 28 => ⟨S1600000, .i32⟩
  | 29 => ⟨S1600000, .i32⟩
  | 30 => ⟨S1600000x1, .i32⟩
  | 31 => ⟨S1600000x4x16, .f32⟩
  | 32 => ⟨S_, .i32⟩
  | 33 => ⟨S1600000, .i32⟩
  | 34 => ⟨S1600000, .i1⟩
  | 35 => ⟨S_, .i32⟩
  | 36 => ⟨S1600000, .i32⟩
  | 37 => ⟨S1600000, .i32⟩
  | 38 => ⟨S1600000, .i32⟩
  | 39 => ⟨S1600000x1, .i32⟩
  | 40 => ⟨S1600000x4x16, .f32⟩
  | 41 => ⟨S1x4x16, .f32⟩
  | 42 => ⟨S1600000x4x16, .f32⟩
  | 43 => ⟨S1600000x4x16, .f32⟩
  | 44 => ⟨S_, .f32⟩
  | 45 => ⟨S1600000x4, .f32⟩
  | 46 => ⟨S1x4x16, .f32⟩
  | 47 => ⟨S1600000x4x16, .f32⟩
  | 48 => ⟨S1600000x4x16, .f32⟩
  | 49 => ⟨S_, .f32⟩
  | 50 => ⟨S1600000x4, .f32⟩
  | 51 => ⟨S1600000x4, .f32⟩
  | 52 => ⟨S_, .f32⟩
  | 53 => ⟨S1600000x4, .f32⟩
  | 54 => ⟨S1600000x4, .i1⟩
  | 55 => ⟨S_, .f32⟩
  | 56 => ⟨S1600000x4, .f32⟩
  | 57 => ⟨S1600000x4, .f32⟩
  | 58 => ⟨S1600000x4, .f32⟩
  | 59 => ⟨S1600000x4, .f32⟩
  | 60 => ⟨S_, .f32⟩
  | 61 => ⟨S100000x4, .f32⟩
  | 62 => ⟨S1600000x1, .i32⟩
  | 63 => ⟨S100000x4, .f32⟩
  | 64 => ⟨S_, .i32⟩
  | 65 => ⟨S1600000, .i32⟩
  | 66 => ⟨S1600000, .i1⟩
  | 67 => ⟨S_, .i32⟩
  | 68 => ⟨S1600000, .i32⟩
  | 69 => ⟨S1600000, .i32⟩
  | 70 => ⟨S1600000, .i32⟩
  | 71 => ⟨S1600000x1, .i32⟩
  | 72 => ⟨S1600000x4, .f32⟩
  | 73 => ⟨S_, .f32⟩
  | 74 => ⟨S1600000x4, .f32⟩
  | 75 => ⟨S1600000x4, .f32⟩
  | 76 => ⟨S1600000x4, .f32⟩
  | 77 => ⟨S1600000x4x1, .f32⟩
  | 78 => ⟨S1600000x4x16, .f32⟩
  | 79 => ⟨S1600000x4x16, .f32⟩
  | 80 => ⟨S_, .f32⟩
  | 81 => ⟨S100000x4x16, .f32⟩
  | 82 => ⟨S1600000x1, .i32⟩
  | 83 => ⟨S100000x4x16, .f32⟩
  | 84 => ⟨S100000x64, .f32⟩
  | 85 => ⟨S100000x64, .f32⟩
  | 86 => ⟨S100000x4x16, .f32⟩
  | 87 => ⟨S_, .i32⟩
  | 88 => ⟨S1600000, .i32⟩
  | 89 => ⟨S1600000, .i1⟩
  | 90 => ⟨S_, .i32⟩
  | 91 => ⟨S1600000, .i32⟩
  | 92 => ⟨S1600000, .i32⟩
  | 93 => ⟨S1600000, .i32⟩
  | 94 => ⟨S1600000x1, .i32⟩
  | 95 => ⟨S1600000x4x16, .f32⟩
  | 96 => ⟨S_, .i32⟩
  | 97 => ⟨S1600000, .i32⟩
  | 98 => ⟨S1600000, .i1⟩
  | 99 => ⟨S_, .i32⟩
  | 100 => ⟨S1600000, .i32⟩
  | 101 => ⟨S1600000, .i32⟩
  | 102 => ⟨S1600000, .i32⟩
  | 103 => ⟨S1600000x1, .i32⟩
  | 104 => ⟨S1600000x4x16, .f32⟩
  | 105 => ⟨S1x4x16, .f32⟩
  | 106 => ⟨S1600000x4x16, .f32⟩
  | 107 => ⟨S1600000x4x16, .f32⟩
  | 108 => ⟨S_, .f32⟩
  | 109 => ⟨S1600000x4, .f32⟩
  | 110 => ⟨S1x4x16, .f32⟩
  | 111 => ⟨S1600000x4x16, .f32⟩
  | 112 => ⟨S1600000x4x16, .f32⟩
  | 113 => ⟨S_, .f32⟩
  | 114 => ⟨S1600000x4, .f32⟩
  | 115 => ⟨S1600000x4, .f32⟩
  | 116 => ⟨S_, .f32⟩
  | 117 => ⟨S1600000x4, .f32⟩
  | 118 => ⟨S1600000x4, .i1⟩
  | 119 => ⟨S_, .f32⟩
  | 120 => ⟨S1600000x4, .f32⟩
  | 121 => ⟨S1600000x4, .f32⟩
  | 122 => ⟨S1600000x4, .f32⟩
  | 123 => ⟨S1600000x4, .f32⟩
  | 124 => ⟨S_, .f32⟩
  | 125 => ⟨S100000x4, .f32⟩
  | 126 => ⟨S1600000x1, .i32⟩
  | 127 => ⟨S100000x4, .f32⟩
  | _ => ⟨S100000x128, .f32⟩

abbrev hbmTy0_1 (i : Nat) : BufTy := match i % 128 with
  | 0 => ⟨S_, .i32⟩
  | 1 => ⟨S1600000, .i32⟩
  | 2 => ⟨S1600000, .i1⟩
  | 3 => ⟨S_, .i32⟩
  | 4 => ⟨S1600000, .i32⟩
  | 5 => ⟨S1600000, .i32⟩
  | 6 => ⟨S1600000, .i32⟩
  | 7 => ⟨S1600000x1, .i32⟩
  | 8 => ⟨S1600000x4, .f32⟩
  | 9 => ⟨S_, .f32⟩
  | 10 => ⟨S1600000x4, .f32⟩
  | 11 => ⟨S1600000x4, .f32⟩
  | 12 => ⟨S1600000x4, .f32⟩
  | 13 => ⟨S1600000x4x1, .f32⟩
  | 14 => ⟨S1600000x4x16, .f32⟩
  | 15 => ⟨S1600000x4x16, .f32⟩
  | 16 => ⟨S_, .f32⟩
  | 17 => ⟨S100000x4x16, .f32⟩
  | 18 => ⟨S1600000x1, .i32⟩
  | 19 => ⟨S100000x4x16, .f32⟩
  | 20 => ⟨S100000x64, .f32⟩
  | 21 => ⟨S_, .f32⟩
  | 22 => ⟨S100000x64, .f32⟩
  | 23 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_call0_cst : Ref sig .tc := ⟨.hbm, 18, rfl⟩
abbrev main_call0_v0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c : Ref sig .tc := ⟨.hbm, 23, rfl⟩
abbrev main_v11 : Ref sig .tc := ⟨.hbm, 24, rfl⟩
abbrev main_v12 : Ref sig .tc := ⟨.hbm, 25, rfl⟩
abbrev main_c_0 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c_1 : Ref sig .tc := ⟨.hbm, 32, rfl⟩
abbrev main_v18 : Ref sig .tc := ⟨.hbm, 33, rfl⟩
abbrev main_v19 : Ref sig .tc := ⟨.hbm, 34, rfl⟩
abbrev main_c_2 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_3 : Ref sig .tc := ⟨.hbm, 49, rfl⟩
abbrev main_v32 : Ref sig .tc := ⟨.hbm, 50, rfl⟩
abbrev main_v33 : Ref sig .tc := ⟨.hbm, 51, rfl⟩
abbrev main_cst_4 : Ref sig .tc := ⟨.hbm, 52, rfl⟩
abbrev main_v34 : Ref sig .tc := ⟨.hbm, 53, rfl⟩
abbrev main_v35 : Ref sig .tc := ⟨.hbm, 54, rfl⟩
abbrev main_cst_5 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_6 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_c_7 : Ref sig .tc := ⟨.hbm, 64, rfl⟩
abbrev main_v43 : Ref sig .tc := ⟨.hbm, 65, rfl⟩
abbrev main_v44 : Ref sig .tc := ⟨.hbm, 66, rfl⟩
abbrev main_c_8 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_9 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_10 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_c_11 : Ref sig .tc := ⟨.hbm, 87, rfl⟩
abbrev main_v62 : Ref sig .tc := ⟨.hbm, 88, rfl⟩
abbrev main_v63 : Ref sig .tc := ⟨.hbm, 89, rfl⟩
abbrev main_c_12 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_c_13 : Ref sig .tc := ⟨.hbm, 96, rfl⟩
abbrev main_v69 : Ref sig .tc := ⟨.hbm, 97, rfl⟩
abbrev main_v70 : Ref sig .tc := ⟨.hbm, 98, rfl⟩
abbrev main_c_14 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_cst_15 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_cst_16 : Ref sig .tc := ⟨.hbm, 113, rfl⟩
abbrev main_v83 : Ref sig .tc := ⟨.hbm, 114, rfl⟩
abbrev main_v84 : Ref sig .tc := ⟨.hbm, 115, rfl⟩
abbrev main_cst_17 : Ref sig .tc := ⟨.hbm, 116, rfl⟩
abbrev main_v85 : Ref sig .tc := ⟨.hbm, 117, rfl⟩
abbrev main_v86 : Ref sig .tc := ⟨.hbm, 118, rfl⟩
abbrev main_cst_18 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_cst_19 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_c_20 : Ref sig .tc := ⟨.hbm, 128, rfl⟩
abbrev main_v94 : Ref sig .tc := ⟨.hbm, 129, rfl⟩
abbrev main_v95 : Ref sig .tc := ⟨.hbm, 130, rfl⟩
abbrev main_c_21 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_cst_22 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_cst_23 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_call3_cst : Ref sig .tc := ⟨.hbm, 149, rfl⟩
abbrev main_call3_v0 : Ref sig .tc := ⟨.hbm, 150, rfl⟩
abbrev main_v111 : Ref sig .tc := ⟨.hbm, 151, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  shapeCasts_S100000x64_S100000x4x16 : S100000x64.ShapeCasts S100000x4x16
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S4x16_S1x4x16_1_2 : S4x16.BroadcastsInDim S1x4x16 (![1, 2] : Fin 2 → Fin S1x4x16.rank)
  bcast_S1x4x16_S1600000x4x16_0_1_2 : S1x4x16.BroadcastsInDim S1600000x4x16 (![0, 1, 2] : Fin 3 → Fin S1600000x4x16.rank)
  reducesTo_S1600000x4x16_S1600000x4_d2 : S1600000x4x16.ReducesTo [2] S1600000x4
  h_S_ : 0 < S_.numel
  bcast_S_S1600000x4 : S_.BroadcastsInDim S1600000x4 (![] : Fin 0 → Fin S1600000x4.rank)
  bcast_S_S100000x4 : S_.BroadcastsInDim S100000x4 (![] : Fin 0 → Fin S100000x4.rank)
  bcast_S1600000x4_S1600000x4x1_0_1 : S1600000x4.BroadcastsInDim S1600000x4x1 (![0, 1] : Fin 2 → Fin S1600000x4x1.rank)
  bcast_S1600000x4x1_S1600000x4x16_0_1_2 : S1600000x4x1.BroadcastsInDim S1600000x4x16 (![0, 1, 2] : Fin 3 → Fin S1600000x4x16.rank)
  bcast_S_S100000x4x16 : S_.BroadcastsInDim S100000x4x16 (![] : Fin 0 → Fin S100000x4x16.rank)
  shapeCasts_S100000x4x16_S100000x64 : S100000x4x16.ShapeCasts S100000x64
  dot_S100000x128_S128x64_S100000x64_1_0_0_1_n_n_wf : DotDims.WF S100000x128 S128x64 S100000x64 [1] [0] [0] [1] [] []
  dot_S100000x64_S64x64_S100000x64_1_0_0_1_n_n_wf : DotDims.WF S100000x64 S64x64 S100000x64 [1] [0] [0] [1] [] []
  gather_S100000x4x16_S1600000x1_S1600000x4x16_12_0_n_n_0_1_1416_wf : GatherDims.WF S100000x4x16 S1600000x1 S1600000x4x16 [1, 2] [0] [] [0] [] 1 ![1, 4, 16]
  scatter_S100000x4_S1600000x1_S1600000x4_1_0_0_1_wf : ScatterDims.WF S100000x4 S1600000x1 S1600000x4 [1] [0] [0] 1
  gather_S100000x4_S1600000x1_S1600000x4_1_0_n_n_0_1_14_wf : GatherDims.WF S100000x4 S1600000x1 S1600000x4 [1] [0] [] [0] [] 1 ![1, 4]
  scatter_S100000x4x16_S1600000x1_S1600000x4x16_12_0_0_1_wf : ScatterDims.WF S100000x4x16 S1600000x1 S1600000x4x16 [1, 2] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x4x16_S1600000x1_S1600000x4x16_12_0_n_n_0_1_1416 : GatherDims S100000x4x16 S1600000x1 S1600000x4x16 where
  offsetDims := [1, 2]
  collapsedSliceDims := [0]
  operandBatchingDims := []
  startIndicesBatchingDims := []
  startIndexMap := [0]
  indexVectorDim := 1
  sliceSizes := ![1, 4, 16]
  wf := gather_S100000x4x16_S1600000x1_S1600000x4x16_12_0_n_n_0_1_1416_wf
def scatter_S100000x4_S1600000x1_S1600000x4_1_0_0_1 : ScatterDims S100000x4 S1600000x1 S1600000x4 where
  updateWindowDims := [1]
  insertedWindowDims := [0]
  scatterDimsToOperandDims := [0]
  indexVectorDim := 1
  wf := scatter_S100000x4_S1600000x1_S1600000x4_1_0_0_1_wf
def gather_S100000x4_S1600000x1_S1600000x4_1_0_n_n_0_1_14 : GatherDims S100000x4 S1600000x1 S1600000x4 where
  offsetDims := [1]
  collapsedSliceDims := [0]
  operandBatchingDims := []
  startIndicesBatchingDims := []
  startIndexMap := [0]
  indexVectorDim := 1
  sliceSizes := ![1, 4]
  wf := gather_S100000x4_S1600000x1_S1600000x4_1_0_n_n_0_1_14_wf
def scatter_S100000x4x16_S1600000x1_S1600000x4x16_12_0_0_1 : ScatterDims S100000x4x16 S1600000x1 S1600000x4x16 where
  updateWindowDims := [1, 2]
  insertedWindowDims := [0]
  scatterDimsToOperandDims := [0]
  indexVectorDim := 1
  wf := scatter_S100000x4x16_S1600000x1_S1600000x4x16_12_0_0_1_wf

class Facts : Prop extends Facts₀ where

variable [Facts]
-- ==== Proof.KernelRun.lean ====
/-
  The idealized kernel's run with its result named.

  The program is three kernel regions among stretches of host operations. Its run is the fold of the buffer
  contents through those sixteen segments from the launch memory; every weakly fair execution terminates with
  every unscoped buffer at the fold's last contents. The frame certificate reads that final state at the argument
  buffers only; here the same run is read at the result buffer as well, so that the result array is named by
  the fold, and the arguments are as launched.
-/
import proofs.«102483_j80513456931512_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the last
    contents of the fold through the segments, and every argument buffer ends as launched. -/
theorem run_result : θ_run defs (onTc (τ := τ) (main (F := F))) ⟨m, fun _ => 0, ρ⟩ (fun r => ∀ c : Dev nD,
      r.2.mem ((c.tc : Thread nD τ).loc main_v126) = W16 m ρ c (Proc.devRef .tc main_v126)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c =>
      ⟨h c _ (mem_uc main_v126 (by decide)),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c),
       (h c _ (mem_uc main_arg5 (by decide))).trans (W16_main_arg5 m ρ c),
       (h c _ (mem_uc main_arg6 (by decide))).trans (W16_main_arg6 m ρ c),
       (h c _ (mem_uc main_arg7 (by decide))).trans (W16_main_arg7 m ρ c),
       (h c _ (mem_uc main_arg8 (by decide))).trans (W16_main_arg8 m ρ c),
       (h c _ (mem_uc main_arg9 (by decide))).trans (W16_main_arg9 m ρ c)⟩)

end Cert.KernelIdeal.Run

end
-- ==== Proof.KStages.lean ====
/-
  The host side of the idealized kernel, stretch by stretch.

  Between its three kernel regions the program runs plain array operations. Written as functions of whole arrays they are:
  the two rows of the edge list (source and destination node of every edge); an index column made from such a row,
  either as it is (for the accumulating scatter, which drops an index that names no row) or with a negative index
  shifted up by the number of nodes (for the gather, which then clamps); the head-selector matrix of an attention
  vector, `W[q, a] = [q belongs to head a] · att[q / 16, q % 16]`; the edge scores from the per-node projections,
  LeakyReLU, exponential and normalisation by the per-destination sum; and the aggregation of the neighbours' projected
  features weighted by those coefficients. Each stretch of host operations is read back as these functions of what
  the buffers held when the stretch began.
-/
import proofs.«102483_j80513456931512_2_alg».proof.Proof.Gen.KernelIdeal.Launch
import Idealize.ShloMosaic.Lib.StableHlo.Run

set_option maxRecDepth 16384

noncomputable section

namespace Cert.KernelIdeal.Stages

open Cert.KernelIdeal Cert.KernelIdeal.Gen Idealize.ShloMosaic Idealize.ShloMosaic.TcCoe Idealize.SL.Sem Idealize.ShloMosaic.StableHlo

variable {F : FTy → Type} [FloatOps F]

/-- The source node of every edge: row 0 of the edge list. -/
def srcOf (x9 : (⟨S2x1600000, .i32⟩ : BufTy).Contents (Elt F)) : (⟨S1600000, .i32⟩ : BufTy).Contents (Elt F) :=
  shapeCast _ (extractStridedSlice S1x1600000 ![0, 0] x9 slices_S2x1600000_S1x1600000_0_0) shapeCasts_S1x1600000_S1600000

/-- The destination node of every edge: row 1 of the edge list. -/
def dstOf (x9 : (⟨S2x1600000, .i32⟩ : BufTy).Contents (Elt F)) : (⟨S1600000, .i32⟩ : BufTy).Contents (Elt F) :=
  shapeCast _ (extractStridedSlice S1x1600000 ![1, 0] x9 slices_S2x1600000_S1x1600000_1_0) shapeCasts_S1x1600000_S1600000

/-- An index column for a gather: a negative index is shifted up by the number of nodes. -/
def wrapCol (v : (⟨S1600000, .i32⟩ : BufTy).Contents (Elt F)) : (⟨S1600000x1, .i32⟩ : BufTy).Contents (Elt F) :=
  broadcastInDim S1600000x1 ![0] bcast_S1600000_S1600000x1_0
    (select (cmpi .slt v (broadcastInDim S1600000 ![] bcast_S_S1600000 (constantI S_ 32 0#32)))
      (addi v (broadcastInDim S1600000 ![] bcast_S_S1600000 (constantI S_ 32 100000#32))) v)

/-- An index column for a scatter: the indices as they are. -/
def rawCol (v : (⟨S1600000, .i32⟩ : BufTy).Contents (Elt F)) : (⟨S1600000x1, .i32⟩ : BufTy).Contents (Elt F) :=
  broadcastInDim S1600000x1 ![0] bcast_S1600000_S1600000x1_0 v

/-- The indicator matrix "column `q` of the hidden width belongs to head `a`". -/
def oneHot : (⟨S64x4, .f32⟩ : BufTy).Contents (Elt F) :=
  uitofp .f32 (cmpi .eq
    (broadcastInDim S64x4 ![0, 1] bcast_S64x1_S64x4_0_1 (broadcastInDim S64x1 ![0] bcast_S64_S64x1_0
      (shapeCast _ (broadcastInDim S4x16 ![0] bcast_S4_S4x16_0 (iotaInDim S4 32 0)) shapeCasts_S4x16_S64)))
    (broadcastInDim S64x4 ![0, 1] bcast_S1x4_S64x4_0_1 (iotaInDim S1x4 32 1)))

/-- The head-selector matrix of an attention vector. -/
def headW (att : (⟨S4x16, .f32⟩ : BufTy).Contents (Elt F)) : (⟨S64x4, .f32⟩ : BufTy).Contents (Elt F) :=
  mulf (oneHot (F := F)) (broadcastInDim S64x4 ![0, 1] bcast_S64x1_S64x4_0_1 (broadcastInDim S64x1 ![0] bcast_S64_S64x1_0
    (shapeCast _ att shapeCasts_S4x16_S64)))

/-- The raw edge scores: the source projection of the edge's source plus the destination projection of its destination. -/
def score (vs vd : (⟨S100000x4, .f32⟩ : BufTy).Contents (Elt F)) (si di : (⟨S1600000x1, .i32⟩ : BufTy).Contents (Elt F)) :
    (⟨S1600000x4, .f32⟩ : BufTy).Contents (Elt F) :=
  addf (Host.gather gather_S100000x4_S1600000x1_S1600000x4_1_0_n_n_0_1_14 vs si)
    (Host.gather gather_S100000x4_S1600000x1_S1600000x4_1_0_n_n_0_1_14 vd di)

/-- LeakyReLU with slope 0.2. -/
def lrelu (e : (⟨S1600000x4, .f32⟩ : BufTy).Contents (Elt F)) : (⟨S1600000x4, .f32⟩ : BufTy).Contents (Elt F) :=
  select (cmpf .ogt e (broadcastInDim S1600000x4 ![] bcast_S_S1600000x4 (constant S_ .f32 0x00000000#32))) e
    (mulf (broadcastInDim S1600000x4 ![] bcast_S_S1600000x4 (constant S_ .f32 0x3E4CCCCD#32)) e)

/-- The attention coefficients: the exponential of the activated score over the sum of those of the edges with the
    same destination, plus a small constant. -/
def alphaOf (e : (⟨S1600000x4, .f32⟩ : BufTy).Contents (Elt F)) (dr di : (⟨S1600000x1, .i32⟩ : BufTy).Contents (Elt F)) :
    (⟨S1600000x4, .f32⟩ : BufTy).Contents (Elt F) :=
  Host.divf (Host.exp (lrelu e))
    (addf (Host.gather gather_S100000x4_S1600000x1_S1600000x4_1_0_n_n_0_1_14
        (Host.scatterAdd scatter_S100000x4_S1600000x1_S1600000x4_1_0_0_1
          (broadcastInDim S100000x4 ![] bcast_S_S100000x4 (constant S_ .f32 0x00000000#32)) dr (Host.exp (lrelu e))) di)
      (broadcastInDim S1600000x4 ![] bcast_S_S1600000x4 (constant S_ .f32 0x3089705F#32)))

/-- The aggregation: every node sums, over its incoming edges, the source's projected features weighted per head. -/
def aggregate (xp : (⟨S100000x64, .f32⟩ : BufTy).Contents (Elt F)) (alpha : (⟨S1600000x4, .f32⟩ : BufTy).Contents (Elt F))
    (si dr : (⟨S1600000x1, .i32⟩ : BufTy).Contents (Elt F)) : (⟨S100000x64, .f32⟩ : BufTy).Contents (Elt F) :=
  Host.scatterAdd scatter_S100000x64_S1600000x1_S1600000x64_1_0_0_1
    (broadcastInDim S100000x64 ![] bcast_S_S100000x64 (constant S_ .f32 0x00000000#32)) dr
    (mulf (Host.gather gather_S100000x64_S1600000x1_S1600000x64_1_0_n_n_0_1_164 xp si)
      (shapeCast _ (broadcastInDim S1600000x4x16 ![0, 1] bcast_S1600000x4_S1600000x4x16_0_1 alpha) shapeCasts_S1600000x4x16_S1600000x64))

/-- One attention layer after its projections. -/
def layerOut (xp : (⟨S100000x64, .f32⟩ : BufTy).Contents (Elt F)) (vs vd : (⟨S100000x4, .f32⟩ : BufTy).Contents (Elt F))
    (v1 v3 : (⟨S1600000, .i32⟩ : BufTy).Contents (Elt F)) : (⟨S100000x64, .f32⟩ : BufTy).Contents (Elt F) :=
  aggregate xp (alphaOf (score vs vd (wrapCol v1) (wrapCol v3)) (rawCol v3) (wrapCol v3)) (wrapCol v1) (rawCol v3)

/-- The final rectifier. -/
def relu (x : (⟨S100000x64, .f32⟩ : BufTy).Contents (Elt F)) : (⟨S100000x64, .f32⟩ : BufTy).Contents (Elt F) :=
  maximumf x (broadcastInDim S100000x64 ![] bcast_S_S100000x64 (constant S_ .f32 0x00000000#32))

variable (Wv : Valuation τ sig (Elt F))

/-! ## Before the first region -/

theorem pre0_v1 : after hostOps0 Wv (Proc.devRef .tc main_v1) = srcOf (Wv (Proc.devRef .tc main_arg9)) := by
  after_results_simp <;> rfl
theorem pre0_v3 : after hostOps0 Wv (Proc.devRef .tc main_v3) = dstOf (Wv (Proc.devRef .tc main_arg9)) := by
  after_results_simp <;> rfl
theorem pre0_v4 : after hostOps0 Wv (Proc.devRef .tc main_v4) = shapeCast _ (Wv (Proc.devRef .tc main_arg2)) shapeCasts_S64_S1x64 := by
  after_results_simp <;> rfl
theorem pre0_arg0 : after hostOps0 Wv (Proc.devRef .tc main_arg0) = Wv (Proc.devRef .tc main_arg0) := by
  after_results_simp
theorem pre0_arg1 : after hostOps0 Wv (Proc.devRef .tc main_arg1) = Wv (Proc.devRef .tc main_arg1) := by
  after_results_simp
theorem pre0_arg3 : after hostOps0 Wv (Proc.devRef .tc main_arg3) = Wv (Proc.devRef .tc main_arg3) := by
  after_results_simp
theorem pre0_arg4 : after hostOps0 Wv (Proc.devRef .tc main_arg4) = Wv (Proc.devRef .tc main_arg4) := by
  after_results_simp
theorem pre0_arg5 : after hostOps0 Wv (Proc.devRef .tc main_arg5) = Wv (Proc.devRef .tc main_arg5) := by
  after_results_simp
theorem pre0_arg6 : after hostOps0 Wv (Proc.devRef .tc main_arg6) = Wv (Proc.devRef .tc main_arg6) := by
  after_results_simp
theorem pre0_arg7 : after hostOps0 Wv (Proc.devRef .tc main_arg7) = Wv (Proc.devRef .tc main_arg7) := by
  after_results_simp
theorem pre0_arg8 : after hostOps0 Wv (Proc.devRef .tc main_arg8) = Wv (Proc.devRef .tc main_arg8) := by
  after_results_simp

/-! ## Between the first and the second region -/

theorem pre1_v14 : after hostOps1_2 (after hostOps1_1 (after hostOps1 Wv)) (Proc.devRef .tc main_v14) = headW (Wv (Proc.devRef .tc main_arg4)) := by
  after_results_simp <;> rfl
theorem pre1_v17 : after hostOps1_2 (after hostOps1_1 (after hostOps1 Wv)) (Proc.devRef .tc main_v17) = headW (Wv (Proc.devRef .tc main_arg5)) := by
  after_results_simp <;> rfl
theorem pre1_v5 : after hostOps1_2 (after hostOps1_1 (after hostOps1 Wv)) (Proc.devRef .tc main_v5) = Wv (Proc.devRef .tc main_v5) := by
  after_results_simp
theorem pre1_arg3 : after hostOps1_2 (after hostOps1_1 (after hostOps1 Wv)) (Proc.devRef .tc main_arg3) = Wv (Proc.devRef .tc main_arg3) := by
  after_results_simp
theorem pre1_v1 : after hostOps1_2 (after hostOps1_1 (after hostOps1 Wv)) (Proc.devRef .tc main_v1) = Wv (Proc.devRef .tc main_v1) := by
  after_results_simp
theorem pre1_v3 : after hostOps1_2 (after hostOps1_1 (after hostOps1 Wv)) (Proc.devRef .tc main_v3) = Wv (Proc.devRef .tc main_v3) := by
  after_results_simp
theorem pre1_arg6 : after hostOps1_2 (after hostOps1_1 (after hostOps1 Wv)) (Proc.devRef .tc main_arg6) = Wv (Proc.devRef .tc main_arg6) := by
  after_results_simp
theorem pre1_arg7 : after hostOps1_2 (after hostOps1_1 (after hostOps1 Wv)) (Proc.devRef .tc main_arg7) = Wv (Proc.devRef .tc main_arg7) := by
  after_results_simp
theorem pre1_arg8 : after hostOps1_2 (after hostOps1_1 (after hostOps1 Wv)) (Proc.devRef .tc main_arg8) = Wv (Proc.devRef .tc main_arg8) := by
  after_results_simp

/-! ## Between the second and the third region -/

set_option maxHeartbeats 2000000 in
theorem pre2_v65 : after hostOps2_4 (after hostOps2_3 (after hostOps2_2 (after hostOps2_1 (after hostOps2 Wv)))) (Proc.devRef .tc main_v65)
    = layerOut (Wv (Proc.devRef .tc main_v18_0)) (Wv (Proc.devRef .tc main_v18_1)) (Wv (Proc.devRef .tc main_v18_2))
        (Wv (Proc.devRef .tc main_v1)) (Wv (Proc.devRef .tc main_v3)) := by
  after_results_simp <;> rfl
theorem pre2_v74 : after hostOps2_4 (after hostOps2_3 (after hostOps2_2 (after hostOps2_1 (after hostOps2 Wv)))) (Proc.devRef .tc main_v74) = headW (Wv (Proc.devRef .tc main_arg7)) := by
  after_results_simp <;> rfl
theorem pre2_v77 : after hostOps2_4 (after hostOps2_3 (after hostOps2_2 (after hostOps2_1 (after hostOps2 Wv)))) (Proc.devRef .tc main_v77) = headW (Wv (Proc.devRef .tc main_arg8)) := by
  after_results_simp <;> rfl
theorem pre2_v1 : after hostOps2_4 (after hostOps2_3 (after hostOps2_2 (after hostOps2_1 (after hostOps2 Wv)))) (Proc.devRef .tc main_v1) = Wv (Proc.devRef .tc main_v1) := by
  after_results_simp
theorem pre2_v3 : after hostOps2_4 (after hostOps2_3 (after hostOps2_2 (after hostOps2_1 (after hostOps2 Wv)))) (Proc.devRef .tc main_v3) = Wv (Proc.devRef .tc main_v3) := by
  after_results_simp
theorem pre2_arg6 : after hostOps2_4 (after hostOps2_3 (after hostOps2_2 (after hostOps2_1 (after hostOps2 Wv)))) (Proc.devRef .tc main_arg6) = Wv (Proc.devRef .tc main_arg6) := by
  after_results_simp

/-! ## After the third region -/

set_option maxHeartbeats 2000000 in
theorem post_v126 : after hostOps3_3 (after hostOps3_2 (after hostOps3_1 (after hostOps3 Wv))) (Proc.devRef .tc main_v126)
    = relu (layerOut (Wv (Proc.devRef .tc main_v78_0)) (Wv (Proc.devRef .tc main_v78_1)) (Wv (Proc.devRef .tc main_v78_2))
        (Wv (Proc.devRef .tc main_v1)) (Wv (Proc.devRef .tc main_v3))) := by
  after_results_simp <;> rfl

end Cert.KernelIdeal.Stages

end
-- ==== Proof.LibPlainDot.lean ====
/-
  A plain matrix product read at an index.

  For dimension numbers `D` of a product of an `M × K` operand with a `K × N` operand into `M × N` that contract
  ONE axis — the left operand's second against the right operand's first, no batch axis — the sum over `D`'s
  contraction index that the ideal instance gives for a `tpu.matmul` into a zero accumulator and for a host
  `dot_general` alike is the textbook one: entry `(r, c)` is the sum over `k : Fin K` of the left operand at `(r, k)`
  times the right operand at `(k, c)`.  What makes a given `D` plain is stated as four facts about the coordinates
  of its operand indices, which a concrete record proves by unfolding its lists of axes.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

/-- The contraction sum of a plain product, re-indexed by the contracted axis' coordinate: at the output index `j`
    the left operand is read along row `j 0` and the right operand along column `j 1`. -/
theorem sum_plain {M K N : Nat}
    (D : DotDims (⟨2, ![M, K]⟩ : Shape) (⟨2, ![K, N]⟩ : Shape) (⟨2, ![M, N]⟩ : Shape))
    (hr : D.contr.rank = 1) (hs : D.contr.size ⟨0, by omega⟩ = K)
    (l0 : ∀ (j : (⟨2, ![M, N]⟩ : Shape).Idx) (q : D.contr.Idx), (D.lhsIdx j q 0).val = (j 0).val)
    (l1 : ∀ (j : (⟨2, ![M, N]⟩ : Shape).Idx) (q : D.contr.Idx), (D.lhsIdx j q 1).val = (q ⟨0, by omega⟩).val)
    (r0 : ∀ (j : (⟨2, ![M, N]⟩ : Shape).Idx) (q : D.contr.Idx), (D.rhsIdx j q 0).val = (q ⟨0, by omega⟩).val)
    (r1 : ∀ (j : (⟨2, ![M, N]⟩ : Shape).Idx) (q : D.contr.Idx), (D.rhsIdx j q 1).val = (j 1).val)
    (l : (⟨2, ![M, K]⟩ : Shape).Idx → EReal) (r : (⟨2, ![K, N]⟩ : Shape).Idx → EReal)
    (j : (⟨2, ![M, N]⟩ : Shape).Idx) :
    ∑ q : D.contr.Idx, l (D.lhsIdx j q) * r (D.rhsIdx j q) = ∑ k : Fin K, l (ix2 (j 0) k) * r (ix2 k (j 1)) := by
  rw [← Equiv.sum_comp (contrEquiv1 D K hr hs).symm]
  refine Finset.sum_congr rfl fun k _ => ?_
  have hk := contrEquiv1_symm_val D K hr hs k
  have el : D.lhsIdx j ((contrEquiv1 D K hr hs).symm k) = ix2 (j 0) k := funext fun a => Fin.ext (by
    match a with
    | ⟨0, _⟩ => exact l0 _ _
    | ⟨1, _⟩ => exact (l1 _ _).trans hk)
  have er : D.rhsIdx j ((contrEquiv1 D K hr hs).symm k) = ix2 k (j 1) := funext fun a => Fin.ext (by
    match a with
    | ⟨0, _⟩ => exact (r0 _ _).trans hk
    | ⟨1, _⟩ => exact r1 _ _)
  exact congrArg₂ (fun a b : EReal => a * b) (congrArg l el) (congrArg r er)

/-- A `tpu.matmul` with plain dimension numbers into the zero accumulator, at the ideal instance, is that sum. -/
theorem matmul_zero_apply {M K N : Nat} {φ₁ φ₂ : FTy}
    (D : DotDims (⟨2, ![M, K]⟩ : Shape) (⟨2, ![K, N]⟩ : Shape) (⟨2, ![M, N]⟩ : Shape))
    (hr : D.contr.rank = 1) (hs : D.contr.size ⟨0, by omega⟩ = K)
    (l0 : ∀ (j : (⟨2, ![M, N]⟩ : Shape).Idx) (q : D.contr.Idx), (D.lhsIdx j q 0).val = (j 0).val)
    (l1 : ∀ (j : (⟨2, ![M, N]⟩ : Shape).Idx) (q : D.contr.Idx), (D.lhsIdx j q 1).val = (q ⟨0, by omega⟩).val)
    (r0 : ∀ (j : (⟨2, ![M, N]⟩ : Shape).Idx) (q : D.contr.Idx), (D.rhsIdx j q 0).val = (q ⟨0, by omega⟩).val)
    (r1 : ∀ (j : (⟨2, ![M, N]⟩ : Shape).Idx) (q : D.contr.Idx), (D.rhsIdx j q 1).val = (j 1).val)
    (prec : Option ContractPrecision)
    (l : FVec Ideal (⟨2, ![M, K]⟩ : Shape) φ₁) (r : FVec Ideal (⟨2, ![K, N]⟩ : Shape) φ₂)
    (j : (⟨2, ![M, N]⟩ : Shape).Idx) :
    FloatOps.matmul D prec l r (constant (⟨2, ![M, N]⟩ : Shape) .f32 0x00000000#32) j
      = ∑ k : Fin K, l (ix2 (j 0) k) * r (ix2 k (j 1)) := by
  rw [Ideal.matmul_constant_zero_apply]
  exact sum_plain D hr hs l0 l1 r0 r1 l r j

/-- A host `dot_general` with plain dimension numbers, at the ideal instance, is the same sum, whatever its
    precision and schedule keys. -/
theorem dotGeneral_apply {M K N : Nat} {φ₁ φ₂ : FTy}
    (D : DotDims (⟨2, ![M, K]⟩ : Shape) (⟨2, ![K, N]⟩ : Shape) (⟨2, ![M, N]⟩ : Shape))
    (hr : D.contr.rank = 1) (hs : D.contr.size ⟨0, by omega⟩ = K)
    (l0 : ∀ (j : (⟨2, ![M, N]⟩ : Shape).Idx) (q : D.contr.Idx), (D.lhsIdx j q 0).val = (j 0).val)
    (l1 : ∀ (j : (⟨2, ![M, N]⟩ : Shape).Idx) (q : D.contr.Idx), (D.lhsIdx j q 1).val = (q ⟨0, by omega⟩).val)
    (r0 : ∀ (j : (⟨2, ![M, N]⟩ : Shape).Idx) (q : D.contr.Idx), (D.rhsIdx j q 0).val = (q ⟨0, by omega⟩).val)
    (r1 : ∀ (j : (⟨2, ![M, N]⟩ : Shape).Idx) (q : D.contr.Idx), (D.rhsIdx j q 1).val = (j 1).val)
    (prec : Option ContractPrecision) (sched : HostSchedule)
    (l : FVec Ideal (⟨2, ![M, K]⟩ : Shape) φ₁) (r : FVec Ideal (⟨2, ![K, N]⟩ : Shape) φ₂)
    (j : (⟨2, ![M, N]⟩ : Shape).Idx) :
    FloatOps.dotGeneral D prec sched l r j = ∑ k : Fin K, l (ix2 (j 0) k) * r (ix2 k (j 1)) := by
  rw [Ideal.dotGeneral_apply]
  exact sum_plain D hr hs l0 l1 r0 r1 l r j

end Cert.Lib.PlainDot

end
-- ==== Proof.RegionEmbed.lean ====
/-
  Region 0 (the embedding layer): every entry of its output array after the run.

  The region's body, on one block of 5000 rows, multiplies the block of x ([5000,128]) by the weight matrix
  ([128,64]) into a zero accumulator, adds the bias row ([1,64]) to every row, and takes the maximum with zero.
  The grid's point t reads rows 5000 t … 5000 t + 4999 of x and writes the same rows of the output; the
  weight matrix and the bias are read whole at every point.  The twenty blocks tile the 100000 rows, so entry
  (n, j) of the output array ends at max (∑ k, x[n,k] · w[k,j] + b[0,j], 0), at the exact extended reals
  (the two narrowing format changes before the product are the identity there).
-/
import proofs.«102483_j80513456931512_2_alg».proof.Proof.Gen.KernelIdeal.Frame
import proofs.«102483_j80513456931512_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.TcCoe Idealize.SL.Sem Idealize.ShloMosaic.ValueIdx
open Idealize.ShloMosaic.Pipeline (Dat)

namespace Cert.KernelIdeal.RegionValue

open Cert.KernelIdeal Cert.KernelIdeal.Gen

/-! ## The product's dimension numbers are the plain ones -/

theorem embed_dot_l0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem embed_dot_l1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
theorem embed_dot_r0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
theorem embed_dot_r1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-! ## The body's stored value at an entry of the block -/

/-- Entry (r, j) of the block the body stores: row r of the x block against column j of the weights, plus
    the bias at j, cut below at zero. -/
theorem embed_pay (x0 : Vec Ideal S5000x128 .f32) (x1 : Vec Ideal S128x64 .f32) (x2 : Vec Ideal S1x64 .f32)
    (r : Fin 5000) (j : Fin 64) :
    k0_pay1 x0 x1 x2 (ix2 r j)
      = max ((∑ k : Fin 128, x0 (ix2 r k) * x1 (ix2 k j)) + x2 (ix2 (0 : Fin 1) j)) (0 : EReal) := by
  unfold k0_pay1
  rw [maximumf_apply, addf_apply, broadcast_apply, broadcastTo_1b_ab_apply, shapeCast_self]
  refine congrArg₂ max (congrArg₂ (· + ·) ?_ rfl) Ideal.ofBits_zero_f32
  exact Cert.Lib.PlainDot.matmul_zero_apply dot_S5000x128_S128x64_S5000x64_1_0_0_1_n_n rfl rfl
    embed_dot_l0 embed_dot_l1 embed_dot_r0 embed_dot_r1 none _ _ (ix2 r j)

/-! ## The whole output array as one function of the three input arrays -/

/-- Entry (n, j) of the layer's result: row n of x against column j of the weights, plus the bias at j, cut below
    at zero. -/
def embedAt (a0 : S100000x128.Idx → EReal) (a1 : S128x64.Idx → EReal) (a2 : S1x64.Idx → EReal)
    (n : Fin 100000) (j : Fin 64) : EReal :=
  max ((∑ k : Fin 128, a0 (ix2 n k) * a1 (ix2 k j)) + a2 (ix2 (0 : Fin 1) j)) (0 : EReal)

theorem embedAt_def (a0 : S100000x128.Idx → EReal) (a1 : S128x64.Idx → EReal) (a2 : S1x64.Idx → EReal)
    (n : Fin 100000) (j : Fin 64) :
    embedAt a0 a1 a2 n j = max ((∑ k : Fin 128, a0 (ix2 n k) * a1 (ix2 k j)) + a2 (ix2 (0 : Fin 1) j)) (0 : EReal) := rfl

/-- The result array. -/
abbrev embedG (a0 : S100000x128.Idx → EReal) (a1 : S128x64.Idx → EReal) (a2 : S1x64.Idx → EReal) :
    S100000x64.Idx → EReal := fun i => embedAt a0 a1 a2 (i 0) (i 1)

/-- A block entry is the array's entry once the block's rows are the array's rows n, the weights and the bias
    whole. -/
theorem embed_entry (a0 : S100000x128.Idx → EReal) (a1 : S128x64.Idx → EReal) (a2 : S1x64.Idx → EReal)
    (x0 : Vec Ideal S5000x128 .f32) (x1 : Vec Ideal S128x64 .f32) (x2 : Vec Ideal S1x64 .f32)
    (r : Fin 5000) (j : Fin 64) (n : Fin 100000) (j' : Fin 64) (hj : j' = j)
    (h0 : ∀ k : Fin 128, x0 (ix2 r k) = a0 (ix2 n k)) (h1 : ∀ (k : Fin 128) (q : Fin 64), x1 (ix2 k q) = a1 (ix2 k q))
    (h2 : ∀ q : Fin 64, x2 (ix2 (0 : Fin 1) q) = a2 (ix2 (0 : Fin 1) q)) :
    k0_pay1 x0 x1 x2 (ix2 r j) = embedAt a0 a1 a2 n j' := by
  subst hj
  rw [embed_pay]
  unfold embedAt
  rw [h2 j']
  refine congrArg₂ max (congrArg₂ (· + ·) (Finset.sum_congr rfl fun k _ => ?_) rfl) rfl
  rw [h0 k, h1 k j']

/-! ## The blocks of the four windows -/

theorem embed_hz : (![0, 0] : Fin 2 → Nat) = fun _ => 0 := funext fun a => by fin_cases a <;> rfl

/-- The printed index maps over the grid: the x window and the output window take block row t, column 0; the
    weights and the bias are block (0, 0) at every point. -/
theorem embed_idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b))

/-- What point t writes back is block t of the result array of the arrays as the region finds them. -/
theorem embed_flushed (c : Dev nD) (t : Fin cfg0.N) :
    (dat0 (F := Ideal) V c).flushed 3 t
      = ((cfg0.win 3).blk t).view.read (Elt Ideal) (embedG (V c main_arg0) (V c main_arg1) (V c main_v4)) := by
  show (cfg0.win 3).cut (grid0.coords t) ((dat0 (F := Ideal) V c).after 3 t) = _
  rw [after0_3]
  unfold out0_3
  rw [View.canon_unit_zero embed_hz]
  simp only [View.ld_unit_zero (S := S5000x128) embed_hz, View.ld_unit_zero (S := S128x64) embed_hz, View.ld_unit_zero (S := S1x64) embed_hz]
  obtain ⟨e00, e01, e10, e11, e20, e21, e30, e31⟩ := embed_idx t
  have key : ∀ y : S5000x64.Idx, k0_pay1 (iblk0 V c 0 t) (iblk0 V c 1 t) (iblk0 V c 2 t) y
      = embedG (V c main_arg0) (V c main_arg1) (V c main_v4) (((cfg0.win 3).blk t).view.emb y) := by
    intro y
    obtain ⟨r, j, rfl⟩ : ∃ (r : Fin 5000) (j : Fin 64), y = ix2 r j := ⟨y 0, y 1, eq_ix2 y⟩
    refine embed_entry (V c main_arg0) (V c main_arg1) (V c main_v4) (iblk0 V c 0 t) (iblk0 V c 1 t) (iblk0 V c 2 t) r j
      ((((cfg0.win 3).blk t).view.emb (ix2 r j)) 0) ((((cfg0.win 3).blk t).view.emb (ix2 r j)) 1)
      (Fin.ext (show win0_3.index t (1 : Fin 2) * 64 + 1 * j.val = j.val by omega)) ?_ ?_ ?_
    · intro k
      show V c main_arg0 (((cfg0.win 0).blk t).view.emb (ix2 r k)) = V c main_arg0 _
      refine congrArg (V c main_arg0) (funext fun a => Fin.ext ?_)
      match a with
      | ⟨0, _⟩ => show win0_0.index t (0 : Fin 2) * 5000 + 1 * r.val = win0_3.index t (0 : Fin 2) * 5000 + 1 * r.val; omega
      | ⟨1, _⟩ => show win0_0.index t (1 : Fin 2) * 128 + 1 * k.val = k.val; omega
    · intro k q
      show V c main_arg1 (((cfg0.win 1).blk t).view.emb (ix2 k q)) = V c main_arg1 _
      refine congrArg (V c main_arg1) (funext fun a => Fin.ext ?_)
      match a with
      | ⟨0, _⟩ => show win0_1.index t (0 : Fin 2) * 128 + 1 * k.val = k.val; omega
      | ⟨1, _⟩ => show win0_1.index t (1 : Fin 2) * 64 + 1 * q.val = q.val; omega
    · intro q
      show V c main_v4 (((cfg0.win 2).blk t).view.emb (ix2 (0 : Fin 1) q)) = V c main_v4 _
      refine congrArg (V c main_v4) (funext fun a => Fin.ext ?_)
      match a with
      | ⟨0, _⟩ => show win0_2.index t (0 : Fin 2) * 1 + 1 * 0 = 0; omega
      | ⟨1, _⟩ => show win0_2.index t (1 : Fin 2) * 64 + 1 * q.val = q.val; omega
  funext y
  exact key y

/-! ## The twenty blocks tile the array -/

/-- An index of the array is in point t's block iff each coordinate is in the block's range on its axis. -/
theorem embed_mem_blk (t : Fin cfg0.N) (i : S100000x64.Idx) :
    i ∈ ((cfg0.win 3).blk t).view.set ↔ ∀ a : Fin 2, win0_3.index t a * S5000x64.size a ≤ (i a).val
      ∧ (i a).val < win0_3.index t a * S5000x64.size a + S5000x64.size a := by
  show i ∈ ((View.whole main_v5).slice (win0_3.rect t)).set ↔ _
  rw [View.set_slice_whole, Rect.mem_set_unit]
  exact Iff.rfl

/-- Row n of the array is in the block of point n / 5000, and every point writes its block back. -/
theorem embed_cover (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  have hN : cfg0.N = 20 := N_0
  obtain ⟨t, ht⟩ : ∃ t : Fin cfg0.N, t.val = (i 0).val / 5000 := ⟨⟨(i 0).val / 5000, by rw [hN]; omega⟩, rfl⟩
  refine ⟨t, flush0_3 t, ?_⟩
  rw [embed_mem_blk]
  obtain ⟨-, -, -, -, -, -, e30, e31⟩ := embed_idx t
  intro a
  match a with
  | ⟨0, _⟩ =>
    show win0_3.index t (0 : Fin 2) * 5000 ≤ (i 0).val ∧ (i 0).val < win0_3.index t (0 : Fin 2) * 5000 + 5000
    omega
  | ⟨1, _⟩ =>
    show win0_3.index t (1 : Fin 2) * 64 ≤ (i 1).val ∧ (i 1).val < win0_3.index t (1 : Fin 2) * 64 + 64
    omega

/-! ## The output array after the run -/

/-- The output array ends holding the result array of the three input arrays as the region finds them. -/
theorem embed_final (c : Dev nD) :
    (dat0 (F := Ideal) V c).arrAt 3 cfg0.N = embedG (V c main_arg0) (V c main_arg1) (V c main_v4) :=
  (dat0 (F := Ideal) V c).arrAt_eq_of_cover 3 (embedG (V c main_arg0) (V c main_arg1) (V c main_v4))
    (fun t _ => embed_flushed V c t) embed_cover

/-- Entry (n, j) of the output array after the run. -/
theorem embed_arr (c : Dev nD) (n : Fin 100000) (j : Fin 64) :
    (dat0 (F := Ideal) V c).arrAt 3 cfg0.N (ix2 n j)
      = embedAt (V c main_arg0) (V c main_arg1) (V c main_v4) n j :=
  congrFun (embed_final V c) (ix2 n j)

end Cert.KernelIdeal.RegionValue

end
-- ==== Proof.RegionProj1.lean ====
/-
  Region 1 (a layer's linear projections): every entry of its three output arrays after the run.

  The region's body, on one block of 5000 rows, multiplies the block of the layer's input h ([5000,64]) by the
  projection matrix ([64,64]) into a zero accumulator — the projected rows xp —, stores xp, and multiplies xp by
  each of the two [64,4] score matrices into a zero accumulator, storing the two [5000,4] products.  The grid's
  point t reads rows 5000 t … 5000 t + 4999 of h and writes the same rows of the three outputs; the three small
  matrices are read whole at every point.  The twenty blocks tile the 100000 rows, so entry (n, j) of the first
  output ends at ∑ k, h[n,k] · W[k,j], and entry (n, a) of the other two at ∑ q, (∑ k, h[n,k] · W[k,q]) · S[q,a] for
  their score matrix S, at the exact extended reals (the narrowing format changes before the first product are
  the identity there).
-/
import proofs.«102483_j80513456931512_2_alg».proof.Proof.Gen.KernelIdeal.Frame
import proofs.«102483_j80513456931512_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.TcCoe Idealize.SL.Sem Idealize.ShloMosaic.ValueIdx
open Idealize.ShloMosaic.Pipeline (Dat)

namespace Cert.KernelIdeal.RegionValue

open Cert.KernelIdeal Cert.KernelIdeal.Gen

/-! ## The two products' dimension numbers are the plain ones -/

theorem proj1_dotA_l0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem proj1_dotA_l1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem proj1_dotA_r0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem proj1_dotA_r1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

theorem proj1_dotB_l0 (i : S5000x4.Idx) (q : dot_S5000x64_S64x4_S5000x4_1_0_0_1_n_n.contr.Idx) :
    (dot_S5000x64_S64x4_S5000x4_1_0_0_1_n_n.lhsIdx i q 0).val = (i 0).val := by
  unfold DotDims.lhsIdx
  rw [dif_neg (show ¬(0 : Fin S5000x64.rank) ∈ dot_S5000x64_S64x4_S5000x4_1_0_0_1_n_n.lhsBatch by decide), dif_pos (show (0 : Fin S5000x64.rank) ∈ dot_S5000x64_S64x4_S5000x4_1_0_0_1_n_n.lhsNonContracting by decide)]
  rfl
theorem proj1_dotB_l1 (i : S5000x4.Idx) (q : dot_S5000x64_S64x4_S5000x4_1_0_0_1_n_n.contr.Idx) :
    (dot_S5000x64_S64x4_S5000x4_1_0_0_1_n_n.lhsIdx i q 1).val = (q ⟨0, by decide⟩).val :=
  dot_S5000x64_S64x4_S5000x4_1_0_0_1_n_n.lhsIdx_val_of_single rfl i q
theorem proj1_dotB_r0 (i : S5000x4.Idx) (q : dot_S5000x64_S64x4_S5000x4_1_0_0_1_n_n.contr.Idx) :
    (dot_S5000x64_S64x4_S5000x4_1_0_0_1_n_n.rhsIdx i q 0).val = (q ⟨0, by decide⟩).val :=
  dot_S5000x64_S64x4_S5000x4_1_0_0_1_n_n.rhsIdx_val_of_single rfl i q
theorem proj1_dotB_r1 (i : S5000x4.Idx) (q : dot_S5000x64_S64x4_S5000x4_1_0_0_1_n_n.contr.Idx) :
    (dot_S5000x64_S64x4_S5000x4_1_0_0_1_n_n.rhsIdx i q 1).val = (i 1).val := by
  unfold DotDims.rhsIdx
  rw [dif_neg (show ¬(1 : Fin S64x4.rank) ∈ dot_S5000x64_S64x4_S5000x4_1_0_0_1_n_n.rhsBatch by decide), dif_pos (show (1 : Fin S64x4.rank) ∈ dot_S5000x64_S64x4_S5000x4_1_0_0_1_n_n.rhsNonContracting by decide)]
  rfl

/-! ## The body's stored values at an entry of their blocks -/

/-- Entry (r, j) of the projected rows: row r of the input block against column j of the projection matrix. -/
theorem proj1_pay_xp (x0 : Vec Ideal S5000x64 .f32) (x1 : Vec Ideal S64x64 .f32) (r : Fin 5000) (j : Fin 64) :
    k1_pay1 x0 x1 (ix2 r j) = ∑ k : Fin 64, x0 (ix2 r k) * x1 (ix2 k j) := by
  unfold k1_pay1
  rw [shapeCast_self]
  exact Cert.Lib.PlainDot.matmul_zero_apply dot_S5000x64_S64x64_S5000x64_1_0_0_1_n_n rfl rfl
    proj1_dotA_l0 proj1_dotA_l1 proj1_dotA_r0 proj1_dotA_r1 none _ _ (ix2 r j)

/-- Entry (r, a) of the first score product: row r of the projected rows against column a of its score matrix. -/
theorem proj1_pay_vs (x0 : Vec Ideal S5000x64 .f32) (x1 : Vec Ideal S64x64 .f32) (x2 : Vec Ideal S64x4 .f32)
    (r : Fin 5000) (a : Fin 4) :
    k1_pay2 x0 x1 x2 (ix2 r a)
      = ∑ q : Fin 64, (∑ k : Fin 64, x0 (ix2 r k) * x1 (ix2 k q)) * x2 (ix2 q a) := by
  unfold k1_pay2
  rw [shapeCast_self]
  refine (Cert.Lib.PlainDot.matmul_zero_apply (φ₁ := .f32) (φ₂ := .f32) dot_S5000x64_S64x4_S5000x4_1_0_0_1_n_n rfl rfl
    proj1_dotB_l0 proj1_dotB_l1 proj1_dotB_r0 proj1_dotB_r1 (some .fp32) (k1_pay1 x0 x1) x2 (ix2 r a)).trans ?_
  refine Finset.sum_congr rfl fun q _ => ?_
  exact congrArg (fun z : EReal => z * x2 (ix2 q a)) (proj1_pay_xp x0 x1 r q)

/-- The second score product is the same term of its own score matrix. -/
theorem proj1_pay_vd (x0 : Vec Ideal S5000x64 .f32) (x1 : Vec Ideal S64x64 .f32) (x3 : Vec Ideal S64x4 .f32)
    (r : Fin 5000) (a : Fin 4) :
    k1_pay3 x0 x1 x3 (ix2 r a)
      = ∑ q : Fin 64, (∑ k : Fin 64, x0 (ix2 r k) * x1 (ix2 k q)) * x3 (ix2 q a) :=
  proj1_pay_vs x0 x1 x3 r a

/-! ## The whole output arrays as functions of the input arrays -/

/-- Entry (n, j) of the projected rows: row n of the layer's input against column j of the projection matrix. -/
def proj1_xpAt (a0 : S100000x64.Idx → EReal) (a1 : S64x64.Idx → EReal) (n : Fin 100000) (j : Fin 64) : EReal :=
  ∑ k : Fin 64, a0 (ix2 n k) * a1 (ix2 k j)

theorem proj1_xpAt_def (a0 : S100000x64.Idx → EReal) (a1 : S64x64.Idx → EReal) (n : Fin 100000) (j : Fin 64) :
    proj1_xpAt a0 a1 n j = ∑ k : Fin 64, a0 (ix2 n k) * a1 (ix2 k j) := rfl

/-- Entry (n, a) of a score product: row n of the projected rows against column a of the score matrix. -/
def proj1_vAt (a0 : S100000x64.Idx → EReal) (a1 : S64x64.Idx → EReal) (a2 : S64x4.Idx → EReal)
    (n : Fin 100000) (a : Fin 4) : EReal :=
  ∑ q : Fin 64, (∑ k : Fin 64, a0 (ix2 n k) * a1 (ix2 k q)) * a2 (ix2 q a)

theorem proj1_vAt_def (a0 : S100000x64.Idx → EReal) (a1 : S64x64.Idx → EReal) (a2 : S64x4.Idx → EReal)
    (n : Fin 100000) (a : Fin 4) :
    proj1_vAt a0 a1 a2 n a = ∑ q : Fin 64, (∑ k : Fin 64, a0 (ix2 n k) * a1 (ix2 k q)) * a2 (ix2 q a) := rfl

/-- The array of projected rows. -/
abbrev proj1_xpG (a0 : S100000x64.Idx → EReal) (a1 : S64x64.Idx → EReal) : S100000x64.Idx → EReal :=
  fun i => proj1_xpAt a0 a1 (i 0) (i 1)

/-- The array of a score product. -/
abbrev proj1_vG (a0 : S100000x64.Idx → EReal) (a1 : S64x64.Idx → EReal) (a2 : S64x4.Idx → EReal) :
    S100000x4.Idx → EReal :=
  fun i => proj1_vAt a0 a1 a2 (i 0) (i 1)

/-- A block entry of the projected rows is the array's entry once the block's rows are the array's rows n and the
    projection matrix is whole. -/
theorem proj1_entry_xp (a0 : S100000x64.Idx → EReal) (a1 : S64x64.Idx → EReal)
    (x0 : Vec Ideal S5000x64 .f32) (x1 : Vec Ideal S64x64 .f32)
    (r : Fin 5000) (j : Fin 64) (n : Fin 100000) (j' : Fin 64) (hj : j' = j)
    (h0 : ∀ k : Fin 64, x0 (ix2 r k) = a0 (ix2 n k)) (h1 : ∀ k q : Fin 64, x1 (ix2 k q) = a1 (ix2 k q)) :
    k1_pay1 x0 x1 (ix2 r j) = proj1_xpAt a0 a1 n j' := by
  subst hj
  rw [proj1_pay_xp]
  unfold proj1_xpAt
  refine Finset.sum_congr rfl fun k _ => ?_
  rw [h0 k, h1 k j']

/-- The same for the first score product, its score matrix whole. -/
theorem proj1_entry_vs (a0 : S100000x64.Idx → EReal) (a1 : S64x64.Idx → EReal) (a2 : S64x4.Idx → EReal)
    (x0 : Vec Ideal S5000x64 .f32) (x1 : Vec Ideal S64x64 .f32) (x2 : Vec Ideal S64x4 .f32)
    (r : Fin 5000) (a : Fin 4) (n : Fin 100000) (a' : Fin 4) (ha : a' = a)
    (h0 : ∀ k : Fin 64, x0 (ix2 r k) = a0 (ix2 n k)) (h1 : ∀ k q : Fin 64, x1 (ix2 k q) = a1 (ix2 k q))
    (h2 : ∀ (q : Fin 64) (b : Fin 4), x2 (ix2 q b) = a2 (ix2 q b)) :
    k1_pay2 x0 x1 x2 (ix2 r a) = proj1_vAt a0 a1 a2 n a' := by
  subst ha
  rw [proj1_pay_vs]
  unfold proj1_vAt
  refine Finset.sum_congr rfl fun q _ => ?_
  rw [h2 q a']
  refine congrArg (fun z : EReal => z * a2 (ix2 q a')) (Finset.sum_congr rfl fun k _ => ?_)
  rw [h0 k, h1 k q]

/-- The same for the second score product. -/
theorem proj1_entry_vd (a0 : S100000x64.Idx → EReal) (a1 : S64x64.Idx → EReal) (a3 : S64x4.Idx → EReal)
    (x0 : Vec Ideal S5000x64 .f32) (x1 : Vec Ideal S64x64 .f32) (x3 : Vec Ideal S64x4 .f32)
    (r : Fin 5000) (a : Fin 4) (n : Fin 100000) (a' : Fin 4) (ha : a' = a)
    (h0 : ∀ k : Fin 64, x0 (ix2 r k) = a0 (ix2 n k)) (h1 : ∀ k q : Fin 64, x1 (ix2 k q) = a1 (ix2 k q))
    (h3 : ∀ (q : Fin 64) (b : Fin 4), x3 (ix2 q b) = a3 (ix2 q b)) :
    k1_pay3 x0 x1 x3 (ix2 r a) = proj1_vAt a0 a1 a3 n a' :=
  proj1_entry_vs a0 a1 a3 x0 x1 x3 r a n a' ha h0 h1 h3

/-! ## The blocks of the seven windows -/

theorem proj1_hz : (![0, 0] : Fin 2 → Nat) = fun _ => 0 := funext fun a => by fin_cases a <;> rfl

/-- The printed index maps over the grid: the input window and the three output windows take block row t, column
    0; the three small matrices are block (0, 0) at every point. -/
theorem proj1_idx : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

variable (V : (c : Dev nD) → (b : Ref sig .tc) → Buf (Elt Ideal) ((c : Thread nD τ).loc b))

/-- The input window's block at point t is rows 5000 t … 5000 t + 4999 of its array. -/
theorem proj1_read0 (c : Dev nD) (t : Fin cfg1.N) (r : Fin 5000) (k : Fin 64) (n : Fin 100000)
    (hn : n.val = t.val * 5000 + r.val) :
    iblk1 V c 0 t (ix2 r k) = V c main_v5 (ix2 n k) := by
  obtain ⟨e00, e01, e10, e11, e20, e21, e30, e31, e40, e41, e50, e51, e60, e61⟩ := proj1_idx t
  show V c main_v5 (((cfg1.win 0).blk t).view.emb (ix2 r k)) = V c main_v5 _
  refine congrArg (V c main_v5) (funext fun a => Fin.ext ?_)
  match a with
  | ⟨0, _⟩ => show win1_0.index t (0 : Fin 2) * 5000 + 1 * r.val = n.val; omega
  | ⟨1, _⟩ => show win1_0.index t (1 : Fin 2) * 64 + 1 * k.val = k.val; omega

/-- Window 1's block at every point is its whole array. -/
theorem proj1_read1 (c : Dev nD) (t : Fin cfg1.N) (k : Fin 64) (q : Fin 64) :
    iblk1 V c 1 t (ix2 k q) = V c main_arg3 (ix2 k q) := by
  obtain ⟨e00, e01, e10, e11, e20, e21, e30, e31, e40, e41, e50, e51, e60, e61⟩ := proj1_idx t
  show V c main_arg3 (((cfg1.win 1).blk t).view.emb (ix2 k q)) = V c main_arg3 _
  refine congrArg (V c main_arg3) (funext fun a => Fin.ext ?_)
  match a with
  | ⟨0, _⟩ => show win1_1.index t (0 : Fin 2) * 64 + 1 * k.val = k.val; omega
  | ⟨1, _⟩ => show win1_1.index t (1 : Fin 2) * 64 + 1 * q.val = q.val; omega

/-- Window 2's block at every point is its whole array. -/
theorem proj1_read2 (c : Dev nD) (t : Fin cfg1.N) (k : Fin 64) (q : Fin 4) :
    iblk1 V c 2 t (ix2 k q) = V c main_v14 (ix2 k q) := by
  obtain ⟨e00, e01, e10, e11, e20, e21, e30, e31, e40, e41, e50, e51, e60, e61⟩ := proj1_idx t
  show V c main_v14 (((cfg1.win 2).blk t).view.emb (ix2 k q)) = V c main_v14 _
  refine congrArg (V c main_v14) (funext fun a => Fin.ext ?_)
  match a with
  | ⟨0, _⟩ => show win1_2.index t (0 : Fin 2) * 64 + 1 * k.val = k.val; omega
  | ⟨1, _⟩ => show win1_2.index t (1 : Fin 2) * 4 + 1 * q.val = q.val; omega

/-- Window 3's block at every point is its whole array. -/
theorem proj1_read3 (c : Dev nD) (t : Fin cfg1.N) (k : Fin 64) (q : Fin 4) :
    iblk1 V c 3 t (ix2 k q) = V c main_v17 (ix2 k q) := by
  obtain ⟨e00, e01, e10, e11, e20, e21, e30, e31, e40, e41, e50, e51, e60, e61⟩ := proj1_idx t
  show V c main_v17 (((cfg1.win 3).blk t).view.emb (ix2 k q)) = V c main_v17 _
  refine congrArg (V c main_v17) (funext fun a => Fin.ext ?_)
  match a with
  | ⟨0, _⟩ => show win1_3.index t (0 : Fin 2) * 64 + 1 * k.val = k.val; omega
  | ⟨1, _⟩ => show win1_3.index t (1 : Fin 2) * 4 + 1 * q.val = q.val; omega

/-! ## What each point writes back -/

/-- What point t writes back to the first output is block t of the array of projected rows. -/
theorem proj1_flushed_xp (c : Dev nD) (t : Fin cfg1.N) :
    (dat1 (F := Ideal) V c).flushed 4 t
      = ((cfg1.win 4).blk t).view.read (Elt Ideal) (proj1_xpG (V c main_v5) (V c main_arg3)) := by
  show (cfg1.win 4).cut (grid1.coords t) ((dat1 (F := Ideal) V c).after 4 t) = _
  rw [after1_4]
  unfold out1_4
  rw [View.canon_unit_zero proj1_hz]
  simp only [View.ld_unit_zero (S := S5000x64) proj1_hz, View.ld_unit_zero (S := S64x64) proj1_hz]
  obtain ⟨e00, e01, e10, e11, e20, e21, e30, e31, e40, e41, e50, e51, e60, e61⟩ := proj1_idx t
  have key : ∀ y : S5000x64.Idx, k1_pay1 (iblk1 V c 0 t) (iblk1 V c 1 t) y
      = proj1_xpG (V c main_v5) (V c main_arg3) (((cfg1.win 4).blk t).view.emb y) := by
    intro y
    obtain ⟨r, j, rfl⟩ : ∃ (r : Fin 5000) (j : Fin 64), y = ix2 r j := ⟨y 0, y 1, eq_ix2 y⟩
    exact proj1_entry_xp (V c main_v5) (V c main_arg3) (iblk1 V c 0 t) (iblk1 V c 1 t) r j
      ((((cfg1.win 4).blk t).view.emb (ix2 r j)) 0) ((((cfg1.win 4).blk t).view.emb (ix2 r j)) 1)
      (Fin.ext (show win1_4.index t (1 : Fin 2) * 64 + 1 * j.val = j.val by omega))
      (fun k => proj1_read0 V c t r k _ (show win1_4.index t (0 : Fin 2) * 5000 + 1 * r.val = t.val * 5000 + r.val by omega))
      (fun k q => proj1_read1 V c t k q)
  funext y
  exact key y

/-- What point t writes back to output vs is block t of its result array of the arrays as the region finds them. -/
theorem proj1_flushed_vs (c : Dev nD) (t : Fin cfg1.N) :
    (dat1 (F := Ideal) V c).flushed 5 t
      = ((cfg1.win 5).blk t).view.read (Elt Ideal) (proj1_vG (V c main_v5) (V c main_arg3) (V c main_v14)) := by
  show (cfg1.win 5).cut (grid1.coords t) ((dat1 (F := Ideal) V c).after 5 t) = _
  rw [after1_5]
  unfold out1_5
  rw [View.canon_unit_zero proj1_hz]
  simp only [View.ld_unit_zero (S := S5000x64) proj1_hz, View.ld_unit_zero (S := S64x64) proj1_hz, View.ld_unit_zero (S := S64x4) proj1_hz]
  obtain ⟨e00, e01, e10, e11, e20, e21, e30, e31, e40, e41, e50, e51, e60, e61⟩ := proj1_idx t
  have key : ∀ y : S5000x4.Idx, k1_pay2 (iblk1 V c 0 t) (iblk1 V c 1 t) (iblk1 V c 2 t) y
      = proj1_vG (V c main_v5) (V c main_arg3) (V c main_v14) (((cfg1.win 5).blk t).view.emb y) := by
    intro y
    obtain ⟨r, a, rfl⟩ : ∃ (r : Fin 5000) (a : Fin 4), y = ix2 r a := ⟨y 0, y 1, eq_ix2 y⟩
    exact proj1_entry_vs (V c main_v5) (V c main_arg3) (V c main_v14) (iblk1 V c 0 t) (iblk1 V c 1 t) (iblk1 V c 2 t) r a
      ((((cfg1.win 5).blk t).view.emb (ix2 r a)) 0) ((((cfg1.win 5).blk t).view.emb (ix2 r a)) 1)
      (Fin.ext (show win1_5.index t (1 : Fin 2) * 4 + 1 * a.val = a.val by omega))
      (fun k => proj1_read0 V c t r k _ (show win1_5.index t (0 : Fin 2) * 5000 + 1 * r.val = t.val * 5000 + r.val by omega))
      (fun k q => proj1_read1 V c t k q)
      (fun q b => proj1_read2 V c t q b)
  funext y
  exact key y

/-- What point t writes back to output vd is block t of its result array of the arrays as the region finds them. -/
theorem proj1_flushed_vd (c : Dev nD) (t : Fin cfg1.N) :
    (dat1 (F := Ideal) V c).flushed 6 t
      = ((cfg1.win 6).blk t).view.read (Elt Ideal) (proj1_vG (V c main_v5) (V c main_arg3) (V c main_v17)) := by
  show (cfg1.win 6).cut (grid1.coords t) ((dat1 (F := Ideal) V c).after 6 t) = _
  rw [after1_6]
  unfold out1_6
  rw [View.canon_unit_zero proj1_hz]
  simp only [View.ld_unit_zero (S := S5000x64) proj1_hz, View.ld_unit_zero (S := S64x64) proj1_hz, View.ld_unit_zero (S := S64x4) proj1_hz]
  obtain ⟨e00, e01, e10, e11, e20, e21, e30, e31, e40, e41, e50, e51, e60, e61⟩ := proj1_idx t
  have key : ∀ y : S5000x4.Idx, k1_pay3 (iblk1 V c 0 t) (iblk1 V c 1 t) (iblk1 V c 3 t) y
      = proj1_vG (V c main_v5) (V c main_arg3) (V c main_v17) (((cfg1.win 6).blk t).view.emb y) := by
    intro y
    obtain ⟨r, a, rfl⟩ : ∃ (r : Fin 5000) (a : Fin 4), y = ix2 r a := ⟨y 0, y 1, eq_ix2 y⟩
    exact proj1_entry_vd (V c main_v5) (V c main_arg3) (V c main_v17) (iblk1 V c 0 t) (iblk1 V c 1 t) (iblk1 V c 3 t) r a
      ((((cfg1.win 6).blk t).view.emb (ix2 r a)) 0) ((((cfg1.win 6).blk t).view.emb (ix2 r a)) 1)
      (Fin.ext (show win1_6.index t (1 : Fin 2) * 4 + 1 * a.val = a.val by omega))
      (fun k => proj1_read0 V c t r k _ (show win1_6.index t (0 : Fin 2) * 5000 + 1 * r.val = t.val * 5000 + r.val by omega))
      (fun k q => proj1_read1 V c t k q)
      (fun q b => proj1_read3 V c t q b)
  funext y
  exact key y

/-! ## The twenty blocks tile each output array -/

/-- An index of output xp's array is in point t's block iff each coordinate is in the block's range on its axis. -/
theorem proj1_mem_blk_xp (t : Fin cfg1.N) (i : S100000x64.Idx) :
    i ∈ ((cfg1.win 4).blk t).view.set ↔ ∀ a : Fin 2, win1_4.index t a * S5000x64.size a ≤ (i a).val
      ∧ (i a).val < win1_4.index t a * S5000x64.size a + S5000x64.size a := by
  show i ∈ ((View.whole main_v18_0).slice (win1_4.rect t)).set ↔ _
  rw [View.set_slice_whole, Rect.mem_set_unit]
  exact Iff.rfl

/-- Row n of output xp's array is in the block of point n / 5000, and every point writes its block back. -/
theorem proj1_cover_xp (i : S100000x64.Idx) :
    ∃ t : Fin cfg1.N, (cfg1.win 4).flush t = true ∧ i ∈ ((cfg1.win 4).blk t).view.set := by
  have hi0 : (i 0).val < 100000 := (i 0).isLt
  have hi1 : (i 1).val < 64 := (i 1).isLt
  have hN : cfg1.N = 20 := N_1
  obtain ⟨t, ht⟩ : ∃ t : Fin cfg1.N, t.val = (i 0).val / 5000 := ⟨⟨(i 0).val / 5000, by rw [hN]; omega⟩, rfl⟩
  refine ⟨t, flush1_4 t, ?_⟩
  rw [proj1_mem_blk_xp]
  obtain ⟨-, -, -, -, -, -, -, -, e40, e41, e50, e51, e60, e61⟩ := proj1_idx t
  intro a
  match a with
  | ⟨0, _⟩ =>
    show win1_4.index t (0 : Fin 2) * 5000 ≤ (i 0).val ∧ (i 0).val < win1_4.index t (0 : Fin 2) * 5000 + 5000
    omega
  | ⟨1, _⟩ =>
    show win1_4.index t (1 : Fin 2) * 64 ≤ (i 1).val ∧ (i 1).val < win1_4.index t (1 : Fin 2) * 64 + 64
    omega

/-- An index of output vs's array is in point t's block iff each coordinate is in the block's range on its axis. -/
theorem proj1_mem_blk_vs (t : Fin cfg1.N) (i : S100000x4.Idx) :
    i ∈ ((cfg1.win 5).blk t).view.set ↔ ∀ a : Fin 2, win1_5.index t a * S5000x4.size a ≤ (i a).val
      ∧ (i a).val < win1_5.index t a * S5000x4.size a + S5000x4.size a := by
  show i ∈ ((View.whole main_v18_1).slice (win1_5.rect t)).set ↔ _
  rw [View.set_slice_whole, Rect.mem_set_unit]
  exact Iff.rfl

/-- Row n of output vs's array is in the block of point n / 5000, and every point writes its block back. -/
theorem proj1_cover_vs (i : S100000x4.Idx) :
    ∃ t : Fin cfg1.N, (cfg1.win 5).flush t = true ∧ i ∈ ((cfg1.win 5).blk t).view.set := by
  have hi0 : (i 0).val < 100000 := (i 0).isLt
  have hi1 : (i 1).val < 4 := (i 1).isLt
  have hN : cfg1.N = 20 := N_1
  obtain ⟨t, ht⟩ : ∃ t : Fin cfg1.N, t.val = (i 0).val / 5000 := ⟨⟨(i 0).val / 5000, by rw [hN]; omega⟩, rfl⟩
  refine ⟨t, flush1_5 t, ?_⟩
  rw [proj1_mem_blk_vs]
  obtain ⟨-, -, -, -, -, -, -, -, e40, e41, e50, e51, e60, e61⟩ := proj1_idx t
  intro a
  match a with
  | ⟨0, _⟩ =>
    show win1_5.index t (0 : Fin 2) * 5000 ≤ (i 0).val ∧ (i 0).val < win1_5.index t (0 : Fin 2) * 5000 + 5000
    omega
  | ⟨1, _⟩ =>
    show win1_5.index t (1 : Fin 2) * 4 ≤ (i 1).val ∧ (i 1).val < win1_5.index t (1 : Fin 2) * 4 + 4
    omega

/-- An index of output vd's array is in point t's block iff each coordinate is in the block's range on its axis. -/
theorem proj1_mem_blk_vd (t : Fin cfg1.N) (i : S100000x4.Idx) :
    i ∈ ((cfg1.win 6).blk t).view.set ↔ ∀ a : Fin 2, win1_6.index t a * S5000x4.size a ≤ (i a).val
      ∧ (i a).val < win1_6.index t a * S5000x4.size a + S5000x4.size a := by
  show i ∈ ((View.whole main_v18_2).slice (win1_6.rect t)).set ↔ _
  rw [View.set_slice_whole, Rect.mem_set_unit]
  exact Iff.rfl

/-- Row n of output vd's array is in the block of point n / 5000, and every point writes its block back. -/
theorem proj1_cover_vd (i : S100000x4.Idx) :
    ∃ t : Fin cfg1.N, (cfg1.win 6).flush t = true ∧ i ∈ ((cfg1.win 6).blk t).view.set := by
  have hi0 : (i 0).val < 100000 := (i 0).isLt
  have hi1 : (i 1).val < 4 := (i 1).isLt
  have hN : cfg1.N = 20 := N_1
  obtain ⟨t, ht⟩ : ∃ t : Fin cfg1.N, t.val = (i 0).val / 5000 := ⟨⟨(i 0).val / 5000, by rw [hN]; omega⟩, rfl⟩
  refine ⟨t, flush1_6 t, ?_⟩
  rw [proj1_mem_blk_vd]
  obtain ⟨-, -, -, -, -, -, -, -, e40, e41, e50, e51, e60, e61⟩ := proj1_idx t
  intro a
  match a with
  | ⟨0, _⟩ =>
    show win1_6.index t (0 : Fin 2) * 5000 ≤ (i 0).val ∧ (i 0).val < win1_6.index t (0 : Fin 2) * 5000 + 5000
    omega
  | ⟨1, _⟩ =>
    show win1_6.index t (1 : Fin 2) * 4 ≤ (i 1).val ∧ (i 1).val < win1_6.index t (1 : Fin 2) * 4 + 4
    omega

/-! ## The output arrays after the run -/

/-- The first output's array ends holding the array of projected rows of the arrays as the region finds them. -/
theorem proj1_final_xp (c : Dev nD) :
    (dat1 (F := Ideal) V c).arrAt 4 cfg1.N = proj1_xpG (V c main_v5) (V c main_arg3) :=
  (dat1 (F := Ideal) V c).arrAt_eq_of_cover 4 (proj1_xpG (V c main_v5) (V c main_arg3))
    (fun t _ => proj1_flushed_xp V c t) proj1_cover_xp

/-- Entry (n, j) of the first output's array after the run. -/
theorem proj1_xp (c : Dev nD) (n : Fin 100000) (j : Fin 64) :
    (dat1 (F := Ideal) V c).arrAt 4 cfg1.N (ix2 n j) = proj1_xpAt (V c main_v5) (V c main_arg3) n j :=
  congrFun (proj1_final_xp V c) (ix2 n j)

/-- Output vs's array ends holding its result array of the arrays as the region finds them. -/
theorem proj1_final_vs (c : Dev nD) :
    (dat1 (F := Ideal) V c).arrAt 5 cfg1.N = proj1_vG (V c main_v5) (V c main_arg3) (V c main_v14) :=
  (dat1 (F := Ideal) V c).arrAt_eq_of_cover 5 (proj1_vG (V c main_v5) (V c main_arg3) (V c main_v14))
    (fun t _ => proj1_flushed_vs V c t) proj1_cover_vs

/-- Entry (n, a) of output vs's array after the run. -/
theorem proj1_vs (c : Dev nD) (n : Fin 100000) (a : Fin 4) :
    (dat1 (F := Ideal) V c).arrAt 5 cfg1.N (ix2 n a) = proj1_vAt (V c main_v5) (V c main_arg3) (V c main_v14) n a :=
  congrFun (proj1_final_vs V c) (ix2 n a)

/-- Output vd's array ends holding its result array of the arrays as the region finds them. -/
theorem proj1_final_vd (c : Dev nD) :
    (dat1 (F := Ideal) V c).arrAt 6 cfg1.N = proj1_vG (V c main_v5) (V c main_arg3) (V c main_v17) :=
  (dat1 (F := Ideal) V c).arrAt_eq_of_cover 6 (proj1_vG (V c main_v5) (V c main_arg3) (V c main_v17))
    (fun t _ => proj1_flushed_vd V c t) proj1_cover_vd

/-- Entry (n, a) of output vd's array after the run. -/
theorem proj1_vd (c : Dev nD) (n : Fin 100000) (a : Fin 4) :
    (dat1 (F := Ideal) V c).arrAt 6 cfg1.N (ix2 n a) = proj1_vAt (V c main_v5) (V c main_arg3) (V c main_v17) n a :=
  congrFun (proj1_final_vd V c) (ix2 n a)

end Cert.KernelIdeal.RegionValue

end
-- ==== Proof.RegionProj2.lean ====
/-
  Region 2 (a layer's linear projections): every entry of its three output arrays after the run.

  The region's body, on one block of 5000 rows, multiplies the block of the layer's input h ([5000,64]) by the
  projection matrix ([64,64]) into a zero accumulator — the projected rows xp —, stores xp, and multiplies xp by
  each of the two [64,4] score matrices into a zero accumulator, storing the two [5000,4] products.  The grid's
  point t reads rows 5000 t … 5000 t + 4999 of h and writes the same rows of the three outputs; the three small
  matrices are read whole at every point.  The twenty blocks tile the 100000 rows, so entry (n, j) of the first
  output ends at ∑ k, h[n,k] · W[k,j], and entry (n, a) of the other two at ∑ q, (∑ k, h[n,k] · W[k,q]) · S[q,a] for
  their score matrix S, at the exact extended reals (the narrowing format changes before the first product are
  the identity there).
-/
import proofs.«102483_j80513456931512_2_alg».proof.Proof.Gen.KernelIdeal.Frame
import proofs.«102483_j80513456931512_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.TcCoe Idealize.SL.Sem Idealize.ShloMosaic.ValueIdx
open Idealize.ShloMosaic.Pipeline (Dat)

namespace Cert.KernelIdeal.RegionValue

open Cert.KernelIdeal Cert.KernelIdeal.Gen

/-! ## The two products' dimension numbers are the plain ones -/

theorem proj2_dotA_l0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem proj2_dotA_l1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem proj2_dotA_r0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem proj2_dotA_r1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

theorem proj2_dotB_l0 (i : S5000x4.Idx) (q : dot_S5000x64_S64x4_S5000x4_1_0_0_1_n_n.contr.Idx) :
    (dot_S5000x64_S64x4_S5000x4_1_0_0_1_n_n.lhsIdx i q 0).val = (i 0).val := by
  unfold DotDims.lhsIdx
  rw [dif_neg (show ¬(0 : Fin S5000x64.rank) ∈ dot_S5000x64_S64x4_S5000x4_1_0_0_1_n_n.lhsBatch by decide), dif_pos (show (0 : Fin S5000x64.rank) ∈ dot_S5000x64_S64x4_S5000x4_1_0_0_1_n_n.lhsNonContracting by decide)]
  rfl
theorem proj2_dotB_l1 (i : S5000x4.Idx) (q : dot_S5000x64_S64x4_S5000x4_1_0_0_1_n_n.contr.Idx) :
    (dot_S5000x64_S64x4_S5000x4_1_0_0_1_n_n.lhsIdx i q 1).val = (q ⟨0, by decide⟩).val :=
  dot_S5000x64_S64x4_S5000x4_1_0_0_1_n_n.lhsIdx_val_of_single rfl i q
theorem proj2_dotB_r0 (i : S5000x4.Idx) (q : dot_S5000x64_S64x4_S5000x4_1_0_0_1_n_n.contr.Idx) :
    (dot_S5000x64_S64x4_S5000x4_1_0_0_1_n_n.rhsIdx i q 0).val = (q ⟨0, by decide⟩).val :=
  dot_S5000x64_S64x4_S5000x4_1_0_0_1_n_n.rhsIdx_val_of_single rfl i q
theorem proj2_dotB_r1 (i : S5000x4.Idx) (q : dot_S5000x64_S64x4_S5000x4_1_0_0_1_n_n.contr.Idx) :
    (dot_S5000x64_S64x4_S5000x4_1_0_0_1_n_n.rhsIdx i q 1).val = (i 1).val := by
  unfold DotDims.rhsIdx
  rw [dif_neg (show ¬(1 : Fin S64x4.rank) ∈ dot_S5000x64_S64x4_S5000x4_1_0_0_1_n_n.rhsBatch by decide), dif_pos (show (1 : Fin S64x4.rank) ∈ dot_S5000x64_S64x4_S5000x4_1_0_0_1_n_n.rhsNonContracting by decide)]
  rfl

/-! ## The body's stored values at an entry of their blocks -/

/-- Entry (r, j) of the projected rows: row r of the input block against column j of the projection matrix. -/
theorem proj2_pay_xp (x0 : Vec Ideal S5000x64 .f32) (x1 : Vec Ideal S64x64 .f32) (r : Fin 5000) (j : Fin 64) :
    k2_pay1 x0 x1 (ix2 r j) = ∑ k : Fin 64, x0 (ix2 r k) * x1 (ix2 k j) := by
  unfold k2_pay1
  rw [shapeCast_self]
  exact Cert.Lib.PlainDot.matmul_zero_apply dot_S5000x64_S64x64_S5000x64_1_0_0_1_n_n rfl rfl
    proj2_dotA_l0 proj2_dotA_l1 proj2_dotA_r0 proj2_dotA_r1 none _ _ (ix2 r j)

/-- Entry (r, a) of the first score product: row r of the projected rows against column a of its score matrix. -/
theorem proj2_pay_vs (x0 : Vec Ideal S5000x64 .f32) (x1 : Vec Ideal S64x64 .f32) (x2 : Vec Ideal S64x4 .f32)
    (r : Fin 5000) (a : Fin 4) :
    k2_pay2 x0 x1 x2 (ix2 r a)
      = ∑ q : Fin 64, (∑ k : Fin 64, x0 (ix2 r k) * x1 (ix2 k q)) * x2 (ix2 q a) := by
  unfold k2_pay2
  rw [shapeCast_self]
  refine (Cert.Lib.PlainDot.matmul_zero_apply (φ₁ := .f32) (φ₂ := .f32) dot_S5000x64_S64x4_S5000x4_1_0_0_1_n_n rfl rfl
    proj2_dotB_l0 proj2_dotB_l1 proj2_dotB_r0 proj2_dotB_r1 (some .fp32) (k2_pay1 x0 x1) x2 (ix2 r a)).trans ?_
  refine Finset.sum_congr rfl fun q _ => ?_
  exact congrArg (fun z : EReal => z * x2 (ix2 q a)) (proj2_pay_xp x0 x1 r q)

/-- The second score product is the same term of its own score matrix. -/
theorem proj2_pay_vd (x0 : Vec Ideal S5000x64 .f32) (x1 : Vec Ideal S64x64 .f32) (x3 : Vec Ideal S64x4 .f32)
    (r : Fin 5000) (a : Fin 4) :
    k2_pay3 x0 x1 x3 (ix2 r a)
      = ∑ q : Fin 64, (∑ k : Fin 64, x0 (ix2 r k) * x1 (ix2 k q)) * x3 (ix2 q a) :=
  proj2_pay_vs x0 x1 x3 r a

/-! ## The whole output arrays as functions of the input arrays -/

/-- Entry (n, j) of the projected rows: row n of the layer's input against column j of the projection matrix. -/
def proj2_xpAt (a0 : S100000x64.Idx → EReal) (a1 : S64x64.Idx → EReal) (n : Fin 100000) (j : Fin 64) : EReal :=
  ∑ k : Fin 64, a0 (ix2 n k) * a1 (ix2 k j)

theorem proj2_xpAt_def (a0 : S100000x64.Idx → EReal) (a1 : S64x64.Idx → EReal) (n : Fin 100000) (j : Fin 64) :
    proj2_xpAt a0 a1 n j = ∑ k : Fin 64, a0 (ix2 n k) * a1 (ix2 k j) := rfl

/-- Entry (n, a) of a score product: row n of the projected rows against column a of the score matrix. -/
def proj2_vAt (a0 : S100000x64.Idx → EReal) (a1 : S64x64.Idx → EReal) (a2 : S64x4.Idx → EReal)
    (n : Fin 100000) (a : Fin 4) : EReal :=
  ∑ q : Fin 64, (∑ k : Fin 64, a0 (ix2 n k) * a1 (ix2 k q)) * a2 (ix2 q a)

theorem proj2_vAt_def (a0 : S100000x64.Idx → EReal) (a1 : S64x64.Idx → EReal) (a2 : S64x4.Idx → EReal)
    (n : Fin 100000) (a : Fin 4) :
    proj2_vAt a0 a1 a2 n a = ∑ q : Fin 64, (∑ k : Fin 64, a0 (ix2 n k) * a1 (ix2 k q)) * a2 (ix2 q a) := rfl

/-- The array of projected rows. -/
abbrev proj2_xpG (a0 : S100000x64.Idx → EReal) (a1 : S64x64.Idx → EReal) : S100000x64.Idx → EReal :=
  fun i => proj2_xpAt a0 a1 (i 0) (i 1)

/-- The array of a score product. -/
abbrev proj2_vG (a0 : S100000x64.Idx → EReal) (a1 : S64x64.Idx → EReal) (a2 : S64x4.Idx → EReal) :
    S100000x4.Idx → EReal :=
  fun i => proj2_vAt a0 a1 a2 (i 0) (i 1)

/-- A block entry of the projected rows is the array's entry once the block's rows are the array's rows n and the
    projection matrix is whole. -/
theorem proj2_entry_xp (a0 : S100000x64.Idx → EReal) (a1 : S64x64.Idx → EReal)
    (x0 : Vec Ideal S5000x64 .f32) (x1 : Vec Ideal S64x64 .f32)
    (r : Fin 5000) (j : Fin 64) (n : Fin 100000) (j' : Fin 64) (hj : j' = j)
    (h0 : ∀ k : Fin 64, x0 (ix2 r k) = a0 (ix2 n k)) (h1 : ∀ k q : Fin 64, x1 (ix2 k q) = a1 (ix2 k q)) :
    k2_pay1 x0 x1 (ix2 r j) = proj2_xpAt a0 a1 n j' := by
  subst hj
  rw [proj2_pay_xp]
  unfold proj2_xpAt
  refine Finset.sum_congr rfl fun k _ => ?_
  rw [h0 k, h1 k j']

/-- The same for the first score product, its score matrix whole. -/
theorem proj2_entry_vs (a0 : S100000x64.Idx → EReal) (a1 : S64x64.Idx → EReal) (a2 : S64x4.Idx → EReal)
    (x0 : Vec Ideal S5000x64 .f32) (x1 : Vec Ideal S64x64 .f32) (x2 : Vec Ideal S64x4 .f32)
    (r : Fin 5000) (a : Fin 4) (n : Fin 100000) (a' : Fin 4) (ha : a' = a)
    (h0 : ∀ k : Fin 64, x0 (ix2 r k) = a0 (ix2 n k)) (h1 : ∀ k q : Fin 64, x1 (ix2 k q) = a1 (ix2 k q))
    (h2 : ∀ (q : Fin 64) (b : Fin 4), x2 (ix2 q b) = a2 (ix2 q b)) :
    k2_pay2 x0 x1 x2 (ix2 r a) = proj2_vAt a0 a1 a2 n a' := by
  subst ha
  rw [proj2_pay_vs]
  unfold proj2_vAt
  refine Finset.sum_congr rfl fun q _ => ?_
  rw [h2 q a']
  refine congrArg (fun z : EReal => z * a2 (ix2 q a')) (Finset.sum_congr rfl fun k _ => ?_)
  rw [h0 k, h1 k q]

/-- The same for the second score product. -/
theorem proj2_entry_vd (a0 : S100000x64.Idx → EReal) (a1 : S64x64.Idx → EReal) (a3 : S64x4.Idx → EReal)
    (x0 : Vec Ideal S5000x64 .f32) (x1 : Vec Ideal S64x64 .f32) (x3 : Vec Ideal S64x4 .f32)
    (r : Fin 5000) (a : Fin 4) (n : Fin 100000) (a' : Fin 4) (ha : a' = a)
    (h0 : ∀ k : Fin 64, x0 (ix2 r k) = a0 (ix2 n k)) (h1 : ∀ k q : Fin 64, x1 (ix2 k q) = a1 (ix2 k q))
    (h3 : ∀ (q : Fin 64) (b : Fin 4), x3 (ix2 q b) = a3 (ix2 q b)) :
    k2_pay3 x0 x1 x3 (ix2 r a) = proj2_vAt a0 a1 a3 n a' :=
  proj2_entry_vs a0 a1 a3 x0 x1 x3 r a n a' ha h0 h1 h3

/-! ## The blocks of the seven windows -/

theorem proj2_hz : (![0, 0] : Fin 2 → Nat) = fun _ => 0 := funext fun a => by fin_cases a <;> rfl

/-- The printed index maps over the grid: the input window and the three output windows take block row t, column
    0; the three small matrices are block (0, 0) at every point. -/
theorem proj2_idx : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ win2_5.index t (0 : Fin 2) = t.val ∧ win2_5.index t (1 : Fin 2) = 0
    ∧ win2_6.index t (0 : Fin 2) = t.val ∧ win2_6.index t (1 : Fin 2) = 0 :=
  (by decide +kernel : ∀ t : Fin grid2.N, _)

variable (V : (c : Dev nD) → (b : Ref sig .tc) → Buf (Elt Ideal) ((c : Thread nD τ).loc b))

/-- The input window's block at point t is rows 5000 t … 5000 t + 4999 of its array. -/
theorem proj2_read0 (c : Dev nD) (t : Fin cfg2.N) (r : Fin 5000) (k : Fin 64) (n : Fin 100000)
    (hn : n.val = t.val * 5000 + r.val) :
    iblk2 V c 0 t (ix2 r k) = V c main_v65 (ix2 n k) := by
  obtain ⟨e00, e01, e10, e11, e20, e21, e30, e31, e40, e41, e50, e51, e60, e61⟩ := proj2_idx t
  show V c main_v65 (((cfg2.win 0).blk t).view.emb (ix2 r k)) = V c main_v65 _
  refine congrArg (V c main_v65) (funext fun a => Fin.ext ?_)
  match a with
  | ⟨0, _⟩ => show win2_0.index t (0 : Fin 2) * 5000 + 1 * r.val = n.val; omega
  | ⟨1, _⟩ => show win2_0.index t (1 : Fin 2) * 64 + 1 * k.val = k.val; omega

/-- Window 1's block at every point is its whole array. -/
theorem proj2_read1 (c : Dev nD) (t : Fin cfg2.N) (k : Fin 64) (q : Fin 64) :
    iblk2 V c 1 t (ix2 k q) = V c main_arg6 (ix2 k q) := by
  obtain ⟨e00, e01, e10, e11, e20, e21, e30, e31, e40, e41, e50, e51, e60, e61⟩ := proj2_idx t
  show V c main_arg6 (((cfg2.win 1).blk t).view.emb (ix2 k q)) = V c main_arg6 _
  refine congrArg (V c main_arg6) (funext fun a => Fin.ext ?_)
  match a with
  | ⟨0, _⟩ => show win2_1.index t (0 : Fin 2) * 64 + 1 * k.val = k.val; omega
  | ⟨1, _⟩ => show win2_1.index t (1 : Fin 2) * 64 + 1 * q.val = q.val; omega

/-- Window 2's block at every point is its whole array. -/
theorem proj2_read2 (c : Dev nD) (t : Fin cfg2.N) (k : Fin 64) (q : Fin 4) :
    iblk2 V c 2 t (ix2 k q) = V c main_v74 (ix2 k q) := by
  obtain ⟨e00, e01, e10, e11, e20, e21, e30, e31, e40, e41, e50, e51, e60, e61⟩ := proj2_idx t
  show V c main_v74 (((cfg2.win 2).blk t).view.emb (ix2 k q)) = V c main_v74 _
  refine congrArg (V c main_v74) (funext fun a => Fin.ext ?_)
  match a with
  | ⟨0, _⟩ => show win2_2.index t (0 : Fin 2) * 64 + 1 * k.val = k.val; omega
  | ⟨1, _⟩ => show win2_2.index t (1 : Fin 2) * 4 + 1 * q.val = q.val; omega

/-- Window 3's block at every point is its whole array. -/
theorem proj2_read3 (c : Dev nD) (t : Fin cfg2.N) (k : Fin 64) (q : Fin 4) :
    iblk2 V c 3 t (ix2 k q) = V c main_v77 (ix2 k q) := by
  obtain ⟨e00, e01, e10, e11, e20, e21, e30, e31, e40, e41, e50, e51, e60, e61⟩ := proj2_idx t
  show V c main_v77 (((cfg2.win 3).blk t).view.emb (ix2 k q)) = V c main_v77 _
  refine congrArg (V c main_v77) (funext fun a => Fin.ext ?_)
  match a with
  | ⟨0, _⟩ => show win2_3.index t (0 : Fin 2) * 64 + 1 * k.val = k.val; omega
  | ⟨1, _⟩ => show win2_3.index t (1 : Fin 2) * 4 + 1 * q.val = q.val; omega

/-! ## What each point writes back -/

/-- What point t writes back to the first output is block t of the array of projected rows. -/
theorem proj2_flushed_xp (c : Dev nD) (t : Fin cfg2.N) :
    (dat2 (F := Ideal) V c).flushed 4 t
      = ((cfg2.win 4).blk t).view.read (Elt Ideal) (proj2_xpG (V c main_v65) (V c main_arg6)) := by
  show (cfg2.win 4).cut (grid2.coords t) ((dat2 (F := Ideal) V c).after 4 t) = _
  rw [after2_4]
  unfold out2_4
  rw [View.canon_unit_zero proj2_hz]
  simp only [View.ld_unit_zero (S := S5000x64) proj2_hz, View.ld_unit_zero (S := S64x64) proj2_hz]
  obtain ⟨e00, e01, e10, e11, e20, e21, e30, e31, e40, e41, e50, e51, e60, e61⟩ := proj2_idx t
  have key : ∀ y : S5000x64.Idx, k2_pay1 (iblk2 V c 0 t) (iblk2 V c 1 t) y
      = proj2_xpG (V c main_v65) (V c main_arg6) (((cfg2.win 4).blk t).view.emb y) := by
    intro y
    obtain ⟨r, j, rfl⟩ : ∃ (r : Fin 5000) (j : Fin 64), y = ix2 r j := ⟨y 0, y 1, eq_ix2 y⟩
    exact proj2_entry_xp (V c main_v65) (V c main_arg6) (iblk2 V c 0 t) (iblk2 V c 1 t) r j
      ((((cfg2.win 4).blk t).view.emb (ix2 r j)) 0) ((((cfg2.win 4).blk t).view.emb (ix2 r j)) 1)
      (Fin.ext (show win2_4.index t (1 : Fin 2) * 64 + 1 * j.val = j.val by omega))
      (fun k => proj2_read0 V c t r k _ (show win2_4.index t (0 : Fin 2) * 5000 + 1 * r.val = t.val * 5000 + r.val by omega))
      (fun k q => proj2_read1 V c t k q)
  funext y
  exact key y

/-- What point t writes back to output vs is block t of its result array of the arrays as the region finds them. -/
theorem proj2_flushed_vs (c : Dev nD) (t : Fin cfg2.N) :
    (dat2 (F := Ideal) V c).flushed 5 t
      = ((cfg2.win 5).blk t).view.read (Elt Ideal) (proj2_vG (V c main_v65) (V c main_arg6) (V c main_v74)) := by
  show (cfg2.win 5).cut (grid2.coords t) ((dat2 (F := Ideal) V c).after 5 t) = _
  rw [after2_5]
  unfold out2_5
  rw [View.canon_unit_zero proj2_hz]
  simp only [View.ld_unit_zero (S := S5000x64) proj2_hz, View.ld_unit_zero (S := S64x64) proj2_hz, View.ld_unit_zero (S := S64x4) proj2_hz]
  obtain ⟨e00, e01, e10, e11, e20, e21, e30, e31, e40, e41, e50, e51, e60, e61⟩ := proj2_idx t
  have key : ∀ y : S5000x4.Idx, k2_pay2 (iblk2 V c 0 t) (iblk2 V c 1 t) (iblk2 V c 2 t) y
      = proj2_vG (V c main_v65) (V c main_arg6) (V c main_v74) (((cfg2.win 5).blk t).view.emb y) := by
    intro y
    obtain ⟨r, a, rfl⟩ : ∃ (r : Fin 5000) (a : Fin 4), y = ix2 r a := ⟨y 0, y 1, eq_ix2 y⟩
    exact proj2_entry_vs (V c main_v65) (V c main_arg6) (V c main_v74) (iblk2 V c 0 t) (iblk2 V c 1 t) (iblk2 V c 2 t) r a
      ((((cfg2.win 5).blk t).view.emb (ix2 r a)) 0) ((((cfg2.win 5).blk t).view.emb (ix2 r a)) 1)
      (Fin.ext (show win2_5.index t (1 : Fin 2) * 4 + 1 * a.val = a.val by omega))
      (fun k => proj2_read0 V c t r k _ (show win2_5.index t (0 : Fin 2) * 5000 + 1 * r.val = t.val * 5000 + r.val by omega))
      (fun k q => proj2_read1 V c t k q)
      (fun q b => proj2_read2 V c t q b)
  funext y
  exact key y

/-- What point t writes back to output vd is block t of its result array of the arrays as the region finds them. -/
theorem proj2_flushed_vd (c : Dev nD) (t : Fin cfg2.N) :
    (dat2 (F := Ideal) V c).flushed 6 t
      = ((cfg2.win 6).blk t).view.read (Elt Ideal) (proj2_vG (V c main_v65) (V c main_arg6) (V c main_v77)) := by
  show (cfg2.win 6).cut (grid2.coords t) ((dat2 (F := Ideal) V c).after 6 t) = _
  rw [after2_6]
  unfold out2_6
  rw [View.canon_unit_zero proj2_hz]
  simp only [View.ld_unit_zero (S := S5000x64) proj2_hz, View.ld_unit_zero (S := S64x64) proj2_hz, View.ld_unit_zero (S := S64x4) proj2_hz]
  obtain ⟨e00, e01, e10, e11, e20, e21, e30, e31, e40, e41, e50, e51, e60, e61⟩ := proj2_idx t
  have key : ∀ y : S5000x4.Idx, k2_pay3 (iblk2 V c 0 t) (iblk2 V c 1 t) (iblk2 V c 3 t) y
      = proj2_vG (V c main_v65) (V c main_arg6) (V c main_v77) (((cfg2.win 6).blk t).view.emb y) := by
    intro y
    obtain ⟨r, a, rfl⟩ : ∃ (r : Fin 5000) (a : Fin 4), y = ix2 r a := ⟨y 0, y 1, eq_ix2 y⟩
    exact proj2_entry_vd (V c main_v65) (V c main_arg6) (V c main_v77) (iblk2 V c 0 t) (iblk2 V c 1 t) (iblk2 V c 3 t) r a
      ((((cfg2.win 6).blk t).view.emb (ix2 r a)) 0) ((((cfg2.win 6).blk t).view.emb (ix2 r a)) 1)
      (Fin.ext (show win2_6.index t (1 : Fin 2) * 4 + 1 * a.val = a.val by omega))
      (fun k => proj2_read0 V c t r k _ (show win2_6.index t (0 : Fin 2) * 5000 + 1 * r.val = t.val * 5000 + r.val by omega))
      (fun k q => proj2_read1 V c t k q)
      (fun q b => proj2_read3 V c t q b)
  funext y
  exact key y

/-! ## The twenty blocks tile each output array -/

/-- An index of output xp's array is in point t's block iff each coordinate is in the block's range on its axis. -/
theorem proj2_mem_blk_xp (t : Fin cfg2.N) (i : S100000x64.Idx) :
    i ∈ ((cfg2.win 4).blk t).view.set ↔ ∀ a : Fin 2, win2_4.index t a * S5000x64.size a ≤ (i a).val
      ∧ (i a).val < win2_4.index t a * S5000x64.size a + S5000x64.size a := by
  show i ∈ ((View.whole main_v78_0).slice (win2_4.rect t)).set ↔ _
  rw [View.set_slice_whole, Rect.mem_set_unit]
  exact Iff.rfl

/-- Row n of output xp's array is in the block of point n / 5000, and every point writes its block back. -/
theorem proj2_cover_xp (i : S100000x64.Idx) :
    ∃ t : Fin cfg2.N, (cfg2.win 4).flush t = true ∧ i ∈ ((cfg2.win 4).blk t).view.set := by
  have hi0 : (i 0).val < 100000 := (i 0).isLt
  have hi1 : (i 1).val < 64 := (i 1).isLt
  have hN : cfg2.N = 20 := N_2
  obtain ⟨t, ht⟩ : ∃ t : Fin cfg2.N, t.val = (i 0).val / 5000 := ⟨⟨(i 0).val / 5000, by rw [hN]; omega⟩, rfl⟩
  refine ⟨t, flush2_4 t, ?_⟩
  rw [proj2_mem_blk_xp]
  obtain ⟨-, -, -, -, -, -, -, -, e40, e41, e50, e51, e60, e61⟩ := proj2_idx t
  intro a
  match a with
  | ⟨0, _⟩ =>
    show win2_4.index t (0 : Fin 2) * 5000 ≤ (i 0).val ∧ (i 0).val < win2_4.index t (0 : Fin 2) * 5000 + 5000
    omega
  | ⟨1, _⟩ =>
    show win2_4.index t (1 : Fin 2) * 64 ≤ (i 1).val ∧ (i 1).val < win2_4.index t (1 : Fin 2) * 64 + 64
    omega

/-- An index of output vs's array is in point t's block iff each coordinate is in the block's range on its axis. -/
theorem proj2_mem_blk_vs (t : Fin cfg2.N) (i : S100000x4.Idx) :
    i ∈ ((cfg2.win 5).blk t).view.set ↔ ∀ a : Fin 2, win2_5.index t a * S5000x4.size a ≤ (i a).val
      ∧ (i a).val < win2_5.index t a * S5000x4.size a + S5000x4.size a := by
  show i ∈ ((View.whole main_v78_1).slice (win2_5.rect t)).set ↔ _
  rw [View.set_slice_whole, Rect.mem_set_unit]
  exact Iff.rfl

/-- Row n of output vs's array is in the block of point n / 5000, and every point writes its block back. -/
theorem proj2_cover_vs (i : S100000x4.Idx) :
    ∃ t : Fin cfg2.N, (cfg2.win 5).flush t = true ∧ i ∈ ((cfg2.win 5).blk t).view.set := by
  have hi0 : (i 0).val < 100000 := (i 0).isLt
  have hi1 : (i 1).val < 4 := (i 1).isLt
  have hN : cfg2.N = 20 := N_2
  obtain ⟨t, ht⟩ : ∃ t : Fin cfg2.N, t.val = (i 0).val / 5000 := ⟨⟨(i 0).val / 5000, by rw [hN]; omega⟩, rfl⟩
  refine ⟨t, flush2_5 t, ?_⟩
  rw [proj2_mem_blk_vs]
  obtain ⟨-, -, -, -, -, -, -, -, e40, e41, e50, e51, e60, e61⟩ := proj2_idx t
  intro a
  match a with
  | ⟨0, _⟩ =>
    show win2_5.index t (0 : Fin 2) * 5000 ≤ (i 0).val ∧ (i 0).val < win2_5.index t (0 : Fin 2) * 5000 + 5000
    omega
  | ⟨1, _⟩ =>
    show win2_5.index t (1 : Fin 2) * 4 ≤ (i 1).val ∧ (i 1).val < win2_5.index t (1 : Fin 2) * 4 + 4
    omega

/-- An index of output vd's array is in point t's block iff each coordinate is in the block's range on its axis. -/
theorem proj2_mem_blk_vd (t : Fin cfg2.N) (i : S100000x4.Idx) :
    i ∈ ((cfg2.win 6).blk t).view.set ↔ ∀ a : Fin 2, win2_6.index t a * S5000x4.size a ≤ (i a).val
      ∧ (i a).val < win2_6.index t a * S5000x4.size a + S5000x4.size a := by
  show i ∈ ((View.whole main_v78_2).slice (win2_6.rect t)).set ↔ _
  rw [View.set_slice_whole, Rect.mem_set_unit]
  exact Iff.rfl

/-- Row n of output vd's array is in the block of point n / 5000, and every point writes its block back. -/
theorem proj2_cover_vd (i : S100000x4.Idx) :
    ∃ t : Fin cfg2.N, (cfg2.win 6).flush t = true ∧ i ∈ ((cfg2.win 6).blk t).view.set := by
  have hi0 : (i 0).val < 100000 := (i 0).isLt
  have hi1 : (i 1).val < 4 := (i 1).isLt
  have hN : cfg2.N = 20 := N_2
  obtain ⟨t, ht⟩ : ∃ t : Fin cfg2.N, t.val = (i 0).val / 5000 := ⟨⟨(i 0).val / 5000, by rw [hN]; omega⟩, rfl⟩
  refine ⟨t, flush2_6 t, ?_⟩
  rw [proj2_mem_blk_vd]
  obtain ⟨-, -, -, -, -, -, -, -, e40, e41, e50, e51, e60, e61⟩ := proj2_idx t
  intro a
  match a with
  | ⟨0, _⟩ =>
    show win2_6.index t (0 : Fin 2) * 5000 ≤ (i 0).val ∧ (i 0).val < win2_6.index t (0 : Fin 2) * 5000 + 5000
    omega
  | ⟨1, _⟩ =>
    show win2_6.index t (1 : Fin 2) * 4 ≤ (i 1).val ∧ (i 1).val < win2_6.index t (1 : Fin 2) * 4 + 4
    omega

/-! ## The output arrays after the run -/

/-- The first output's array ends holding the array of projected rows of the arrays as the region finds them. -/
theorem proj2_final_xp (c : Dev nD) :
    (dat2 (F := Ideal) V c).arrAt 4 cfg2.N = proj2_xpG (V c main_v65) (V c main_arg6) :=
  (dat2 (F := Ideal) V c).arrAt_eq_of_cover 4 (proj2_xpG (V c main_v65) (V c main_arg6))
    (fun t _ => proj2_flushed_xp V c t) proj2_cover_xp

/-- Entry (n, j) of the first output's array after the run. -/
theorem proj2_xp (c : Dev nD) (n : Fin 100000) (j : Fin 64) :
    (dat2 (F := Ideal) V c).arrAt 4 cfg2.N (ix2 n j) = proj2_xpAt (V c main_v65) (V c main_arg6) n j :=
  congrFun (proj2_final_xp V c) (ix2 n j)

/-- Output vs's array ends holding its result array of the arrays as the region finds them. -/
theorem proj2_final_vs (c : Dev nD) :
    (dat2 (F := Ideal) V c).arrAt 5 cfg2.N = proj2_vG (V c main_v65) (V c main_arg6) (V c main_v74) :=
  (dat2 (F := Ideal) V c).arrAt_eq_of_cover 5 (proj2_vG (V c main_v65) (V c main_arg6) (V c main_v74))
    (fun t _ => proj2_flushed_vs V c t) proj2_cover_vs

/-- Entry (n, a) of output vs's array after the run. -/
theorem proj2_vs (c : Dev nD) (n : Fin 100000) (a : Fin 4) :
    (dat2 (F := Ideal) V c).arrAt 5 cfg2.N (ix2 n a) = proj2_vAt (V c main_v65) (V c main_arg6) (V c main_v74) n a :=
  congrFun (proj2_final_vs V c) (ix2 n a)

/-- Output vd's array ends holding its result array of the arrays as the region finds them. -/
theorem proj2_final_vd (c : Dev nD) :
    (dat2 (F := Ideal) V c).arrAt 6 cfg2.N = proj2_vG (V c main_v65) (V c main_arg6) (V c main_v77) :=
  (dat2 (F := Ideal) V c).arrAt_eq_of_cover 6 (proj2_vG (V c main_v65) (V c main_arg6) (V c main_v77))
    (fun t _ => proj2_flushed_vd V c t) proj2_cover_vd

/-- Entry (n, a) of output vd's array after the run. -/
theorem proj2_vd (c : Dev nD) (n : Fin 100000) (a : Fin 4) :
    (dat2 (F := Ideal) V c).arrAt 6 cfg2.N (ix2 n a) = proj2_vAt (V c main_v65) (V c main_arg6) (V c main_v77) n a :=
  congrFun (proj2_final_vd V c) (ix2 n a)

end Cert.KernelIdeal.RegionValue

end
-- ==== Proof.KernelTrace.lean ====
/-
  The idealized kernel's result traced through its segments.

  The fold of the buffer contents through the sixteen segments is read at the buffers that matter. The first region
  leaves the embedded node features; every later stretch of host operations and every later region reads arrays that
  earlier segments wrote, or argument arrays that nothing writes. Reading the fold stage by stage names the projections
  and per-node scalars of both attention layers, each as sums over the previous stage's array, and gives the program's
  result as the rectified second layer.
-/
import proofs.«102483_j80513456931512_2_alg».proof.Proof.Gen.KernelIdeal.Frame
import proofs.«102483_j80513456931512_2_alg».proof.Proof.KStages
import proofs.«102483_j80513456931512_2_alg».proof.Proof.RegionEmbed
import proofs.«102483_j80513456931512_2_alg».proof.Proof.RegionProj1
import proofs.«102483_j80513456931512_2_alg».proof.Proof.RegionProj2

set_option maxRecDepth 16384

noncomputable section

namespace Cert.KernelIdeal.Trace

open Cert.KernelIdeal Cert.KernelIdeal.Gen Cert.KernelIdeal.Stages Cert.KernelIdeal.RegionValue
open Idealize.ShloMosaic Idealize.ShloMosaic.TcCoe Idealize.SL.Sem Idealize.ShloMosaic.ValueIdx

variable (m : (ℓ : Loc nD τ sig) → Buf (Elt Ideal) ℓ) (ρ : Dev nD → PrngReg) (c : Dev nD)

/-! ## Arrays nothing writes, and the two rows of the edge list -/

theorem at1_arg0 : W1 m ρ c (Proc.devRef .tc main_arg0) = m ((c : Thread nD τ).loc main_arg0) := pre0_arg0 (W0 m ρ c)
theorem at1_arg1 : W1 m ρ c (Proc.devRef .tc main_arg1) = m ((c : Thread nD τ).loc main_arg1) := pre0_arg1 (W0 m ρ c)
theorem at1_arg3 : W1 m ρ c (Proc.devRef .tc main_arg3) = m ((c : Thread nD τ).loc main_arg3) := pre0_arg3 (W0 m ρ c)
theorem at1_arg4 : W1 m ρ c (Proc.devRef .tc main_arg4) = m ((c : Thread nD τ).loc main_arg4) := pre0_arg4 (W0 m ρ c)
theorem at1_arg5 : W1 m ρ c (Proc.devRef .tc main_arg5) = m ((c : Thread nD τ).loc main_arg5) := pre0_arg5 (W0 m ρ c)
theorem at1_arg6 : W1 m ρ c (Proc.devRef .tc main_arg6) = m ((c : Thread nD τ).loc main_arg6) := pre0_arg6 (W0 m ρ c)
theorem at1_arg7 : W1 m ρ c (Proc.devRef .tc main_arg7) = m ((c : Thread nD τ).loc main_arg7) := pre0_arg7 (W0 m ρ c)
theorem at1_arg8 : W1 m ρ c (Proc.devRef .tc main_arg8) = m ((c : Thread nD τ).loc main_arg8) := pre0_arg8 (W0 m ρ c)
theorem at1_v1 : W1 m ρ c (Proc.devRef .tc main_v1) = srcOf (m ((c : Thread nD τ).loc main_arg9)) := pre0_v1 (W0 m ρ c)
theorem at1_v3 : W1 m ρ c (Proc.devRef .tc main_v3) = dstOf (m ((c : Thread nD τ).loc main_arg9)) := pre0_v3 (W0 m ρ c)
theorem at1_v4 : W1 m ρ c (Proc.devRef .tc main_v4) = shapeCast _ (m ((c : Thread nD τ).loc main_arg2)) shapeCasts_S64_S1x64 := pre0_v4 (W0 m ρ c)
theorem at2_arg3 : W2 m ρ c (Proc.devRef .tc main_arg3) = m ((c : Thread nD τ).loc main_arg3) := (W2_of_ne m ρ c main_arg3 (by decide)).trans (at1_arg3 m ρ c)
theorem at2_arg4 : W2 m ρ c (Proc.devRef .tc main_arg4) = m ((c : Thread nD τ).loc main_arg4) := (W2_of_ne m ρ c main_arg4 (by decide)).trans (at1_arg4 m ρ c)
theorem at2_arg5 : W2 m ρ c (Proc.devRef .tc main_arg5) = m ((c : Thread nD τ).loc main_arg5) := (W2_of_ne m ρ c main_arg5 (by decide)).trans (at1_arg5 m ρ c)
theorem at2_arg6 : W2 m ρ c (Proc.devRef .tc main_arg6) = m ((c : Thread nD τ).loc main_arg6) := (W2_of_ne m ρ c main_arg6 (by decide)).trans (at1_arg6 m ρ c)
theorem at2_arg7 : W2 m ρ c (Proc.devRef .tc main_arg7) = m ((c : Thread nD τ).loc main_arg7) := (W2_of_ne m ρ c main_arg7 (by decide)).trans (at1_arg7 m ρ c)
theorem at2_arg8 : W2 m ρ c (Proc.devRef .tc main_arg8) = m ((c : Thread nD τ).loc main_arg8) := (W2_of_ne m ρ c main_arg8 (by decide)).trans (at1_arg8 m ρ c)
theorem at2_v1 : W2 m ρ c (Proc.devRef .tc main_v1) = srcOf (m ((c : Thread nD τ).loc main_arg9)) := (W2_of_ne m ρ c main_v1 (by decide)).trans (at1_v1 m ρ c)
theorem at2_v3 : W2 m ρ c (Proc.devRef .tc main_v3) = dstOf (m ((c : Thread nD τ).loc main_arg9)) := (W2_of_ne m ρ c main_v3 (by decide)).trans (at1_v3 m ρ c)
theorem at5_arg3 : W5 m ρ c (Proc.devRef .tc main_arg3) = m ((c : Thread nD τ).loc main_arg3) := (pre1_arg3 (W2 m ρ c)).trans (at2_arg3 m ρ c)
theorem at5_arg6 : W5 m ρ c (Proc.devRef .tc main_arg6) = m ((c : Thread nD τ).loc main_arg6) := (pre1_arg6 (W2 m ρ c)).trans (at2_arg6 m ρ c)
theorem at5_arg7 : W5 m ρ c (Proc.devRef .tc main_arg7) = m ((c : Thread nD τ).loc main_arg7) := (pre1_arg7 (W2 m ρ c)).trans (at2_arg7 m ρ c)
theorem at5_arg8 : W5 m ρ c (Proc.devRef .tc main_arg8) = m ((c : Thread nD τ).loc main_arg8) := (pre1_arg8 (W2 m ρ c)).trans (at2_arg8 m ρ c)
theorem at5_v1 : W5 m ρ c (Proc.devRef .tc main_v1) = srcOf (m ((c : Thread nD τ).loc main_arg9)) := (pre1_v1 (W2 m ρ c)).trans (at2_v1 m ρ c)
theorem at5_v3 : W5 m ρ c (Proc.devRef .tc main_v3) = dstOf (m ((c : Thread nD τ).loc main_arg9)) := (pre1_v3 (W2 m ρ c)).trans (at2_v3 m ρ c)
theorem at6_arg6 : W6 m ρ c (Proc.devRef .tc main_arg6) = m ((c : Thread nD τ).loc main_arg6) := (W6_of_ne m ρ c main_arg6 (by decide)).trans (at5_arg6 m ρ c)
theorem at6_arg7 : W6 m ρ c (Proc.devRef .tc main_arg7) = m ((c : Thread nD τ).loc main_arg7) := (W6_of_ne m ρ c main_arg7 (by decide)).trans (at5_arg7 m ρ c)
theorem at6_arg8 : W6 m ρ c (Proc.devRef .tc main_arg8) = m ((c : Thread nD τ).loc main_arg8) := (W6_of_ne m ρ c main_arg8 (by decide)).trans (at5_arg8 m ρ c)
theorem at6_v1 : W6 m ρ c (Proc.devRef .tc main_v1) = srcOf (m ((c : Thread nD τ).loc main_arg9)) := (W6_of_ne m ρ c main_v1 (by decide)).trans (at5_v1 m ρ c)
theorem at6_v3 : W6 m ρ c (Proc.devRef .tc main_v3) = dstOf (m ((c : Thread nD τ).loc main_arg9)) := (W6_of_ne m ρ c main_v3 (by decide)).trans (at5_v3 m ρ c)
theorem at11_arg6 : W11 m ρ c (Proc.devRef .tc main_arg6) = m ((c : Thread nD τ).loc main_arg6) := (pre2_arg6 (W6 m ρ c)).trans (at6_arg6 m ρ c)
theorem at11_v1 : W11 m ρ c (Proc.devRef .tc main_v1) = srcOf (m ((c : Thread nD τ).loc main_arg9)) := (pre2_v1 (W6 m ρ c)).trans (at6_v1 m ρ c)
theorem at11_v3 : W11 m ρ c (Proc.devRef .tc main_v3) = dstOf (m ((c : Thread nD τ).loc main_arg9)) := (pre2_v3 (W6 m ρ c)).trans (at6_v3 m ρ c)
theorem at12_v1 : W12 m ρ c (Proc.devRef .tc main_v1) = srcOf (m ((c : Thread nD τ).loc main_arg9)) := (W12_of_ne m ρ c main_v1 (by decide)).trans (at11_v1 m ρ c)
theorem at12_v3 : W12 m ρ c (Proc.devRef .tc main_v3) = dstOf (m ((c : Thread nD τ).loc main_arg9)) := (W12_of_ne m ρ c main_v3 (by decide)).trans (at11_v3 m ρ c)

/-! ## The stages -/

/-- The embedded node features, as the first region leaves them. -/
def H0 : (⟨S100000x64, .f32⟩ : BufTy).Contents (Elt Ideal) := W2 m ρ c (Proc.devRef .tc main_v5)
/-- The first layer's projection and per-node scalars, as the second region leaves them. -/
def XP1 : (⟨S100000x64, .f32⟩ : BufTy).Contents (Elt Ideal) := W6 m ρ c (Proc.devRef .tc main_v18_0)
def VS1 : (⟨S100000x4, .f32⟩ : BufTy).Contents (Elt Ideal) := W6 m ρ c (Proc.devRef .tc main_v18_1)
def VD1 : (⟨S100000x4, .f32⟩ : BufTy).Contents (Elt Ideal) := W6 m ρ c (Proc.devRef .tc main_v18_2)
/-- The first layer's output. -/
def H1 : (⟨S100000x64, .f32⟩ : BufTy).Contents (Elt Ideal) := W11 m ρ c (Proc.devRef .tc main_v65)
/-- The second layer's projection and per-node scalars, as the third region leaves them. -/
def XP2 : (⟨S100000x64, .f32⟩ : BufTy).Contents (Elt Ideal) := W12 m ρ c (Proc.devRef .tc main_v78_0)
def VS2 : (⟨S100000x4, .f32⟩ : BufTy).Contents (Elt Ideal) := W12 m ρ c (Proc.devRef .tc main_v78_1)
def VD2 : (⟨S100000x4, .f32⟩ : BufTy).Contents (Elt Ideal) := W12 m ρ c (Proc.devRef .tc main_v78_2)

theorem H0_apply (n : Fin 100000) (j : Fin 64) :
    H0 m ρ c (ix2 n j) = embedAt (m ((c : Thread nD τ).loc main_arg0)) (m ((c : Thread nD τ).loc main_arg1)) (shapeCast _ (m ((c : Thread nD τ).loc main_arg2)) shapeCasts_S64_S1x64) n j := by
  unfold H0
  refine (congrFun (W2_arr m ρ c 3) (ix2 n j)).trans ?_
  refine (embed_arr (V1 m ρ) c n j).trans ?_
  have e0 : V1 m ρ c main_arg0 = m ((c : Thread nD τ).loc main_arg0) := at1_arg0 m ρ c
  have e1 : V1 m ρ c main_arg1 = m ((c : Thread nD τ).loc main_arg1) := at1_arg1 m ρ c
  have e4 : V1 m ρ c main_v4 = shapeCast _ (m ((c : Thread nD τ).loc main_arg2)) shapeCasts_S64_S1x64 := at1_v4 m ρ c
  rw [e0, e1, e4]

theorem in5_v5 : V5 m ρ c main_v5 = H0 m ρ c := pre1_v5 (W2 m ρ c)
theorem in5_arg3 : V5 m ρ c main_arg3 = m ((c : Thread nD τ).loc main_arg3) := at5_arg3 m ρ c
theorem in5_v14 : V5 m ρ c main_v14 = headW (m ((c : Thread nD τ).loc main_arg4)) :=
  (pre1_v14 (W2 m ρ c)).trans (congrArg headW (at2_arg4 m ρ c))
theorem in5_v17 : V5 m ρ c main_v17 = headW (m ((c : Thread nD τ).loc main_arg5)) :=
  (pre1_v17 (W2 m ρ c)).trans (congrArg headW (at2_arg5 m ρ c))

theorem XP1_apply (n : Fin 100000) (j : Fin 64) : XP1 m ρ c (ix2 n j) = proj1_xpAt (H0 m ρ c) (m ((c : Thread nD τ).loc main_arg3)) n j := by
  unfold XP1
  refine (congrFun (W6_arr m ρ c 4) (ix2 n j)).trans ?_
  refine (proj1_xp (V5 m ρ) c n j).trans ?_
  rw [in5_v5, in5_arg3]
theorem VS1_apply (n : Fin 100000) (a : Fin 4) : VS1 m ρ c (ix2 n a) = proj1_vAt (H0 m ρ c) (m ((c : Thread nD τ).loc main_arg3)) (headW (m ((c : Thread nD τ).loc main_arg4))) n a := by
  unfold VS1
  refine (congrFun (W6_arr m ρ c 5) (ix2 n a)).trans ?_
  refine (proj1_vs (V5 m ρ) c n a).trans ?_
  rw [in5_v5, in5_arg3, in5_v14]
theorem VD1_apply (n : Fin 100000) (a : Fin 4) : VD1 m ρ c (ix2 n a) = proj1_vAt (H0 m ρ c) (m ((c : Thread nD τ).loc main_arg3)) (headW (m ((c : Thread nD τ).loc main_arg5))) n a := by
  unfold VD1
  refine (congrFun (W6_arr m ρ c 6) (ix2 n a)).trans ?_
  refine (proj1_vd (V5 m ρ) c n a).trans ?_
  rw [in5_v5, in5_arg3, in5_v17]

theorem H1_eq : H1 m ρ c = layerOut (XP1 m ρ c) (VS1 m ρ c) (VD1 m ρ c) (srcOf (m ((c : Thread nD τ).loc main_arg9))) (dstOf (m ((c : Thread nD τ).loc main_arg9))) := by
  unfold H1
  refine (pre2_v65 (W6 m ρ c)).trans ?_
  rw [at6_v1, at6_v3]
  rfl

theorem in11_v65 : V11 m ρ c main_v65 = H1 m ρ c := rfl
theorem in11_arg6 : V11 m ρ c main_arg6 = m ((c : Thread nD τ).loc main_arg6) := at11_arg6 m ρ c
theorem in11_v74 : V11 m ρ c main_v74 = headW (m ((c : Thread nD τ).loc main_arg7)) :=
  (pre2_v74 (W6 m ρ c)).trans (congrArg headW (at6_arg7 m ρ c))
theorem in11_v77 : V11 m ρ c main_v77 = headW (m ((c : Thread nD τ).loc main_arg8)) :=
  (pre2_v77 (W6 m ρ c)).trans (congrArg headW (at6_arg8 m ρ c))

theorem XP2_apply (n : Fin 100000) (j : Fin 64) : XP2 m ρ c (ix2 n j) = proj2_xpAt (H1 m ρ c) (m ((c : Thread nD τ).loc main_arg6)) n j := by
  unfold XP2
  refine (congrFun (W12_arr m ρ c 4) (ix2 n j)).trans ?_
  refine (proj2_xp (V11 m ρ) c n j).trans ?_
  rw [in11_v65, in11_arg6]
theorem VS2_apply (n : Fin 100000) (a : Fin 4) : VS2 m ρ c (ix2 n a) = proj2_vAt (H1 m ρ c) (m ((c : Thread nD τ).loc main_arg6)) (headW (m ((c : Thread nD τ).loc main_arg7))) n a := by
  unfold VS2
  refine (congrFun (W12_arr m ρ c 5) (ix2 n a)).trans ?_
  refine (proj2_vs (V11 m ρ) c n a).trans ?_
  rw [in11_v65, in11_arg6, in11_v74]
theorem VD2_apply (n : Fin 100000) (a : Fin 4) : VD2 m ρ c (ix2 n a) = proj2_vAt (H1 m ρ c) (m ((c : Thread nD τ).loc main_arg6)) (headW (m ((c : Thread nD τ).loc main_arg8))) n a := by
  unfold VD2
  refine (congrFun (W12_arr m ρ c 6) (ix2 n a)).trans ?_
  refine (proj2_vd (V11 m ρ) c n a).trans ?_
  rw [in11_v65, in11_arg6, in11_v77]

/-- THE RESULT: the rectified second layer. -/
theorem result_eq : W16 m ρ c (Proc.devRef .tc main_v126)
    = relu (layerOut (XP2 m ρ c) (VS2 m ρ c) (VD2 m ρ c) (srcOf (m ((c : Thread nD τ).loc main_arg9))) (dstOf (m ((c : Thread nD τ).loc main_arg9)))) := by
  refine (post_v126 (W12 m ρ c)).trans ?_
  rw [at12_v1, at12_v3]
  rfl

end Cert.KernelIdeal.Trace

end
-- ==== Proof.RStages.lean ====
/-
  The idealized reference as functions of whole arrays.

  The reference is a node embedding `relu (x · W + b)` followed by two attention layers and a final rectifier. One
  layer, from node features `h`: the projection `h · L` seen as four heads of sixteen columns; for every edge the
  projected rows of its source and of its destination; the score of an edge and a head, the head's sixteen source
  columns against the source attention vector plus the same for the destination; LeakyReLU, exponential and
  normalisation by the per-destination sum; and every node's sum over its incoming edges of the source's projected row
  weighted per head. The program's result is these functions composed, of the argument arrays.
-/
import proofs.«102483_j80513456931512_2_alg».proof.Proof.Gen.ReferenceIdeal.Run

set_option maxRecDepth 16384

noncomputable section

namespace Cert.ReferenceIdeal.Stages

open Cert.ReferenceIdeal Cert.ReferenceIdeal.Gen Idealize.ShloMosaic Idealize.ShloMosaic.TcCoe Idealize.SL.Sem Idealize.ShloMosaic.StableHlo

variable {F : FTy → Type} [FloatOps F]

/-- The source node of every edge: row 0 of the edge list. -/
def srcOf (x9 : (⟨S2x1600000, .i32⟩ : BufTy).Contents (Elt F)) : (⟨S1600000, .i32⟩ : BufTy).Contents (Elt F) :=
  shapeCast _ (extractStridedSlice S1x1600000 ![0, 0] x9 slices_S2x1600000_S1x1600000_0_0) shapeCasts_S1x1600000_S1600000

/-- The destination node of every edge: row 1 of the edge list. -/
def dstOf (x9 : (⟨S2x1600000, .i32⟩ : BufTy).Contents (Elt F)) : (⟨S1600000, .i32⟩ : BufTy).Contents (Elt F) :=
  shapeCast _ (extractStridedSlice S1x1600000 ![1, 0] x9 slices_S2x1600000_S1x1600000_1_0) shapeCasts_S1x1600000_S1600000

/-- An index column for a gather: a negative index is shifted up by the number of nodes. -/
def wrapCol (v : (⟨S1600000, .i32⟩ : BufTy).Contents (Elt F)) : (⟨S1600000x1, .i32⟩ : BufTy).Contents (Elt F) :=
  broadcastInDim S1600000x1 ![0] bcast_S1600000_S1600000x1_0
    (select (cmpi .slt v (broadcastInDim S1600000 ![] bcast_S_S1600000 (constantI S_ 32 0#32)))
      (addi v (broadcastInDim S1600000 ![] bcast_S_S1600000 (constantI S_ 32 100000#32))) v)

/-- An index column for a scatter: the indices as they are. -/
def rawCol (v : (⟨S1600000, .i32⟩ : BufTy).Contents (Elt F)) : (⟨S1600000x1, .i32⟩ : BufTy).Contents (Elt F) :=
  broadcastInDim S1600000x1 ![0] bcast_S1600000_S1600000x1_0 v

/-- The node embedding `relu (x · W + b)`. -/
def embed (x : (⟨S100000x128, .f32⟩ : BufTy).Contents (Elt F)) (w : (⟨S128x64, .f32⟩ : BufTy).Contents (Elt F))
    (b : (⟨S64, .f32⟩ : BufTy).Contents (Elt F)) : (⟨S100000x64, .f32⟩ : BufTy).Contents (Elt F) :=
  maximumf (addf (Host.dotGeneral dot_S100000x128_S128x64_S100000x64_1_0_0_1_n_n none x w)
      (broadcastInDim S100000x64 ![0, 1] bcast_S1x64_S100000x64_0_1 (broadcastInDim S1x64 ![1] bcast_S64_S1x64_1 b)))
    (broadcastInDim S100000x64 ![] bcast_S_S100000x64 (constant S_ .f32 0x00000000#32))

/-- The projection `h · L` as four heads of sixteen columns. -/
def proj3 (h : (⟨S100000x64, .f32⟩ : BufTy).Contents (Elt F)) (lw : (⟨S64x64, .f32⟩ : BufTy).Contents (Elt F)) :
    (⟨S100000x4x16, .f32⟩ : BufTy).Contents (Elt F) :=
  shapeCast _ (Host.dotGeneral dot_S100000x64_S64x64_S100000x64_1_0_0_1_n_n none h lw) shapeCasts_S100000x64_S100000x4x16

/-- For every edge and head, the head's sixteen gathered columns against an attention vector. -/
def headDot (g : (⟨S1600000x4x16, .f32⟩ : BufTy).Contents (Elt F)) (att : (⟨S4x16, .f32⟩ : BufTy).Contents (Elt F)) :
    (⟨S1600000x4, .f32⟩ : BufTy).Contents (Elt F) :=
  Host.reduceAdd (mulf g (broadcastInDim S1600000x4x16 ![0, 1, 2] bcast_S1x4x16_S1600000x4x16_0_1_2
      (broadcastInDim S1x4x16 ![1, 2] bcast_S4x16_S1x4x16_1_2 att)))
    (constant S_ .f32 0x00000000#32) reducesTo_S1600000x4x16_S1600000x4_d2 h_S_

/-- The raw edge scores. -/
def score (xp3 : (⟨S100000x4x16, .f32⟩ : BufTy).Contents (Elt F)) (atS atD : (⟨S4x16, .f32⟩ : BufTy).Contents (Elt F))
    (si di : (⟨S1600000x1, .i32⟩ : BufTy).Contents (Elt F)) : (⟨S1600000x4, .f32⟩ : BufTy).Contents (Elt F) :=
  addf (headDot (Host.gather gather_S100000x4x16_S1600000x1_S1600000x4x16_12_0_n_n_0_1_1416 xp3 si) atS)
    (headDot (Host.gather gather_S100000x4x16_S1600000x1_S1600000x4x16_12_0_n_n_0_1_1416 xp3 di) atD)

/-- LeakyReLU with slope 0.2. -/
def lrelu (e : (⟨S1600000x4, .f32⟩ : BufTy).Contents (Elt F)) : (⟨S1600000x4, .f32⟩ : BufTy).Contents (Elt F) :=
  select (cmpf .ogt e (broadcastInDim S1600000x4 ![] bcast_S_S1600000x4 (constant S_ .f32 0x00000000#32))) e
    (mulf (broadcastInDim S1600000x4 ![] bcast_S_S1600000x4 (constant S_ .f32 0x3E4CCCCD#32)) e)

/-- The attention coefficients. -/
def alphaOf (e : (⟨S1600000x4, .f32⟩ : BufTy).Contents (Elt F)) (dr di : (⟨S1600000x1, .i32⟩ : BufTy).Contents (Elt F)) :
    (⟨S1600000x4, .f32⟩ : BufTy).Contents (Elt F) :=
  Host.divf (Host.exp (lrelu e))
    (addf (Host.gather gather_S100000x4_S1600000x1_S1600000x4_1_0_n_n_0_1_14
        (Host.scatterAdd scatter_S100000x4_S1600000x1_S1600000x4_1_0_0_1
          (broadcastInDim S100000x4 ![] bcast_S_S100000x4 (constant S_ .f32 0x00000000#32)) dr (Host.exp (lrelu e))) di)
      (broadcastInDim S1600000x4 ![] bcast_S_S1600000x4 (constant S_ .f32 0x3089705F#32)))

/-- The aggregation, head by head, flattened back to the hidden width. -/
def aggregate (xp3 : (⟨S100000x4x16, .f32⟩ : BufTy).Contents (Elt F)) (alpha : (⟨S1600000x4, .f32⟩ : BufTy).Contents (Elt F))
    (si dr : (⟨S1600000x1, .i32⟩ : BufTy).Contents (Elt F)) : (⟨S100000x64, .f32⟩ : BufTy).Contents (Elt F) :=
  shapeCast _ (Host.scatterAdd scatter_S100000x4x16_S1600000x1_S1600000x4x16_12_0_0_1
    (broadcastInDim S100000x4x16 ![] bcast_S_S100000x4x16 (constant S_ .f32 0x00000000#32)) dr
    (mulf (Host.gather gather_S100000x4x16_S1600000x1_S1600000x4x16_12_0_n_n_0_1_1416 xp3 si)
      (broadcastInDim S1600000x4x16 ![0, 1, 2] bcast_S1600000x4x1_S1600000x4x16_0_1_2
        (broadcastInDim S1600000x4x1 ![0, 1] bcast_S1600000x4_S1600000x4x1_0_1 alpha)))) shapeCasts_S100000x4x16_S100000x64

/-- One attention layer. -/
def layer (h : (⟨S100000x64, .f32⟩ : BufTy).Contents (Elt F)) (lw : (⟨S64x64, .f32⟩ : BufTy).Contents (Elt F))
    (atS atD : (⟨S4x16, .f32⟩ : BufTy).Contents (Elt F)) (v1 v3 : (⟨S1600000, .i32⟩ : BufTy).Contents (Elt F)) :
    (⟨S100000x64, .f32⟩ : BufTy).Contents (Elt F) :=
  aggregate (proj3 h lw) (alphaOf (score (proj3 h lw) atS atD (wrapCol v1) (wrapCol v3)) (rawCol v3) (wrapCol v3)) (wrapCol v1) (rawCol v3)

/-- The final rectifier. -/
def relu (x : (⟨S100000x64, .f32⟩ : BufTy).Contents (Elt F)) : (⟨S100000x64, .f32⟩ : BufTy).Contents (Elt F) :=
  maximumf x (broadcastInDim S100000x64 ![] bcast_S_S100000x64 (constant S_ .f32 0x00000000#32))

/-- The whole reference. -/
def network (x0 : (⟨S100000x128, .f32⟩ : BufTy).Contents (Elt F)) (x1 : (⟨S128x64, .f32⟩ : BufTy).Contents (Elt F))
    (x2 : (⟨S64, .f32⟩ : BufTy).Contents (Elt F)) (x3 : (⟨S64x64, .f32⟩ : BufTy).Contents (Elt F))
    (x4 x5 : (⟨S4x16, .f32⟩ : BufTy).Contents (Elt F)) (x6 : (⟨S64x64, .f32⟩ : BufTy).Contents (Elt F))
    (x7 x8 : (⟨S4x16, .f32⟩ : BufTy).Contents (Elt F)) (x9 : (⟨S2x1600000, .i32⟩ : BufTy).Contents (Elt F)) :
    (⟨S100000x64, .f32⟩ : BufTy).Contents (Elt F) :=
  relu (layer (layer (embed x0 x1 x2) x3 x4 x5 (srcOf x9) (dstOf x9)) x6 x7 x8 (srcOf x9) (dstOf x9))

set_option maxHeartbeats 4000000 in
/-- The reference run's result term is the network of the argument arrays. -/
theorem result_eq (m : (ℓ : Loc nD τ sig) → Buf (Elt F) ℓ) (c : Dev nD) :
    Cert.ReferenceIdeal.Value.res_main_v111 m c
      = network (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) := by
  unfold Cert.ReferenceIdeal.Value.res_main_v111
  rfl

end Cert.ReferenceIdeal.Stages

end
-- ==== Proof.LibRowScatter.lean ====
/-
  Rows gathered and rows scatter-added by an index column.

  A matrix of `N` rows and `W` columns, a column of `E` integer indices, and a matrix of `E` rows and `W`
  columns. The accumulating scatter with the index column adds update row `e` into the row of the operand that the
  `e`-th index names, column by column; an index that, read as a signed integer, is not a row number `0 ≤ · < N`
  drops its row. The gather with the index column reads, for every `e`, the row of the operand that the `e`-th index
  names, read as a signed integer and clamped into `[0, N − 1]`.

  Element `(i, j)` of the scatter is therefore the operand's `(i, j)` plus the sum over the edge set
  `{e | index e = i}` of the updates' `(e, j)`, and element `(e, j)` of the gather is the operand's `(rowOf e, j)`.
  The edge set and the row map are functions of the index column and of `N` alone: they mention neither the width
  `W` nor the column `j`, so two scatters (two gathers) of different widths by the same index column sum over the
  same edges (read the same rows).
-/
import Idealize.ShloMosaic.PureOps.Ideal
import Idealize.ShloMosaic.Lib.ValueIdx

noncomputable section

open scoped BigOperators

namespace RowScatter

open Idealize.ShloMosaic Idealize.ShloMosaic.ValueIdx

/-! ## The accumulating scatter of rows -/

section Scatter
variable {N E W w : Nat}

/-- The dimension numbers of a scatter of rows: operand `[N, W]`, indices `[E, 1]` (one index per update row, the
    index vector on axis 1), updates `[E, W]`; the updates' axis 1 is the window axis and goes to the operand's
    axis 1, the operand's axis 0 is the inserted one and is the axis the index names. -/
abbrev rowScatterDims (N E W : Nat)
    (wf : ScatterDims.WF ⟨2, ![N, W]⟩ ⟨2, ![E, 1]⟩ ⟨2, ![E, W]⟩ [1] [0] [0] 1) :
    ScatterDims ⟨2, ![N, W]⟩ ⟨2, ![E, 1]⟩ ⟨2, ![E, W]⟩ where
  updateWindowDims := [1]
  insertedWindowDims := [0]
  scatterDimsToOperandDims := [0]
  indexVectorDim := 1
  wf := wf

variable (wf : ScatterDims.WF ⟨2, ![N, W]⟩ ⟨2, ![E, 1]⟩ ⟨2, ![E, W]⟩ [1] [0] [0] 1)

/-- The operand's axes that are not inserted: the column axis alone. -/
theorem mem_sKept_iff (a : Fin 2) : a ∈ (rowScatterDims N E W wf).sKept ↔ a ≠ 0 := by
  simp [ScatterDims.sKept, Shape.kept, List.mem_filter, List.mem_finRange]

/-- On the row axis the window of update `(e, j')` starts at the `e`-th index, read signed. -/
theorem start_row (idx : IVec ⟨2, ![E, 1]⟩ w) (e : Fin E) (j' : Fin W) :
    (rowScatterDims N E W wf).start (ix2 e j') idx 0 = (idx (ix2 e (0 : Fin 1))).toInt := by
  unfold ScatterDims.start
  rw [dif_pos (show (0 : Fin 2) ∈ (rowScatterDims N E W wf).scatterDimsToOperandDims from List.mem_singleton.mpr rfl)]
  have hsi : (rowScatterDims N E W wf).siIdx (ix2 e j') ⟨List.idxOf (0 : Fin 2) (rowScatterDims N E W wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis the window starts at `0`: no index names that axis. -/
theorem start_col (idx : IVec ⟨2, ![E, 1]⟩ w) (e : Fin E) (j' : Fin W) :
    (rowScatterDims N E W wf).start (ix2 e j') idx 1 = 0 := by
  unfold ScatterDims.start
  rw [dif_neg (fun h : (1 : Fin 2) ∈ (rowScatterDims N E W wf).scatterDimsToOperandDims =>
    absurd (List.mem_singleton.mp h) (show ¬ ((1 : Fin 2) = 0) by decide))]

/-- The row axis is inserted: the window coordinate there is `0`. -/
theorem window_row (e : Fin E) (j' : Fin W) : (rowScatterDims N E W wf).window (ix2 e j') 0 = 0 := by
  unfold ScatterDims.window
  rw [dif_neg (fun h => ((mem_sKept_iff wf 0).mp h) rfl)]

/-- On the column axis the window coordinate is the update's column. -/
theorem window_col (e : Fin E) (j' : Fin W) : (rowScatterDims N E W wf).window (ix2 e j') 1 = j'.val := by
  unfold ScatterDims.window
  rw [dif_pos ((mem_sKept_iff wf 1).mpr (by decide))]
  rfl

/-- The row the window of update `(e, j')` lands on: the `e`-th index, read signed. -/
theorem land_row (idx : IVec ⟨2, ![E, 1]⟩ w) (e : Fin E) (j' : Fin W) :
    (rowScatterDims N E W wf).start (ix2 e j') idx 0 + ((rowScatterDims N E W wf).window (ix2 e j') 0 : ℕ) = (idx (ix2 e (0 : Fin 1))).toInt := by
  rw [start_row, window_row]; simp

/-- The column update `(e, j')` lands on: its own. -/
theorem land_col (idx : IVec ⟨2, ![E, 1]⟩ w) (e : Fin E) (j' : Fin W) :
    (rowScatterDims N E W wf).start (ix2 e j') idx 1 + ((rowScatterDims N E W wf).window (ix2 e j') 1 : ℕ) = (j'.val : ℤ) := by
  rw [start_col, window_col]; simp

/-- Update `(e, j')` lands on element `(i, j)` exactly when the `e`-th index, read signed, is `i` and `j' = j`;
    an index outside `[0, N)` lands nowhere. -/
theorem resultIdx?_eq_some_iff (idx : IVec ⟨2, ![E, 1]⟩ w) (e : Fin E) (j' : Fin W) (i : Fin N) (j : Fin W) :
    (rowScatterDims N E W wf).resultIdx? (ix2 e j') idx = some (ix2 i j)
      ↔ (idx (ix2 e (0 : Fin 1))).toInt = (i.val : ℤ) ∧ j' = j := by
  have hr := land_row wf idx e j'
  have hc := land_col wf idx e j'
  unfold ScatterDims.resultIdx?
  split
  · rename_i h
    rw [Option.some.injEq]
    constructor
    · intro hEq
      have h0 : ((rowScatterDims N E W wf).start (ix2 e j') idx 0 + ((rowScatterDims N E W wf).window (ix2 e j') 0 : ℕ)).toNat = i.val :=
        congrArg Fin.val (congrFun hEq 0)
      have h1 : ((rowScatterDims N E W wf).start (ix2 e j') idx 1 + ((rowScatterDims N E W wf).window (ix2 e j') 1 : ℕ)).toNat = j.val :=
        congrArg Fin.val (congrFun hEq 1)
      have hp := (h 0).1
      rw [hr] at h0 hp
      rw [hc] at h1
      exact ⟨by omega, Fin.ext (by omega)⟩
    · rintro ⟨hi, rfl⟩
      funext a
      refine Fin.ext ?_
      match a with
      | ⟨0, _⟩ =>
        show ((rowScatterDims N E W wf).start (ix2 e j') idx 0 + ((rowScatterDims N E W wf).window (ix2 e j') 0 : ℕ)).toNat = i.val
        rw [hr]; omega
      | ⟨1, _⟩ =>
        show ((rowScatterDims N E W wf).start (ix2 e j') idx 1 + ((rowScatterDims N E W wf).window (ix2 e j') 1 : ℕ)).toNat = j'.val
        rw [hc]; omega
  · rename_i h
    constructor
    · intro hEq; exact (Option.some_ne_none _ hEq.symm).elim
    · rintro ⟨hi, rfl⟩
      exfalso; apply h
      intro a
      match a with
      | ⟨0, _⟩ =>
        show 0 ≤ (rowScatterDims N E W wf).start (ix2 e j') idx 0 + ((rowScatterDims N E W wf).window (ix2 e j') 0 : ℕ)
          ∧ (rowScatterDims N E W wf).start (ix2 e j') idx 0 + ((rowScatterDims N E W wf).window (ix2 e j') 0 : ℕ) < (N : ℤ)
        rw [hr, hi]; have := i.isLt; omega
      | ⟨1, _⟩ =>
        show 0 ≤ (rowScatterDims N E W wf).start (ix2 e j') idx 1 + ((rowScatterDims N E W wf).window (ix2 e j') 1 : ℕ)
          ∧ (rowScatterDims N E W wf).start (ix2 e j') idx 1 + ((rowScatterDims N E W wf).window (ix2 e j') 1 : ℕ) < (W : ℤ)
        rw [hc]; have := j'.isLt; omega

/-- THE SCATTER OF ROWS READ AT `(i, j)`: the operand's element plus the sum, over the edges `e` whose index read
    signed is `i`, of the updates' `(e, j)`. The edge set mentions neither `W` nor `j`. -/
theorem hostScatterAdd_rows (z : (⟨2, ![N, W]⟩ : Shape).Idx → EReal) (idx : IVec ⟨2, ![E, 1]⟩ w)
    (upd : (⟨2, ![E, W]⟩ : Shape).Idx → EReal) (i : Fin N) (j : Fin W) :
    Ideal.hostScatterAdd (rowScatterDims N E W wf) z idx upd (ix2 i j)
      = z (ix2 i j)
        + ∑ e ∈ Finset.univ.filter (fun e : Fin E => (idx (ix2 e (0 : Fin 1))).toInt = (i.val : ℤ)), upd (ix2 e j) := by
  unfold Ideal.hostScatterAdd
  congr 1
  refine (Finset.sum_filter _ _).trans ?_
  refine (sum_idx2 _).trans ?_
  refine Eq.trans ?_ (Finset.sum_filter _ _).symm
  refine Finset.sum_congr rfl (fun e _ => ?_)
  simp only [resultIdx?_eq_some_iff]
  by_cases he : (idx (ix2 e (0 : Fin 1))).toInt = (i.val : ℤ)
  · simp only [he, true_and, if_true]
    exact Fintype.sum_ite_eq' j (fun j' => upd (ix2 e j'))
  · simp only [he, false_and, if_false]
    exact Finset.sum_const_zero

end Scatter

/-! ## The gather of rows -/

section Gather
variable {α : Type} {N E W w : Nat}

/-- The dimension numbers of a gather of rows: operand `[N, W]`, start indices `[E, 1]` (one index per result row,
    the index vector on axis 1), result `[E, W]`; slices are whole rows `[1, W]`, the operand's axis 0 is collapsed
    and is the axis the index names, the result's axis 1 is the offset axis. -/
abbrev rowGatherDims (N E W : Nat)
    (wf : GatherDims.WF ⟨2, ![N, W]⟩ ⟨2, ![E, 1]⟩ ⟨2, ![E, W]⟩ [1] [0] [] [0] [] 1 ![1, W]) :
    GatherDims ⟨2, ![N, W]⟩ ⟨2, ![E, 1]⟩ ⟨2, ![E, W]⟩ where
  offsetDims := [1]
  collapsedSliceDims := [0]
  operandBatchingDims := []
  startIndicesBatchingDims := []
  startIndexMap := [0]
  indexVectorDim := 1
  sliceSizes := ![1, W]
  wf := wf

/-- The row of an `N`-row operand that the `e`-th index names: the index read as a signed integer and clamped into
    `[0, N − 1]`. It depends on the index column and on `N` only. -/
def rowOf (N : Nat) (hN : 0 < N) {E w : Nat} (idx : IVec ⟨2, ![E, 1]⟩ w) (e : Fin E) : Fin N :=
  ⟨min (idx (ix2 e (0 : Fin 1))).toInt.toNat (N - 1), by omega⟩

variable (wf : GatherDims.WF ⟨2, ![N, W]⟩ ⟨2, ![E, 1]⟩ ⟨2, ![E, W]⟩ [1] [0] [] [0] [] 1 ![1, W])

/-- THE GATHER OF ROWS READ AT `(e, j)`: the operand at row `rowOf e`, column `j`. -/
theorem gather_rows (hN : 0 < N) (x : (⟨2, ![N, W]⟩ : Shape).Idx → α) (idx : IVec ⟨2, ![E, 1]⟩ w)
    (e : Fin E) (j : Fin W) :
    Host.gather (rowGatherDims N E W wf) x idx (ix2 e j) = x (ix2 (rowOf N hN idx e) j) := by
  unfold Host.gather
  congr 1
  funext a
  refine Fin.ext ?_
  match a with
  | ⟨0, _⟩ =>
    show (rowGatherDims N E W wf).start (ix2 e j) idx 0 + (rowGatherDims N E W wf).batchCoord (ix2 e j) 0 + (rowGatherDims N E W wf).offCoord (ix2 e j) 0
      = min (idx (ix2 e (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E W wf).startIndexMap from List.mem_singleton.mpr rfl)]
    have hsi : (rowGatherDims N E W wf).siIdx (ix2 e j) ⟨List.idxOf (0 : Fin 2) (rowGatherDims N E W wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N E W wf).start (ix2 e j) idx 1 + (rowGatherDims N E W wf).batchCoord (ix2 e j) 1 + (rowGatherDims N E W wf).offCoord (ix2 e j) 1 = j.val
    have hst : (rowGatherDims N E W wf).start (ix2 e j) idx 1 = 0 := by
      unfold GatherDims.start
      rw [dif_neg (fun h : (1 : Fin 2) ∈ (rowGatherDims N E W wf).startIndexMap => absurd (List.mem_singleton.mp h) (show ¬ ((1 : Fin 2) = 0) by decide))]
    have hoff : (rowGatherDims N E W wf).offCoord (ix2 e j) 1 = j.val := by
      unfold GatherDims.offCoord
      rw [dif_pos ((GatherDims.mem_sKept _ _).mpr
        ⟨fun h : (1 : Fin 2) ∈ (rowGatherDims N E W wf).collapsedSliceDims => absurd (List.mem_singleton.mp h) (show ¬ ((1 : Fin 2) = 0) by decide),
          List.not_mem_nil⟩)]
      rfl
    rw [hst, GatherDims.batchCoord_eq_zero _ _ _ List.not_mem_nil, hoff]
    omega

end Gather

end RowScatter

end
-- ==== Proof.LibRowScatter3.lean ====
/-
  Rows of a rank-3 table gathered and scatter-added by an index column.

  A table of `N` rows, each row an `H × D` block, a column of `E` integer indices, and a table of `E` rows of
  `H × D` blocks. The accumulating scatter with the index column adds update row `e` into the row of the operand
  that the `e`-th index names, block element by block element; an index that, read as a signed integer, is not a row
  number `0 ≤ · < N` drops its row. The gather with the index column reads, for every `e`, the row of the operand
  that the `e`-th index names, read as a signed integer and clamped into `[0, N − 1]`.

  Element `(i, h, d)` of the scatter is therefore the operand's `(i, h, d)` plus the sum over the edge set
  `{e | index e = i}` of the updates' `(e, h, d)`, and element `(e, h, d)` of the gather is the operand's
  `(rowOf e, h, d)`. The edge set and the row map are those of the rank-2 statement (`RowScatter`): functions of the
  index column and of `N` alone, which mention neither the block extents `H`, `D` nor the position `(h, d)`
  in the block. So a rank-3 scatter (gather) and a rank-2 one by the same index column sum over the same edges (read
  the same rows).
-/
import Idealize.ShloMosaic.PureOps.Ideal
import Idealize.ShloMosaic.Lib.ValueIdx
import proofs.«102483_j80513456931512_2_alg».proof.Proof.LibRowScatter

noncomputable section

open scoped BigOperators

namespace RowScatter3

open Idealize.ShloMosaic Idealize.ShloMosaic.ValueIdx

/-! ## A sum over a rank-3 index set -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl (fun a _ => ?_)
  rw [Fintype.sum_prod_type]
  rfl

/-! ## The accumulating scatter of rows -/

section Scatter
variable {N E H D w : Nat}

/-- The dimension numbers of a scatter of rows of a rank-3 table: operand `[N, H, D]`, indices `[E, 1]` (one index
    per update row, the index vector on axis 1), updates `[E, H, D]`; the updates' axes 1 and 2 are the window axes
    and go to the operand's axes 1 and 2, the operand's axis 0 is the inserted one and is the axis the index names. -/
abbrev rowScatterDims3 (N E H D : Nat)
    (wf : ScatterDims.WF ⟨3, ![N, H, D]⟩ ⟨2, ![E, 1]⟩ ⟨3, ![E, H, D]⟩ [1, 2] [0] [0] 1) :
    ScatterDims ⟨3, ![N, H, D]⟩ ⟨2, ![E, 1]⟩ ⟨3, ![E, H, D]⟩ where
  updateWindowDims := [1, 2]
  insertedWindowDims := [0]
  scatterDimsToOperandDims := [0]
  indexVectorDim := 1
  wf := wf

variable (wf : ScatterDims.WF ⟨3, ![N, H, D]⟩ ⟨2, ![E, 1]⟩ ⟨3, ![E, H, D]⟩ [1, 2] [0] [0] 1)

/-- The operand's axes that are not inserted: the two block axes. -/
theorem mem_sKept_iff (a : Fin 3) : a ∈ (rowScatterDims3 N E H D wf).sKept ↔ a ≠ 0 := by
  simp [ScatterDims.sKept, Shape.kept, List.mem_filter, List.mem_finRange]

/-- On the row axis the window of update `(e, p, q)` starts at the `e`-th index, read signed. -/
theorem start_row (idx : IVec ⟨2, ![E, 1]⟩ w) (e : Fin E) (p : Fin H) (q : Fin D) :
    (rowScatterDims3 N E H D wf).start (ix3 e p q) idx 0 = (idx (ix2 e (0 : Fin 1))).toInt := by
  unfold ScatterDims.start
  rw [dif_pos (show (0 : Fin 3) ∈ (rowScatterDims3 N E H D wf).scatterDimsToOperandDims from List.mem_singleton.mpr rfl)]
  have hsi : (rowScatterDims3 N E H D wf).siIdx (ix3 e p q)
      ⟨List.idxOf (0 : Fin 3) (rowScatterDims3 N E H D wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the first block axis the window starts at `0`: no index names that axis. -/
theorem start_one (idx : IVec ⟨2, ![E, 1]⟩ w) (e : Fin E) (p : Fin H) (q : Fin D) :
    (rowScatterDims3 N E H D wf).start (ix3 e p q) idx 1 = 0 := by
  unfold ScatterDims.start
  rw [dif_neg (fun hm : (1 : Fin 3) ∈ (rowScatterDims3 N E H D wf).scatterDimsToOperandDims =>
    absurd (List.mem_singleton.mp hm) (show ¬ ((1 : Fin 3) = 0) by decide))]

/-- On the second block axis the window starts at `0`: no index names that axis. -/
theorem start_two (idx : IVec ⟨2, ![E, 1]⟩ w) (e : Fin E) (p : Fin H) (q : Fin D) :
    (rowScatterDims3 N E H D wf).start (ix3 e p q) idx 2 = 0 := by
  unfold ScatterDims.start
  rw [dif_neg (fun hm : (2 : Fin 3) ∈ (rowScatterDims3 N E H D wf).scatterDimsToOperandDims =>
    absurd (List.mem_singleton.mp hm) (show ¬ ((2 : Fin 3) = 0) by decide))]

/-- The row axis is inserted: the window coordinate there is `0`. -/
theorem window_row (e : Fin E) (p : Fin H) (q : Fin D) : (rowScatterDims3 N E H D wf).window (ix3 e p q) 0 = 0 := by
  unfold ScatterDims.window
  rw [dif_neg (fun hm => ((mem_sKept_iff wf 0).mp hm) rfl)]

/-- On the first block axis the window coordinate is the update's first block coordinate. -/
theorem window_one (e : Fin E) (p : Fin H) (q : Fin D) : (rowScatterDims3 N E H D wf).window (ix3 e p q) 1 = p.val := by
  unfold ScatterDims.window
  rw [dif_pos ((mem_sKept_iff wf 1).mpr (by decide))]
  rfl

/-- On the second block axis the window coordinate is the update's second block coordinate. -/
theorem window_two (e : Fin E) (p : Fin H) (q : Fin D) : (rowScatterDims3 N E H D wf).window (ix3 e p q) 2 = q.val := by
  unfold ScatterDims.window
  rw [dif_pos ((mem_sKept_iff wf 2).mpr (by decide))]
  rfl

/-- The row the window of update `(e, p, q)` lands on: the `e`-th index, read signed. -/
theorem land_row (idx : IVec ⟨2, ![E, 1]⟩ w) (e : Fin E) (p : Fin H) (q : Fin D) :
    (rowScatterDims3 N E H D wf).start (ix3 e p q) idx 0 + ((rowScatterDims3 N E H D wf).window (ix3 e p q) 0 : ℕ)
      = (idx (ix2 e (0 : Fin 1))).toInt := by
  rw [start_row, window_row]; simp

/-- The first block coordinate update `(e, p, q)` lands on: its own. -/
theorem land_one (idx : IVec ⟨2, ![E, 1]⟩ w) (e : Fin E) (p : Fin H) (q : Fin D) :
    (rowScatterDims3 N E H D wf).start (ix3 e p q) idx 1 + ((rowScatterDims3 N E H D wf).window (ix3 e p q) 1 : ℕ)
      = (p.val : ℤ) := by
  rw [start_one, window_one]; simp

/-- The second block coordinate update `(e, p, q)` lands on: its own. -/
theorem land_two (idx : IVec ⟨2, ![E, 1]⟩ w) (e : Fin E) (p : Fin H) (q : Fin D) :
    (rowScatterDims3 N E H D wf).start (ix3 e p q) idx 2 + ((rowScatterDims3 N E H D wf).window (ix3 e p q) 2 : ℕ)
      = (q.val : ℤ) := by
  rw [start_two, window_two]; simp

/-- Update `(e, p, q)` lands on element `(i, h, d)` exactly when the `e`-th index, read signed, is `i` and
    `(p, q) = (h, d)`; an index outside `[0, N)` lands nowhere. -/
theorem resultIdx?_eq_some_iff (idx : IVec ⟨2, ![E, 1]⟩ w) (e : Fin E) (p : Fin H) (q : Fin D)
    (i : Fin N) (h : Fin H) (d : Fin D) :
    (rowScatterDims3 N E H D wf).resultIdx? (ix3 e p q) idx = some (ix3 i h d)
      ↔ (idx (ix2 e (0 : Fin 1))).toInt = (i.val : ℤ) ∧ p = h ∧ q = d := by
  have hr := land_row wf idx e p q
  have h1 := land_one wf idx e p q
  have h2 := land_two wf idx e p q
  unfold ScatterDims.resultIdx?
  split
  · rename_i hb
    rw [Option.some.injEq]
    constructor
    · intro hEq
      have e0 : ((rowScatterDims3 N E H D wf).start (ix3 e p q) idx 0
          + ((rowScatterDims3 N E H D wf).window (ix3 e p q) 0 : ℕ)).toNat = i.val :=
        congrArg Fin.val (congrFun hEq 0)
      have e1 : ((rowScatterDims3 N E H D wf).start (ix3 e p q) idx 1
          + ((rowScatterDims3 N E H D wf).window (ix3 e p q) 1 : ℕ)).toNat = h.val :=
        congrArg Fin.val (congrFun hEq 1)
      have e2 : ((rowScatterDims3 N E H D wf).start (ix3 e p q) idx 2
          + ((rowScatterDims3 N E H D wf).window (ix3 e p q) 2 : ℕ)).toNat = d.val :=
        congrArg Fin.val (congrFun hEq 2)
      have hp := (hb 0).1
      rw [hr] at e0 hp
      rw [h1] at e1
      rw [h2] at e2
      exact ⟨by omega, Fin.ext (by omega), Fin.ext (by omega)⟩
    · rintro ⟨hi, rfl, rfl⟩
      funext a
      refine Fin.ext ?_
      match a with
      | ⟨0, _⟩ =>
        show ((rowScatterDims3 N E H D wf).start (ix3 e p q) idx 0
          + ((rowScatterDims3 N E H D wf).window (ix3 e p q) 0 : ℕ)).toNat = i.val
        rw [hr]; omega
      | ⟨1, _⟩ =>
        show ((rowScatterDims3 N E H D wf).start (ix3 e p q) idx 1
          + ((rowScatterDims3 N E H D wf).window (ix3 e p q) 1 : ℕ)).toNat = p.val
        rw [h1]; omega
      | ⟨2, _⟩ =>
        show ((rowScatterDims3 N E H D wf).start (ix3 e p q) idx 2
          + ((rowScatterDims3 N E H D wf).window (ix3 e p q) 2 : ℕ)).toNat = q.val
        rw [h2]; omega
  · rename_i hb
    constructor
    · intro hEq; exact (Option.some_ne_none _ hEq.symm).elim
    · rintro ⟨hi, rfl, rfl⟩
      exfalso; apply hb
      intro a
      match a with
      | ⟨0, _⟩ =>
        show 0 ≤ (rowScatterDims3 N E H D wf).start (ix3 e p q) idx 0
            + ((rowScatterDims3 N E H D wf).window (ix3 e p q) 0 : ℕ)
          ∧ (rowScatterDims3 N E H D wf).start (ix3 e p q) idx 0
            + ((rowScatterDims3 N E H D wf).window (ix3 e p q) 0 : ℕ) < (N : ℤ)
        rw [hr, hi]; have := i.isLt; omega
      | ⟨1, _⟩ =>
        show 0 ≤ (rowScatterDims3 N E H D wf).start (ix3 e p q) idx 1
            + ((rowScatterDims3 N E H D wf).window (ix3 e p q) 1 : ℕ)
          ∧ (rowScatterDims3 N E H D wf).start (ix3 e p q) idx 1
            + ((rowScatterDims3 N E H D wf).window (ix3 e p q) 1 : ℕ) < (H : ℤ)
        rw [h1]; have := p.isLt; omega
      | ⟨2, _⟩ =>
        show 0 ≤ (rowScatterDims3 N E H D wf).start (ix3 e p q) idx 2
            + ((rowScatterDims3 N E H D wf).window (ix3 e p q) 2 : ℕ)
          ∧ (rowScatterDims3 N E H D wf).start (ix3 e p q) idx 2
            + ((rowScatterDims3 N E H D wf).window (ix3 e p q) 2 : ℕ) < (D : ℤ)
        rw [h2]; have := q.isLt; omega

/-- THE SCATTER OF ROWS READ AT `(i, h, d)`: the operand's element plus the sum, over the edges `e` whose index read
    signed is `i`, of the updates' `(e, h, d)`. The edge set is the rank-2 statement's: it mentions neither the
    block extents nor `(h, d)`. -/
theorem hostScatterAdd_rows3 (z : (⟨3, ![N, H, D]⟩ : Shape).Idx → EReal) (idx : IVec ⟨2, ![E, 1]⟩ w)
    (upd : (⟨3, ![E, H, D]⟩ : Shape).Idx → EReal) (i : Fin N) (h : Fin H) (d : Fin D) :
    Ideal.hostScatterAdd (rowScatterDims3 N E H D wf) z idx upd (ix3 i h d)
      = z (ix3 i h d)
        + ∑ e ∈ Finset.univ.filter (fun e : Fin E => (idx (ix2 e (0 : Fin 1))).toInt = (i.val : ℤ)), upd (ix3 e h d) := by
  unfold Ideal.hostScatterAdd
  congr 1
  refine (Finset.sum_filter _ _).trans ?_
  refine (sum_idx3 _).trans ?_
  refine Eq.trans ?_ (Finset.sum_filter _ _).symm
  refine Finset.sum_congr rfl (fun e _ => ?_)
  simp only [resultIdx?_eq_some_iff]
  by_cases he : (idx (ix2 e (0 : Fin 1))).toInt = (i.val : ℤ)
  · simp only [he, true_and, if_true]
    refine Eq.trans (Finset.sum_congr rfl (fun p _ => ?_)) (Fintype.sum_ite_eq' h (fun p => upd (ix3 e p d)))
    by_cases hp : p = h
    · simp only [hp, true_and, if_true]
      exact Fintype.sum_ite_eq' d (fun q => upd (ix3 e h q))
    · simp only [hp, false_and, if_false]
      exact Finset.sum_const_zero
  · simp only [he, false_and, if_false]
    exact Finset.sum_eq_zero (fun p _ => Finset.sum_const_zero)

end Scatter

/-! ## The gather of rows -/

section Gather
variable {α : Type} {N E H D w : Nat}

/-- The dimension numbers of a gather of rows of a rank-3 table: operand `[N, H, D]`, start indices `[E, 1]` (one
    index per result row, the index vector on axis 1), result `[E, H, D]`; slices are whole rows `[1, H, D]`, the
    operand's axis 0 is collapsed and is the axis the index names, the result's axes 1 and 2 are the offset axes. -/
abbrev rowGatherDims3 (N E H D : Nat)
    (wf : GatherDims.WF ⟨3, ![N, H, D]⟩ ⟨2, ![E, 1]⟩ ⟨3, ![E, H, D]⟩ [1, 2] [0] [] [0] [] 1 ![1, H, D]) :
    GatherDims ⟨3, ![N, H, D]⟩ ⟨2, ![E, 1]⟩ ⟨3, ![E, H, D]⟩ where
  offsetDims := [1, 2]
  collapsedSliceDims := [0]
  operandBatchingDims := []
  startIndicesBatchingDims := []
  startIndexMap := [0]
  indexVectorDim := 1
  sliceSizes := ![1, H, D]
  wf := wf

variable (wf : GatherDims.WF ⟨3, ![N, H, D]⟩ ⟨2, ![E, 1]⟩ ⟨3, ![E, H, D]⟩ [1, 2] [0] [] [0] [] 1 ![1, H, D])

/-- THE GATHER OF ROWS READ AT `(e, h, d)`: the operand at row `RowScatter.rowOf e` — the rank-2 statement's row
    map —, block position `(h, d)`. -/
theorem gather_rows3 (hN : 0 < N) (x : (⟨3, ![N, H, D]⟩ : Shape).Idx → α) (idx : IVec ⟨2, ![E, 1]⟩ w)
    (e : Fin E) (h : Fin H) (d : Fin D) :
    Host.gather (rowGatherDims3 N E H D wf) x idx (ix3 e h d) = x (ix3 (RowScatter.rowOf N hN idx e) h d) := by
  unfold Host.gather
  congr 1
  funext a
  refine Fin.ext ?_
  match a with
  | ⟨0, _⟩ =>
    show (rowGatherDims3 N E H D wf).start (ix3 e h d) idx 0 + (rowGatherDims3 N E H D wf).batchCoord (ix3 e h d) 0
        + (rowGatherDims3 N E H D wf).offCoord (ix3 e h d) 0
      = min (idx (ix2 e (0 : Fin 1))).toInt.toNat (N - 1)
    rw [GatherDims.batchCoord_eq_zero _ _ _ List.not_mem_nil,
      GatherDims.offCoord_eq_zero _ _ _ (fun hm => ((GatherDims.mem_sKept _ _).mp hm).1 (List.mem_singleton.mpr rfl))]
    simp only [Nat.add_zero]
    unfold GatherDims.start
    rw [dif_pos (show (0 : Fin 3) ∈ (rowGatherDims3 N E H D wf).startIndexMap from List.mem_singleton.mpr rfl)]
    have hsi : (rowGatherDims3 N E H D wf).siIdx (ix3 e h d)
        ⟨List.idxOf (0 : Fin 3) (rowGatherDims3 N E H D wf).startIndexMap,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims3 N E H D wf).start (ix3 e h d) idx 1 + (rowGatherDims3 N E H D wf).batchCoord (ix3 e h d) 1
        + (rowGatherDims3 N E H D wf).offCoord (ix3 e h d) 1 = h.val
    have hst : (rowGatherDims3 N E H D wf).start (ix3 e h d) idx 1 = 0 := by
      unfold GatherDims.start
      rw [dif_neg (fun hm : (1 : Fin 3) ∈ (rowGatherDims3 N E H D wf).startIndexMap =>
        absurd (List.mem_singleton.mp hm) (show ¬ ((1 : Fin 3) = 0) by decide))]
    have hoff : (rowGatherDims3 N E H D wf).offCoord (ix3 e h d) 1 = h.val := by
      unfold GatherDims.offCoord
      rw [dif_pos ((GatherDims.mem_sKept _ _).mpr
        ⟨fun hm : (1 : Fin 3) ∈ (rowGatherDims3 N E H D wf).collapsedSliceDims =>
            absurd (List.mem_singleton.mp hm) (show ¬ ((1 : Fin 3) = 0) by decide),
          List.not_mem_nil⟩)]
      rfl
    rw [hst, GatherDims.batchCoord_eq_zero _ _ _ List.not_mem_nil, hoff]
    omega
  | ⟨2, _⟩ =>
    show (rowGatherDims3 N E H D wf).start (ix3 e h d) idx 2 + (rowGatherDims3 N E H D wf).batchCoord (ix3 e h d) 2
        + (rowGatherDims3 N E H D wf).offCoord (ix3 e h d) 2 = d.val
    have hst : (rowGatherDims3 N E H D wf).start (ix3 e h d) idx 2 = 0 := by
      unfold GatherDims.start
      rw [dif_neg (fun hm : (2 : Fin 3) ∈ (rowGatherDims3 N E H D wf).startIndexMap =>
        absurd (List.mem_singleton.mp hm) (show ¬ ((2 : Fin 3) = 0) by decide))]
    have hoff : (rowGatherDims3 N E H D wf).offCoord (ix3 e h d) 2 = d.val := by
      unfold GatherDims.offCoord
      rw [dif_pos ((GatherDims.mem_sKept _ _).mpr
        ⟨fun hm : (2 : Fin 3) ∈ (rowGatherDims3 N E H D wf).collapsedSliceDims =>
            absurd (List.mem_singleton.mp hm) (show ¬ ((2 : Fin 3) = 0) by decide),
          List.not_mem_nil⟩)]
      rfl
    rw [hst, GatherDims.batchCoord_eq_zero _ _ _ List.not_mem_nil, hoff]
    omega

end Gather

end RowScatter3

end
-- ==== Proof.HeadSum.lean ====
/-
  Selecting one head's columns out of a sum over all columns.

  The hidden width 64 is four heads of sixteen columns each: column `q` belongs to head `q / 16` and is that head's
  column `q % 16`. A sum over all 64 columns in which every term carries the indicator of "column `q` belongs to head
  `a`" is the sum over the sixteen columns `16 a + d` of head `a`. On the extended reals this needs no finiteness:
  a term outside the head is `f · (0 · g) = 0` whatever `f` and `g` are, and the other terms are `f · (1 · g) = f · g`.
-/
import Mathlib.Data.EReal.Basic
import Mathlib.Algebra.BigOperators.Fin
import Mathlib.Algebra.BigOperators.Ring.Finset

noncomputable section

open scoped BigOperators

namespace HeadSum

/-- Column `16 a + d` of the hidden width: head `a`'s column `d`. -/
def col (a : Fin 4) (d : Fin 16) : Fin 64 := ⟨16 * a.val + d.val, by have := a.isLt; have := d.isLt; omega⟩

theorem col_val (a : Fin 4) (d : Fin 16) : (col a d).val = 16 * a.val + d.val := rfl

theorem col_div (a : Fin 4) (d : Fin 16) : (col a d).val / 16 = a.val := by
  have := d.isLt; rw [col_val]; omega

theorem col_mod (a : Fin 4) (d : Fin 16) : (col a d).val % 16 = d.val := by
  have := d.isLt; rw [col_val]; omega

/-- A sum over the 64 columns is the sum over heads of the sum over the head's columns. -/
theorem sum_cols (F : Fin 64 → EReal) : ∑ q : Fin 64, F q = ∑ a : Fin 4, ∑ d : Fin 16, F (col a d) := by
  rw [← Finset.sum_product', Finset.univ_product_univ]
  refine (Equiv.sum_comp (finProdFinEquiv (m := 4) (n := 16)) F).symm.trans ?_
  refine Finset.sum_congr rfl fun p _ => ?_
  refine congrArg F (Fin.ext ?_)
  show p.2.val + 16 * p.1.val = 16 * p.1.val + p.2.val
  omega

/-- The indicator of head `a` under a sum over all columns keeps head `a`'s sixteen columns. -/
theorem select_head (f g : Fin 64 → EReal) (a : Fin 4) :
    ∑ q : Fin 64, f q * ((if q.val / 16 = a.val then (1 : EReal) else 0) * g q)
      = ∑ d : Fin 16, f (col a d) * g (col a d) := by
  rw [sum_cols]
  rw [Finset.sum_eq_single a]
  · refine Finset.sum_congr rfl fun d _ => ?_
    rw [col_div, if_pos rfl, one_mul]
  · intro b _ hb
    refine Finset.sum_eq_zero fun d _ => ?_
    rw [col_div, if_neg (fun h => hb (Fin.ext h)), zero_mul, mul_zero]
  · intro h; exact absurd (Finset.mem_univ a) h

end HeadSum

end
-- ==== Proof.LayoutReads.lean ====
/-
  Reshapes and broadcasts of the layer's shapes read at an index.

  The hidden width 64 is four heads of sixteen columns, column `16 a + d` being head `a`'s column `d`
  (`HeadSum.col a d`). A row-major reshape between `[n, 64]` and `[n, 4, 16]` (or `[64]` and `[4, 16]`) therefore
  pairs entry `(i, 16 a + d)` with entry `(i, a, d)`. A broadcast that only inserts an axis, or only spreads along a
  unit axis, reads its operand at the remaining coordinates.
-/
import Idealize.ShloMosaic.Lib.Pipeline.Value
import Idealize.ShloMosaic.Lib.ValueIdx
import proofs.«102483_j80513456931512_2_alg».proof.Proof.HeadSum

noncomputable section

namespace LayoutReads

open Idealize.ShloMosaic Idealize.ShloMosaic.ValueIdx HeadSum

variable {α : Type}

/-! ## Reshapes -/

/-- `[n, 64] → [n, 4, 16]`: entry `(i, a, d)` is entry `(i, 16 a + d)`. -/
theorem cast_split {n : Nat} (x : (⟨2, ![n, 64]⟩ : Shape).Idx → α)
    (h : (⟨2, ![n, 64]⟩ : Shape).ShapeCasts ⟨3, ![n, 4, 16]⟩) (i : Fin n) (a : Fin 4) (d : Fin 16) :
    shapeCast (⟨3, ![n, 4, 16]⟩ : Shape) x h (ix3 i a d) = x (ix2 i (col a d)) :=
  shapeCast_apply x h (ix3 i a d) (ix2 i (col a d)) (by
    rw [Shape.rowMajor_val_two, Shape.rowMajor_val_three]
    show i.val * 64 + (16 * a.val + d.val) = (i.val * 4 + a.val) * 16 + d.val
    omega)

/-- `[n, 4, 16] → [n, 64]`: entry `(i, 16 a + d)` is entry `(i, a, d)`. -/
theorem cast_merge {n : Nat} (x : (⟨3, ![n, 4, 16]⟩ : Shape).Idx → α)
    (h : (⟨3, ![n, 4, 16]⟩ : Shape).ShapeCasts ⟨2, ![n, 64]⟩) (i : Fin n) (a : Fin 4) (d : Fin 16) :
    shapeCast (⟨2, ![n, 64]⟩ : Shape) x h (ix2 i (col a d)) = x (ix3 i a d) :=
  shapeCast_apply x h (ix2 i (col a d)) (ix3 i a d) (by
    rw [Shape.rowMajor_val_two, Shape.rowMajor_val_three]
    show (i.val * 4 + a.val) * 16 + d.val = i.val * 64 + (16 * a.val + d.val)
    omega)

/-- `[4, 16] → [64]`: entry `16 a + d` is entry `(a, d)`. -/
theorem cast_flat (x : (⟨2, ![4, 16]⟩ : Shape).Idx → α)
    (h : (⟨2, ![4, 16]⟩ : Shape).ShapeCasts ⟨1, ![64]⟩) (a : Fin 4) (d : Fin 16) :
    shapeCast (⟨1, ![64]⟩ : Shape) x h (ix1 (col a d)) = x (ix2 a d) :=
  shapeCast_apply x h (ix1 (col a d)) (ix2 a d) (by
    rw [Shape.rowMajor_val_two, Shape.rowMajor_val_one]
    show a.val * 16 + d.val = 16 * a.val + d.val
    omega)

/-- `[64] → [1, 64]`: entry `(0, j)` is entry `j`. -/
theorem cast_row (x : (⟨1, ![64]⟩ : Shape).Idx → α)
    (h : (⟨1, ![64]⟩ : Shape).ShapeCasts ⟨2, ![1, 64]⟩) (j : Fin 64) :
    shapeCast (⟨2, ![1, 64]⟩ : Shape) x h (ix2 (0 : Fin 1) j) = x (ix1 j) :=
  shapeCast_apply x h (ix2 (0 : Fin 1) j) (ix1 j) (by
    rw [Shape.rowMajor_val_two, Shape.rowMajor_val_one]
    show j.val = 0 * 64 + j.val
    omega)

/-! ## Broadcasts -/

/-- `[1600000, 4] → [1600000, 4, 16]` along a new last axis. -/
theorem bcast_heads (x : (⟨2, ![1600000, 4]⟩ : Shape).Idx → α)
    (h : (⟨2, ![1600000, 4]⟩ : Shape).BroadcastsInDim ⟨3, ![1600000, 4, 16]⟩ ![0, 1]) (e : Fin 1600000) (a : Fin 4) (d : Fin 16) :
    broadcastInDim (⟨3, ![1600000, 4, 16]⟩ : Shape) ![0, 1] h x (ix3 e a d) = x (ix2 e a) :=
  broadcastInDim_apply _ h x (ix3 e a d) (ix2 e a) (fun b => match b with
    | ⟨0, _⟩ => by show e.val = if (1600000 : Nat) = 1 then 0 else e.val; rw [if_neg (by decide)]
    | ⟨1, _⟩ => by show a.val = if (4 : Nat) = 1 then 0 else a.val; rw [if_neg (by decide)])

/-- `[1600000, 4] → [1600000, 4, 1]`: a unit last axis. -/
theorem bcast_unit (x : (⟨2, ![1600000, 4]⟩ : Shape).Idx → α)
    (h : (⟨2, ![1600000, 4]⟩ : Shape).BroadcastsInDim ⟨3, ![1600000, 4, 1]⟩ ![0, 1]) (e : Fin 1600000) (a : Fin 4) :
    broadcastInDim (⟨3, ![1600000, 4, 1]⟩ : Shape) ![0, 1] h x (ix3 e a (0 : Fin 1)) = x (ix2 e a) :=
  broadcastInDim_apply _ h x (ix3 e a (0 : Fin 1)) (ix2 e a) (fun b => match b with
    | ⟨0, _⟩ => by show e.val = if (1600000 : Nat) = 1 then 0 else e.val; rw [if_neg (by decide)]
    | ⟨1, _⟩ => by show a.val = if (4 : Nat) = 1 then 0 else a.val; rw [if_neg (by decide)])

/-- `[1600000, 4, 1] → [1600000, 4, 16]` along the unit axis. -/
theorem bcast_along_unit (x : (⟨3, ![1600000, 4, 1]⟩ : Shape).Idx → α)
    (h : (⟨3, ![1600000, 4, 1]⟩ : Shape).BroadcastsInDim ⟨3, ![1600000, 4, 16]⟩ ![0, 1, 2]) (e : Fin 1600000) (a : Fin 4) (d : Fin 16) :
    broadcastInDim (⟨3, ![1600000, 4, 16]⟩ : Shape) ![0, 1, 2] h x (ix3 e a d) = x (ix3 e a (0 : Fin 1)) :=
  broadcastInDim_apply _ h x (ix3 e a d) (ix3 e a (0 : Fin 1)) (fun b => match b with
    | ⟨0, _⟩ => by show e.val = if (1600000 : Nat) = 1 then 0 else e.val; rw [if_neg (by decide)]
    | ⟨1, _⟩ => by show a.val = if (4 : Nat) = 1 then 0 else a.val; rw [if_neg (by decide)]
    | ⟨2, _⟩ => by show 0 = if (1 : Nat) = 1 then 0 else d.val; rw [if_pos rfl])

/-- `[4, 16] → [1, 4, 16]`: a unit first axis. -/
theorem bcast_att_unit (x : (⟨2, ![4, 16]⟩ : Shape).Idx → α)
    (h : (⟨2, ![4, 16]⟩ : Shape).BroadcastsInDim ⟨3, ![1, 4, 16]⟩ ![1, 2]) (a : Fin 4) (d : Fin 16) :
    broadcastInDim (⟨3, ![1, 4, 16]⟩ : Shape) ![1, 2] h x (ix3 (0 : Fin 1) a d) = x (ix2 a d) :=
  broadcastInDim_apply _ h x (ix3 (0 : Fin 1) a d) (ix2 a d) (fun b => match b with
    | ⟨0, _⟩ => by show a.val = if (4 : Nat) = 1 then 0 else a.val; rw [if_neg (by decide)]
    | ⟨1, _⟩ => by show d.val = if (16 : Nat) = 1 then 0 else d.val; rw [if_neg (by decide)])

/-- `[1, 4, 16] → [1600000, 4, 16]` along the unit first axis. -/
theorem bcast_att_edges (x : (⟨3, ![1, 4, 16]⟩ : Shape).Idx → α)
    (h : (⟨3, ![1, 4, 16]⟩ : Shape).BroadcastsInDim ⟨3, ![1600000, 4, 16]⟩ ![0, 1, 2]) (e : Fin 1600000) (a : Fin 4) (d : Fin 16) :
    broadcastInDim (⟨3, ![1600000, 4, 16]⟩ : Shape) ![0, 1, 2] h x (ix3 e a d) = x (ix3 (0 : Fin 1) a d) :=
  broadcastInDim_apply _ h x (ix3 e a d) (ix3 (0 : Fin 1) a d) (fun b => match b with
    | ⟨0, _⟩ => by show 0 = if (1 : Nat) = 1 then 0 else e.val; rw [if_pos rfl]
    | ⟨1, _⟩ => by show a.val = if (4 : Nat) = 1 then 0 else a.val; rw [if_neg (by decide)]
    | ⟨2, _⟩ => by show d.val = if (16 : Nat) = 1 then 0 else d.val; rw [if_neg (by decide)])

/-- `[64] → [64, 1]`: a unit last axis. -/
theorem bcast_col_unit (x : (⟨1, ![64]⟩ : Shape).Idx → α)
    (h : (⟨1, ![64]⟩ : Shape).BroadcastsInDim ⟨2, ![64, 1]⟩ ![0]) (q : Fin 64) :
    broadcastInDim (⟨2, ![64, 1]⟩ : Shape) ![0] h x (ix2 q (0 : Fin 1)) = x (ix1 q) :=
  broadcastInDim_apply _ h x (ix2 q (0 : Fin 1)) (ix1 q) (fun b => match b with
    | ⟨0, _⟩ => by show q.val = if (64 : Nat) = 1 then 0 else q.val; rw [if_neg (by decide)])

/-- `[64, 1] → [64, 4]` along the unit axis. -/
theorem bcast_col_heads (x : (⟨2, ![64, 1]⟩ : Shape).Idx → α)
    (h : (⟨2, ![64, 1]⟩ : Shape).BroadcastsInDim ⟨2, ![64, 4]⟩ ![0, 1]) (q : Fin 64) (a : Fin 4) :
    broadcastInDim (⟨2, ![64, 4]⟩ : Shape) ![0, 1] h x (ix2 q a) = x (ix2 q (0 : Fin 1)) :=
  broadcastInDim_apply _ h x (ix2 q a) (ix2 q (0 : Fin 1)) (fun b => match b with
    | ⟨0, _⟩ => by show q.val = if (64 : Nat) = 1 then 0 else q.val; rw [if_neg (by decide)]
    | ⟨1, _⟩ => by show 0 = if (1 : Nat) = 1 then 0 else a.val; rw [if_pos rfl])

/-- `[4] → [4, 16]` along a new last axis. -/
theorem bcast_head_cols (x : (⟨1, ![4]⟩ : Shape).Idx → α)
    (h : (⟨1, ![4]⟩ : Shape).BroadcastsInDim ⟨2, ![4, 16]⟩ ![0]) (a : Fin 4) (d : Fin 16) :
    broadcastInDim (⟨2, ![4, 16]⟩ : Shape) ![0] h x (ix2 a d) = x (ix1 a) :=
  broadcastInDim_apply _ h x (ix2 a d) (ix1 a) (fun b => match b with
    | ⟨0, _⟩ => by show a.val = if (4 : Nat) = 1 then 0 else a.val; rw [if_neg (by decide)])

/-- `[1, 4] → [64, 4]` along the unit first axis. -/
theorem bcast_heads_rows (x : (⟨2, ![1, 4]⟩ : Shape).Idx → α)
    (h : (⟨2, ![1, 4]⟩ : Shape).BroadcastsInDim ⟨2, ![64, 4]⟩ ![0, 1]) (q : Fin 64) (a : Fin 4) :
    broadcastInDim (⟨2, ![64, 4]⟩ : Shape) ![0, 1] h x (ix2 q a) = x (ix2 (0 : Fin 1) a) :=
  broadcastInDim_apply _ h x (ix2 q a) (ix2 (0 : Fin 1) a) (fun b => match b with
    | ⟨0, _⟩ => by show 0 = if (1 : Nat) = 1 then 0 else q.val; rw [if_pos rfl]
    | ⟨1, _⟩ => by show a.val = if (4 : Nat) = 1 then 0 else a.val; rw [if_neg (by decide)])

/-- `[64] → [1, 64]`: a unit first axis. -/
theorem bcast_bias_unit (x : (⟨1, ![64]⟩ : Shape).Idx → α)
    (h : (⟨1, ![64]⟩ : Shape).BroadcastsInDim ⟨2, ![1, 64]⟩ ![1]) (j : Fin 64) :
    broadcastInDim (⟨2, ![1, 64]⟩ : Shape) ![1] h x (ix2 (0 : Fin 1) j) = x (ix1 j) :=
  broadcastInDim_apply _ h x (ix2 (0 : Fin 1) j) (ix1 j) (fun b => match b with
    | ⟨0, _⟩ => by show j.val = if (64 : Nat) = 1 then 0 else j.val; rw [if_neg (by decide)])

/-- `[1, 64] → [100000, 64]` along the unit first axis. -/
theorem bcast_bias_rows (x : (⟨2, ![1, 64]⟩ : Shape).Idx → α)
    (h : (⟨2, ![1, 64]⟩ : Shape).BroadcastsInDim ⟨2, ![100000, 64]⟩ ![0, 1]) (n : Fin 100000) (j : Fin 64) :
    broadcastInDim (⟨2, ![100000, 64]⟩ : Shape) ![0, 1] h x (ix2 n j) = x (ix2 (0 : Fin 1) j) :=
  broadcastInDim_apply _ h x (ix2 n j) (ix2 (0 : Fin 1) j) (fun b => match b with
    | ⟨0, _⟩ => by show 0 = if (1 : Nat) = 1 then 0 else n.val; rw [if_pos rfl]
    | ⟨1, _⟩ => by show j.val = if (64 : Nat) = 1 then 0 else j.val; rw [if_neg (by decide)])

end LayoutReads

end
-- ==== Proof.Reads.lean ====
/-
  The pieces of one attention layer read at an index, on the extended reals.

  Kernel side: the edge score is the source projection at the edge's source row plus the destination projection at its
  destination row; the aggregation at node `n`, column `16 a + d`, is the sum over the edges whose destination is `n`
  of the source's projected feature times the edge's coefficient for head `a`. Reference side: the same quantities
  with the projected features kept as four heads of sixteen columns. Both sides name an edge's row through one and the
  same row map (index read signed, clamped), and an aggregation's edges through one and the same edge set (index read
  signed equal to the node).
-/
import proofs.«102483_j80513456931512_2_alg».proof.Proof.KStages
import proofs.«102483_j80513456931512_2_alg».proof.Proof.RStages
import proofs.«102483_j80513456931512_2_alg».proof.Proof.LibRowScatter
import proofs.«102483_j80513456931512_2_alg».proof.Proof.LibRowScatter3
import proofs.«102483_j80513456931512_2_alg».proof.Proof.LibPlainDot
import proofs.«102483_j80513456931512_2_alg».proof.Proof.LayoutReads
import proofs.«102483_j80513456931512_2_alg».proof.Proof.HeadSum
import proofs.«102483_j80513456931512_2_alg».proof.Proof.Gen.ReferenceIdeal.Read
import Idealize.ShloMosaic.Lib.IdealHost
import Idealize.ShloMosaic.PureOps.Ideal.Laws

set_option maxRecDepth 16384

noncomputable section

open scoped BigOperators

namespace Cert.Reads

open Idealize.ShloMosaic Idealize.ShloMosaic.ValueIdx HeadSum

/-- The row of the node table that edge `e`'s index names. -/
abbrev rowAt (idx : IVec ⟨2, ![1600000, 1]⟩ 32) (e : Fin 1600000) : Fin 100000 :=
  RowScatter.rowOf 100000 (by decide) idx e

/-- The edges whose index, read signed, is node `n`. -/
abbrev edgesInto (idx : IVec ⟨2, ![1600000, 1]⟩ 32) (n : Fin 100000) : Finset (Fin 1600000) :=
  Finset.univ.filter (fun e : Fin 1600000 => (idx (ix2 e (0 : Fin 1))).toInt = (n.val : ℤ))

/-! ## Gathers and scatters of the two programs -/

theorem gatherK4 (x : (⟨2, ![100000, 4]⟩ : Shape).Idx → EReal) (idx : IVec ⟨2, ![1600000, 1]⟩ 32) (e : Fin 1600000) (a : Fin 4) :
    Host.gather Cert.KernelIdeal.gather_S100000x4_S1600000x1_S1600000x4_1_0_n_n_0_1_14 x idx (ix2 e a) = x (ix2 (rowAt idx e) a) :=
  RowScatter.gather_rows (N := 100000) (E := 1600000) (W := 4) Cert.KernelIdeal.gather_S100000x4_S1600000x1_S1600000x4_1_0_n_n_0_1_14.wf (by decide) x idx e a

theorem gatherK64 (x : (⟨2, ![100000, 64]⟩ : Shape).Idx → EReal) (idx : IVec ⟨2, ![1600000, 1]⟩ 32) (e : Fin 1600000) (j : Fin 64) :
    Host.gather Cert.KernelIdeal.gather_S100000x64_S1600000x1_S1600000x64_1_0_n_n_0_1_164 x idx (ix2 e j) = x (ix2 (rowAt idx e) j) :=
  RowScatter.gather_rows (N := 100000) (E := 1600000) (W := 64) Cert.KernelIdeal.gather_S100000x64_S1600000x1_S1600000x64_1_0_n_n_0_1_164.wf (by decide) x idx e j

theorem scatterK64 (z : (⟨2, ![100000, 64]⟩ : Shape).Idx → EReal) (idx : IVec ⟨2, ![1600000, 1]⟩ 32)
    (upd : (⟨2, ![1600000, 64]⟩ : Shape).Idx → EReal) (n : Fin 100000) (j : Fin 64) :
    Host.scatterAdd (F := Ideal) (φ := .f32) Cert.KernelIdeal.scatter_S100000x64_S1600000x1_S1600000x64_1_0_0_1 z idx upd (ix2 n j)
      = z (ix2 n j) + ∑ e ∈ edgesInto idx n, upd (ix2 e j) :=
  RowScatter.hostScatterAdd_rows (N := 100000) (E := 1600000) (W := 64) Cert.KernelIdeal.scatter_S100000x64_S1600000x1_S1600000x64_1_0_0_1.wf z idx upd n j

theorem gatherR3 (x : (⟨3, ![100000, 4, 16]⟩ : Shape).Idx → EReal) (idx : IVec ⟨2, ![1600000, 1]⟩ 32) (e : Fin 1600000) (a : Fin 4) (d : Fin 16) :
    Host.gather Cert.ReferenceIdeal.gather_S100000x4x16_S1600000x1_S1600000x4x16_12_0_n_n_0_1_1416 x idx (ix3 e a d) = x (ix3 (rowAt idx e) a d) :=
  RowScatter3.gather_rows3 (N := 100000) (E := 1600000) (H := 4) (D := 16) Cert.ReferenceIdeal.gather_S100000x4x16_S1600000x1_S1600000x4x16_12_0_n_n_0_1_1416.wf (by decide) x idx e a d

theorem scatterR3 (z : (⟨3, ![100000, 4, 16]⟩ : Shape).Idx → EReal) (idx : IVec ⟨2, ![1600000, 1]⟩ 32)
    (upd : (⟨3, ![1600000, 4, 16]⟩ : Shape).Idx → EReal) (n : Fin 100000) (a : Fin 4) (d : Fin 16) :
    Host.scatterAdd (F := Ideal) (φ := .f32) Cert.ReferenceIdeal.scatter_S100000x4x16_S1600000x1_S1600000x4x16_12_0_0_1 z idx upd (ix3 n a d)
      = z (ix3 n a d) + ∑ e ∈ edgesInto idx n, upd (ix3 e a d) :=
  RowScatter3.hostScatterAdd_rows3 (N := 100000) (E := 1600000) (H := 4) (D := 16) Cert.ReferenceIdeal.scatter_S100000x4x16_S1600000x1_S1600000x4x16_12_0_0_1.wf z idx upd n a d

end Cert.Reads

end
-- ==== Proof.ReadsLayer.lean ====
/-
  One attention layer's scores, aggregation, projection and head-selector matrix read at an index, on the extended reals.
-/
import proofs.«102483_j80513456931512_2_alg».proof.Proof.Reads

set_option maxRecDepth 16384

noncomputable section

open scoped BigOperators

namespace Cert.Reads

open Idealize.ShloMosaic Idealize.ShloMosaic.ValueIdx HeadSum

/-! ## Constants -/

/-- A broadcast zero constant is zero at every index. -/
theorem bzero {T : Shape} (h : (⟨0, ![]⟩ : Shape).BroadcastsInDim T ![]) (j : T.Idx) :
    broadcastInDim T ![] h (constant (F := Ideal) (⟨0, ![]⟩ : Shape) .f32 0x00000000#32) j = (0 : EReal) :=
  (broadcastInDim_scalar_apply h _ j).trans Ideal.ofBits_zero_f32

/-! ## The kernel's scores and aggregation -/

theorem scoreK_apply (vs vd : (⟨Cert.KernelIdeal.S100000x4, .f32⟩ : BufTy).Contents (Elt Ideal))
    (si di : (⟨Cert.KernelIdeal.S1600000x1, .i32⟩ : BufTy).Contents (Elt Ideal)) (e : Fin 1600000) (a : Fin 4) :
    Cert.KernelIdeal.Stages.score (F := Ideal) vs vd si di (ix2 e a) = vs (ix2 (rowAt si e) a) + vd (ix2 (rowAt di e) a) := by
  unfold Cert.KernelIdeal.Stages.score
  rw [addf_apply, gatherK4, gatherK4]

theorem aggK_apply (xp : (⟨Cert.KernelIdeal.S100000x64, .f32⟩ : BufTy).Contents (Elt Ideal))
    (alpha : (⟨Cert.KernelIdeal.S1600000x4, .f32⟩ : BufTy).Contents (Elt Ideal))
    (si dr : (⟨Cert.KernelIdeal.S1600000x1, .i32⟩ : BufTy).Contents (Elt Ideal)) (n : Fin 100000) (a : Fin 4) (d : Fin 16) :
    Cert.KernelIdeal.Stages.aggregate (F := Ideal) xp alpha si dr (ix2 n (col a d))
      = ∑ e ∈ edgesInto dr n, xp (ix2 (rowAt si e) (col a d)) * alpha (ix2 e a) := by
  unfold Cert.KernelIdeal.Stages.aggregate
  refine (scatterK64 _ _ _ n (col a d)).trans ?_
  rw [bzero, zero_add]
  refine Finset.sum_congr rfl fun e _ => ?_
  rw [mulf_apply, gatherK64, LayoutReads.cast_merge, LayoutReads.bcast_heads]

/-! ## The reference's scores, aggregation and projection -/

/-- One term of a head's contraction: the gathered entry times the attention vector's. -/
theorem attTerm (g : (⟨Cert.ReferenceIdeal.S1600000x4x16, .f32⟩ : BufTy).Contents (Elt Ideal))
    (att : (⟨Cert.ReferenceIdeal.S4x16, .f32⟩ : BufTy).Contents (Elt Ideal)) (e : Fin 1600000) (a : Fin 4) (k : Fin 16) :
    (mulf (F := Ideal) (φ := .f32) g (broadcastInDim Cert.ReferenceIdeal.S1600000x4x16 ![0, 1, 2] Cert.ReferenceIdeal.Gen.bcast_S1x4x16_S1600000x4x16_0_1_2
      (broadcastInDim Cert.ReferenceIdeal.S1x4x16 ![1, 2] Cert.ReferenceIdeal.Gen.bcast_S4x16_S1x4x16_1_2 att))) (ix3 e a k)
      = g (ix3 e a k) * att (ix2 a k) := by
  rw [mulf_apply, LayoutReads.bcast_att_edges, LayoutReads.bcast_att_unit]

theorem headDot_apply (g : (⟨Cert.ReferenceIdeal.S1600000x4x16, .f32⟩ : BufTy).Contents (Elt Ideal))
    (att : (⟨Cert.ReferenceIdeal.S4x16, .f32⟩ : BufTy).Contents (Elt Ideal)) (e : Fin 1600000) (a : Fin 4) :
    Cert.ReferenceIdeal.Stages.headDot (F := Ideal) g att (ix2 e a) = ∑ k : Fin 16, g (ix3 e a k) * att (ix2 a k) := by
  unfold Cert.ReferenceIdeal.Stages.headDot
  simp only [Host.reduceAdd, Ideal.hostReduceAdd_def]
  rw [Ideal.hostReduceAdd_single Cert.ReferenceIdeal.Gen.reducesTo_S1600000x4x16_S1600000x4_d2 (by decide)]
  have h0 : (constant (F := Ideal) Cert.ReferenceIdeal.S_ .f32 0x00000000#32 (Shape.Idx.first Cert.ReferenceIdeal.Gen.h_S_) : EReal) = 0 :=
    Ideal.ofBits_zero_f32
  rw [h0, zero_add]
  refine Finset.sum_congr rfl fun k _ => ?_
  refine Eq.trans ?_ (attTerm g att e a k)
  refine congrArg (mulf (F := Ideal) (φ := .f32) g (broadcastInDim Cert.ReferenceIdeal.S1600000x4x16 ![0, 1, 2] Cert.ReferenceIdeal.Gen.bcast_S1x4x16_S1600000x4x16_0_1_2
      (broadcastInDim Cert.ReferenceIdeal.S1x4x16 ![1, 2] Cert.ReferenceIdeal.Gen.bcast_S4x16_S1x4x16_1_2 att))) ?_
  exact funext fun b => Fin.ext (by match b with | ⟨0, _⟩ => rfl | ⟨1, _⟩ => rfl | ⟨2, _⟩ => rfl)

theorem scoreR_apply (xp3 : (⟨Cert.ReferenceIdeal.S100000x4x16, .f32⟩ : BufTy).Contents (Elt Ideal))
    (atS atD : (⟨Cert.ReferenceIdeal.S4x16, .f32⟩ : BufTy).Contents (Elt Ideal))
    (si di : (⟨Cert.ReferenceIdeal.S1600000x1, .i32⟩ : BufTy).Contents (Elt Ideal)) (e : Fin 1600000) (a : Fin 4) :
    Cert.ReferenceIdeal.Stages.score (F := Ideal) xp3 atS atD si di (ix2 e a)
      = (∑ k : Fin 16, xp3 (ix3 (rowAt si e) a k) * atS (ix2 a k)) + ∑ k : Fin 16, xp3 (ix3 (rowAt di e) a k) * atD (ix2 a k) := by
  unfold Cert.ReferenceIdeal.Stages.score
  rw [addf_apply, headDot_apply, headDot_apply]
  refine congrArg₂ (fun x y : EReal => x + y) (Finset.sum_congr rfl fun k _ => ?_) (Finset.sum_congr rfl fun k _ => ?_)
  · rw [gatherR3]
  · rw [gatherR3]

theorem aggR_apply (xp3 : (⟨Cert.ReferenceIdeal.S100000x4x16, .f32⟩ : BufTy).Contents (Elt Ideal))
    (alpha : (⟨Cert.ReferenceIdeal.S1600000x4, .f32⟩ : BufTy).Contents (Elt Ideal))
    (si dr : (⟨Cert.ReferenceIdeal.S1600000x1, .i32⟩ : BufTy).Contents (Elt Ideal)) (n : Fin 100000) (a : Fin 4) (d : Fin 16) :
    Cert.ReferenceIdeal.Stages.aggregate (F := Ideal) xp3 alpha si dr (ix2 n (col a d))
      = ∑ e ∈ edgesInto dr n, xp3 (ix3 (rowAt si e) a d) * alpha (ix2 e a) := by
  unfold Cert.ReferenceIdeal.Stages.aggregate
  refine (LayoutReads.cast_merge _ _ n a d).trans ?_
  refine (scatterR3 _ _ _ n a d).trans ?_
  rw [bzero, zero_add]
  refine Finset.sum_congr rfl fun e _ => ?_
  rw [mulf_apply, gatherR3, LayoutReads.bcast_along_unit, LayoutReads.bcast_unit]

/-- The reference's 64-by-64 product read at an index. -/
theorem dotR64 (h : (⟨Cert.ReferenceIdeal.S100000x64, .f32⟩ : BufTy).Contents (Elt Ideal))
    (lw : (⟨Cert.ReferenceIdeal.S64x64, .f32⟩ : BufTy).Contents (Elt Ideal)) (n : Fin 100000) (j : Fin 64) :
    Host.dotGeneral (F := Ideal) (φ₁ := .f32) (φ₂ := .f32) Cert.ReferenceIdeal.dot_S100000x64_S64x64_S100000x64_1_0_0_1_n_n none h lw (ix2 n j)
      = ∑ k : Fin 64, h (ix2 n k) * lw (ix2 k j) := by
  unfold Host.dotGeneral
  exact Cert.Lib.PlainDot.dotGeneral_apply (M := 100000) (K := 64) (N := 64) Cert.ReferenceIdeal.dot_S100000x64_S64x64_S100000x64_1_0_0_1_n_n rfl rfl
    Cert.ReferenceIdeal.Read.lhs_main_v9_0 Cert.ReferenceIdeal.Read.lhs_main_v9_1 Cert.ReferenceIdeal.Read.rhs_main_v9_0 Cert.ReferenceIdeal.Read.rhs_main_v9_1
    none _ h lw (ix2 n j)

/-- The reference's 128-by-64 product read at an index. -/
theorem dotR128 (x : (⟨Cert.ReferenceIdeal.S100000x128, .f32⟩ : BufTy).Contents (Elt Ideal))
    (w : (⟨Cert.ReferenceIdeal.S128x64, .f32⟩ : BufTy).Contents (Elt Ideal)) (n : Fin 100000) (j : Fin 64) :
    Host.dotGeneral (F := Ideal) (φ₁ := .f32) (φ₂ := .f32) Cert.ReferenceIdeal.dot_S100000x128_S128x64_S100000x64_1_0_0_1_n_n none x w (ix2 n j)
      = ∑ k : Fin 128, x (ix2 n k) * w (ix2 k j) := by
  unfold Host.dotGeneral
  exact Cert.Lib.PlainDot.dotGeneral_apply (M := 100000) (K := 128) (N := 64) Cert.ReferenceIdeal.dot_S100000x128_S128x64_S100000x64_1_0_0_1_n_n rfl rfl
    Cert.ReferenceIdeal.Read.lhs_main_v4_0 Cert.ReferenceIdeal.Read.lhs_main_v4_1 Cert.ReferenceIdeal.Read.rhs_main_v4_0 Cert.ReferenceIdeal.Read.rhs_main_v4_1
    none _ x w (ix2 n j)

theorem proj3_apply (h : (⟨Cert.ReferenceIdeal.S100000x64, .f32⟩ : BufTy).Contents (Elt Ideal))
    (lw : (⟨Cert.ReferenceIdeal.S64x64, .f32⟩ : BufTy).Contents (Elt Ideal)) (n : Fin 100000) (a : Fin 4) (d : Fin 16) :
    Cert.ReferenceIdeal.Stages.proj3 (F := Ideal) h lw (ix3 n a d) = ∑ k : Fin 64, h (ix2 n k) * lw (ix2 k (col a d)) := by
  unfold Cert.ReferenceIdeal.Stages.proj3
  refine (LayoutReads.cast_split _ _ n a d).trans ?_
  exact dotR64 h lw n (col a d)

theorem embedR_apply (x : (⟨Cert.ReferenceIdeal.S100000x128, .f32⟩ : BufTy).Contents (Elt Ideal))
    (w : (⟨Cert.ReferenceIdeal.S128x64, .f32⟩ : BufTy).Contents (Elt Ideal))
    (b : (⟨Cert.ReferenceIdeal.S64, .f32⟩ : BufTy).Contents (Elt Ideal)) (n : Fin 100000) (j : Fin 64) :
    Cert.ReferenceIdeal.Stages.embed (F := Ideal) x w b (ix2 n j) = max ((∑ k : Fin 128, x (ix2 n k) * w (ix2 k j)) + b (ix1 j)) 0 := by
  unfold Cert.ReferenceIdeal.Stages.embed
  rw [maximumf_apply, addf_apply, dotR128, LayoutReads.bcast_bias_rows, LayoutReads.bcast_bias_unit, bzero]

/-! ## The head-selector matrix -/

/-- Two head numbers as 32-bit words are equal exactly when they are equal. -/
theorem cmpi_head : ∀ b a : Fin 4, (IntOp.cmpi .eq (BitVec.ofNat 32 b.val) (BitVec.ofNat 32 a.val)).toNat = if b.val = a.val then 1 else 0 := by
  decide

theorem oneHot_apply (b : Fin 4) (d : Fin 16) (a : Fin 4) :
    Cert.KernelIdeal.Stages.oneHot (F := Ideal) (ix2 (col b d) a) = if b.val = a.val then (1 : EReal) else 0 := by
  unfold Cert.KernelIdeal.Stages.oneHot
  show (((IntOp.cmpi .eq
      (broadcastInDim _ _ _ (broadcastInDim _ _ _ (shapeCast _ (broadcastInDim _ _ _ (iotaInDim Cert.KernelIdeal.S4 32 0)) _)) (ix2 (col b d) a))
      (broadcastInDim _ _ _ (iotaInDim Cert.KernelIdeal.S1x4 32 1) (ix2 (col b d) a))).toNat : ℝ) : EReal) = _
  rw [LayoutReads.bcast_col_heads, LayoutReads.bcast_col_unit, LayoutReads.cast_flat, LayoutReads.bcast_head_cols, LayoutReads.bcast_heads_rows]
  show (((IntOp.cmpi .eq (BitVec.ofNat 32 b.val) (BitVec.ofNat 32 a.val)).toNat : ℝ) : EReal) = _
  rw [cmpi_head]
  split_ifs <;> simp

theorem headW_apply (att : (⟨Cert.KernelIdeal.S4x16, .f32⟩ : BufTy).Contents (Elt Ideal)) (b : Fin 4) (d : Fin 16) (a : Fin 4) :
    Cert.KernelIdeal.Stages.headW (F := Ideal) att (ix2 (col b d) a) = (if b.val = a.val then (1 : EReal) else 0) * att (ix2 b d) := by
  unfold Cert.KernelIdeal.Stages.headW
  rw [mulf_apply, oneHot_apply, LayoutReads.bcast_col_heads, LayoutReads.bcast_col_unit, LayoutReads.cast_flat]

end Cert.Reads

end
-- ==== Proof.LayerBridge.lean ====
/-
  One attention layer: the kernel's arrangement against the reference's.

  Given node features `h`, a projection matrix `L` and two attention vectors, the kernel computes the projection
  `xp = h · L` and the two per-node scalars `vs = xp · Ws`, `vd = xp · Wd` with the head-selector matrices, gathers the
  scalars along the edges, and aggregates `xp`'s rows in the flat hidden width; the reference gathers `xp`'s rows seen
  as four heads of sixteen columns, contracts each head against the attention vector edge by edge, and aggregates
  head by head. The head-selector product keeps exactly one head's sixteen columns (on the extended reals a dropped
  term is `x · (0 · y) = 0` for every `x` and `y`, so nothing has to be finite), gathering a row commutes with
  contracting it, and the two aggregations sum the same terms over the same edges. From equal scores on, the two
  programs apply the same functions.
-/
import proofs.«102483_j80513456931512_2_alg».proof.Proof.ReadsLayer

set_option maxRecDepth 16384

noncomputable section

open scoped BigOperators

namespace Cert.Bridge

open Idealize.ShloMosaic Idealize.ShloMosaic.ValueIdx HeadSum Cert.Reads

/-- Every column of the hidden width is some head's column. -/
theorem col_decomp (c : Fin 64) : ∃ (a : Fin 4) (d : Fin 16), c = col a d := by
  have hc := c.isLt
  exact ⟨⟨c.val / 16, by omega⟩, ⟨c.val % 16, by omega⟩, Fin.ext (by show c.val = 16 * (c.val / 16) + c.val % 16; omega)⟩

/-- A product with the head-selector matrix keeps head `a`'s sixteen columns, against the attention vector. -/
theorem select_sum (f : Fin 64 → EReal) (att : (⟨Cert.KernelIdeal.S4x16, .f32⟩ : BufTy).Contents (Elt Ideal)) (a : Fin 4) :
    ∑ q : Fin 64, f q * Cert.KernelIdeal.Stages.headW (F := Ideal) att (ix2 q a) = ∑ d : Fin 16, f (col a d) * att (ix2 a d) := by
  rw [HeadSum.sum_cols, Finset.sum_eq_single a]
  · refine Finset.sum_congr rfl fun d _ => ?_
    rw [headW_apply, if_pos rfl, one_mul]
  · intro b _ hb
    refine Finset.sum_eq_zero fun d _ => ?_
    rw [headW_apply, if_neg (fun h => hb (Fin.ext h)), zero_mul, mul_zero]
  · intro h; exact absurd (Finset.mem_univ a) h

/-- The two programs make an index column for a gather in the same way … -/
theorem wrapCol_eq (v : (⟨Cert.KernelIdeal.S1600000, .i32⟩ : BufTy).Contents (Elt Ideal)) :
    Cert.KernelIdeal.Stages.wrapCol (F := Ideal) v = Cert.ReferenceIdeal.Stages.wrapCol (F := Ideal) v := rfl

/-- … and for a scatter … -/
theorem rawCol_eq (v : (⟨Cert.KernelIdeal.S1600000, .i32⟩ : BufTy).Contents (Elt Ideal)) :
    Cert.KernelIdeal.Stages.rawCol (F := Ideal) v = Cert.ReferenceIdeal.Stages.rawCol (F := Ideal) v := rfl

/-- … and turn scores into attention coefficients by the same functions. -/
theorem alphaOf_eq (e : (⟨Cert.KernelIdeal.S1600000x4, .f32⟩ : BufTy).Contents (Elt Ideal))
    (dr di : (⟨Cert.KernelIdeal.S1600000x1, .i32⟩ : BufTy).Contents (Elt Ideal)) :
    Cert.KernelIdeal.Stages.alphaOf (F := Ideal) e dr di = Cert.ReferenceIdeal.Stages.alphaOf (F := Ideal) e dr di := rfl

/-- THE LAYER: from the projection and the two head-selector products, the kernel's layer is the reference's. -/
theorem layer_eq
    (h : (⟨Cert.ReferenceIdeal.S100000x64, .f32⟩ : BufTy).Contents (Elt Ideal))
    (lw : (⟨Cert.ReferenceIdeal.S64x64, .f32⟩ : BufTy).Contents (Elt Ideal))
    (atS atD : (⟨Cert.ReferenceIdeal.S4x16, .f32⟩ : BufTy).Contents (Elt Ideal))
    (xp : (⟨Cert.KernelIdeal.S100000x64, .f32⟩ : BufTy).Contents (Elt Ideal))
    (vs vd : (⟨Cert.KernelIdeal.S100000x4, .f32⟩ : BufTy).Contents (Elt Ideal))
    (v1 v3 : (⟨Cert.KernelIdeal.S1600000, .i32⟩ : BufTy).Contents (Elt Ideal))
    (hxp : ∀ (n : Fin 100000) (j : Fin 64), xp (ix2 n j) = ∑ k : Fin 64, h (ix2 n k) * lw (ix2 k j))
    (hvs : ∀ (n : Fin 100000) (a : Fin 4), vs (ix2 n a)
      = ∑ q : Fin 64, (∑ k : Fin 64, h (ix2 n k) * lw (ix2 k q)) * Cert.KernelIdeal.Stages.headW (F := Ideal) atS (ix2 q a))
    (hvd : ∀ (n : Fin 100000) (a : Fin 4), vd (ix2 n a)
      = ∑ q : Fin 64, (∑ k : Fin 64, h (ix2 n k) * lw (ix2 k q)) * Cert.KernelIdeal.Stages.headW (F := Ideal) atD (ix2 q a)) :
    Cert.KernelIdeal.Stages.layerOut (F := Ideal) xp vs vd v1 v3 = Cert.ReferenceIdeal.Stages.layer (F := Ideal) h lw atS atD v1 v3 := by
  have hvs' : ∀ (n : Fin 100000) (a : Fin 4), vs (ix2 n a)
      = ∑ d : Fin 16, Cert.ReferenceIdeal.Stages.proj3 (F := Ideal) h lw (ix3 n a d) * atS (ix2 a d) := by
    intro n a
    rw [hvs, select_sum]
    exact Finset.sum_congr rfl fun d _ => by rw [proj3_apply]
  have hvd' : ∀ (n : Fin 100000) (a : Fin 4), vd (ix2 n a)
      = ∑ d : Fin 16, Cert.ReferenceIdeal.Stages.proj3 (F := Ideal) h lw (ix3 n a d) * atD (ix2 a d) := by
    intro n a
    rw [hvd, select_sum]
    exact Finset.sum_congr rfl fun d _ => by rw [proj3_apply]
  have hscore : Cert.KernelIdeal.Stages.score (F := Ideal) vs vd (Cert.ReferenceIdeal.Stages.wrapCol v1) (Cert.ReferenceIdeal.Stages.wrapCol v3)
      = Cert.ReferenceIdeal.Stages.score (F := Ideal) (Cert.ReferenceIdeal.Stages.proj3 h lw) atS atD
          (Cert.ReferenceIdeal.Stages.wrapCol v1) (Cert.ReferenceIdeal.Stages.wrapCol v3) := by
    funext i
    obtain ⟨e, a, rfl⟩ : ∃ (e : Fin 1600000) (a : Fin 4), i = ix2 e a := ⟨i 0, i 1, eq_ix2 i⟩
    rw [scoreK_apply, scoreR_apply, hvs', hvd']
  unfold Cert.KernelIdeal.Stages.layerOut Cert.ReferenceIdeal.Stages.layer
  rw [wrapCol_eq v1, wrapCol_eq v3, rawCol_eq v3, alphaOf_eq, hscore]
  funext i
  obtain ⟨n, c, rfl⟩ : ∃ (n : Fin 100000) (c : Fin 64), i = ix2 n c := ⟨i 0, i 1, eq_ix2 i⟩
  obtain ⟨a, d, rfl⟩ := col_decomp c
  rw [aggK_apply, aggR_apply]
  refine Finset.sum_congr rfl fun e _ => ?_
  rw [hxp, proj3_apply]

end Cert.Bridge

end
-- ==== Proof.Network.lean ====
/-
  The two idealized programs compute one function of the argument arrays.

  The kernel's result, traced through its segments, is the rectified second attention layer over the first over the
  embedded features; the reference's result term is the same composition in the reference's arrangement. The embedded
  features agree entry by entry (one matrix product, the bias, the rectifier), and each layer agrees by the layer
  identity, fed with the projection and the two head-selector products that the kernel's regions leave.
-/
import proofs.«102483_j80513456931512_2_alg».proof.Proof.KernelTrace
import proofs.«102483_j80513456931512_2_alg».proof.Proof.LayerBridge

set_option maxRecDepth 16384

noncomputable section

open scoped BigOperators

namespace Cert.Network

open Idealize.ShloMosaic Idealize.ShloMosaic.TcCoe Idealize.SL.Sem Idealize.ShloMosaic.ValueIdx HeadSum
open Cert.KernelIdeal.Trace Cert.KernelIdeal.RegionValue Cert.Reads Cert.Bridge

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)

/-- The embedded features the first region leaves are the reference's embedding. -/
theorem embed_eq : H0 m ρ c = Cert.ReferenceIdeal.Stages.embed (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) := by
  funext i
  obtain ⟨n, j, rfl⟩ : ∃ (n : Fin 100000) (j : Fin 64), i = ix2 n j := ⟨i 0, i 1, eq_ix2 i⟩
  rw [H0_apply, embedAt_def, embedR_apply, LayoutReads.cast_row]

/-- The first layer. -/
theorem layer1_eq : H1 m ρ c = Cert.ReferenceIdeal.Stages.layer (F := Ideal) (H0 m ρ c) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
    (Cert.ReferenceIdeal.Stages.srcOf (m ((c.tc : Thread Cert.KernelIdeal.nD Cert.KernelIdeal.τ).loc Cert.KernelIdeal.main_arg9))) (Cert.ReferenceIdeal.Stages.dstOf (m ((c.tc : Thread Cert.KernelIdeal.nD Cert.KernelIdeal.τ).loc Cert.KernelIdeal.main_arg9))) := by
  rw [H1_eq]
  exact layer_eq (H0 m ρ c) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (XP1 m ρ c) (VS1 m ρ c) (VD1 m ρ c)
    (Cert.KernelIdeal.Stages.srcOf (m ((c.tc : Thread Cert.KernelIdeal.nD Cert.KernelIdeal.τ).loc Cert.KernelIdeal.main_arg9))) (Cert.KernelIdeal.Stages.dstOf (m ((c.tc : Thread Cert.KernelIdeal.nD Cert.KernelIdeal.τ).loc Cert.KernelIdeal.main_arg9)))
    (fun n j => by rw [XP1_apply, proj1_xpAt_def])
    (fun n a => by rw [VS1_apply, proj1_vAt_def])
    (fun n a => by rw [VD1_apply, proj1_vAt_def])

/-- The second layer. -/
theorem layer2_eq : Cert.KernelIdeal.Stages.layerOut (F := Ideal) (XP2 m ρ c) (VS2 m ρ c) (VD2 m ρ c)
      (Cert.KernelIdeal.Stages.srcOf (m ((c.tc : Thread Cert.KernelIdeal.nD Cert.KernelIdeal.τ).loc Cert.KernelIdeal.main_arg9))) (Cert.KernelIdeal.Stages.dstOf (m ((c.tc : Thread Cert.KernelIdeal.nD Cert.KernelIdeal.τ).loc Cert.KernelIdeal.main_arg9)))
    = Cert.ReferenceIdeal.Stages.layer (F := Ideal) (H1 m ρ c) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))
    (Cert.ReferenceIdeal.Stages.srcOf (m ((c.tc : Thread Cert.KernelIdeal.nD Cert.KernelIdeal.τ).loc Cert.KernelIdeal.main_arg9))) (Cert.ReferenceIdeal.Stages.dstOf (m ((c.tc : Thread Cert.KernelIdeal.nD Cert.KernelIdeal.τ).loc Cert.KernelIdeal.main_arg9))) :=
  layer_eq (H1 m ρ c) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (XP2 m ρ c) (VS2 m ρ c) (VD2 m ρ c)
    (Cert.KernelIdeal.Stages.srcOf (m ((c.tc : Thread Cert.KernelIdeal.nD Cert.KernelIdeal.τ).loc Cert.KernelIdeal.main_arg9))) (Cert.KernelIdeal.Stages.dstOf (m ((c.tc : Thread Cert.KernelIdeal.nD Cert.KernelIdeal.τ).loc Cert.KernelIdeal.main_arg9)))
    (fun n j => by rw [XP2_apply, proj2_xpAt_def])
    (fun n a => by rw [VS2_apply, proj2_vAt_def])
    (fun n a => by rw [VD2_apply, proj2_vAt_def])

/-- THE KERNEL'S RESULT is the reference's network of the same argument arrays. -/
theorem result_eq : Cert.KernelIdeal.Gen.W16 m ρ c (Proc.devRef .tc Cert.KernelIdeal.main_v126)
    = Cert.ReferenceIdeal.Stages.network (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
        (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) := by
  rw [Cert.KernelIdeal.Trace.result_eq, layer2_eq, layer1_eq, embed_eq]
  rfl

end Cert.Network

end
-- ==== Proof.lean ====
/-
  The certificate of a two-layer graph-attention network: a kernel of three TensorCore regions (the node embedding and
  the linear projections of the two attention layers) among host operations (gathers along the edges, the softmax
  over incoming edges, scatter-added aggregation), against its plain array reference.

  Frames: the kernel's and the idealized kernel's are the generated frame certificates; the reference's is its
  generated run with the result dropped. The idealization rewrote nothing, so its preservation claim is trivial.
  Value: on the extended reals both programs compute, from the same arguments,

      relu (layer₂ (layer₁ (relu (x · W + b))))

  where a layer projects the node features, scores every edge head by head from the projected source and destination
  rows, normalises the exponentiated scores over the edges into each node, and sums the projected source rows weighted
  by those coefficients. The kernel obtains the per-head scores by multiplying the projection with a head-selector
  matrix before gathering, and aggregates in the flat hidden width; the reference gathers first, contracts each head's
  sixteen columns edge by edge, and aggregates head by head. The two arrangements agree term by term, using only
  commutativity and associativity of sums and `x · 0 = 0`, so the finiteness of the inputs is never used.
-/
import proofs.«102483_j80513456931512_2_alg».proof.Defs
import proofs.«102483_j80513456931512_2_alg».proof.Proof.Gen.Kernel
import proofs.«102483_j80513456931512_2_alg».proof.Proof.Gen.Kernel.Skeleton
import proofs.«102483_j80513456931512_2_alg».proof.Proof.Gen.Kernel.Launch
import proofs.«102483_j80513456931512_2_alg».proof.Proof.Gen.Kernel.Points
import proofs.«102483_j80513456931512_2_alg».proof.Proof.Gen.Kernel.Frame
import proofs.«102483_j80513456931512_2_alg».proof.Proof.Gen.KernelIdeal
import proofs.«102483_j80513456931512_2_alg».proof.Proof.Gen.KernelIdeal.Skeleton
import proofs.«102483_j80513456931512_2_alg».proof.Proof.Gen.KernelIdeal.Launch
import proofs.«102483_j80513456931512_2_alg».proof.Proof.Gen.KernelIdeal.Points
import proofs.«102483_j80513456931512_2_alg».proof.Proof.Gen.KernelIdeal.Frame
import proofs.«102483_j80513456931512_2_alg».proof.Proof.Gen.ReferenceIdeal
import proofs.«102483_j80513456931512_2_alg».proof.Proof.Gen.Pre_finite_inputs
import proofs.«102483_j80513456931512_2_alg».proof.Proof.Gen.ReferenceIdeal.Run
import proofs.«102483_j80513456931512_2_alg».proof.Proof.Gen.ReferenceIdeal.Read
import proofs.«102483_j80513456931512_2_alg».proof.Proof.KernelRun
import proofs.«102483_j80513456931512_2_alg».proof.Proof.Network
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs run, and from agreeing arguments end with the same result array: the kernel's traced
    result and the reference's result term are one network of the argument arrays. -/
theorem algebraic : Cert.algebraic_KernelIdeal_ReferenceIdeal := by
  intro m ρ m' ρ' _ hagree
  refine ⟨fun c => Cert.KernelIdeal.Gen.W16 m ρ c (Proc.devRef .tc Cert.KernelIdeal.main_v126),
    Cert.KernelIdeal.Run.run_result m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9⟩ := hagree c
  show Cert.ReferenceIdeal.Value.res_main_v111 m' c = Cert.KernelIdeal.Gen.W16 m ρ c (Proc.devRef .tc Cert.KernelIdeal.main_v126)
  rw [Cert.ReferenceIdeal.Stages.result_eq, Cert.Network.result_eq, h0, h1, h2, h3, h4, h5, h6, h7, h8, h9]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
